-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v111)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v111) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v155) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x600000 : Shape := ⟨2, ![2, 600000]⟩
abbrev S256x128 : Shape := ⟨2, ![256, 128]⟩
abbrev S128 : Shape := ⟨1, ![128]⟩
abbrev S128x128 : Shape := ⟨2, ![128, 128]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part2 {F : FTy → Type} [FloatOps F] (main_arg8 : FVec F S128 .f32) (main_arg9 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg5 : FVec F S128 .f32) (main_arg6 : FVec F S128 .f32) (main_arg7 : FVec F S128 .f32) (main_arg8 : FVec F S128 .f32) (main_arg9 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : FVec F S50000x256 .f32) (main_arg1 : IVec S2x600000 32) (main_arg2 : FVec F S256x128 .f32) (main_arg3 : FVec F S128 .f32) (main_arg4 : FVec F S128x128 .f32) (main_arg5 : FVec F S128 .f32) (main_arg6 : FVec F S128 .f32) (main_arg7 : FVec F S128 .f32) (main_arg8 : FVec F S128 .f32) (main_arg9 : FVec F S128 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S50000x256 : Shape := ⟨2, ![50000, 256]⟩
abbrev S2x600000 : Shape := ⟨2, ![2, 600000]⟩
abbrev S256x128 : Shape := ⟨2, ![256, 128]⟩
abbrev S128 : Shape := ⟨1, ![128]⟩
abbrev S128x128 : Shape := ⟨2, ![128, 128]⟩
abbrev S50000 : Shape := ⟨1, ![50000]⟩
abbrev S1x600000 : Shape := ⟨2, ![1, 600000]⟩
abbrev S600000 : Shape := ⟨1, ![600000]⟩
abbrev S650000 : Shape := ⟨1, ![650000]⟩
abbrev S1x128 : Shape := ⟨2, ![1, 128]⟩
abbrev S50000x128 : Shape := ⟨2, ![50000, 128]⟩
abbrev S1000x256 : Shape := ⟨2, ![1000, 256]⟩
abbrev S1000x128 : Shape := ⟨2, ![1000, 128]⟩
abbrev S_ : Shape := ⟨0, ![]⟩
abbrev S650000x1 : Shape := ⟨2, ![650000, 1]⟩
abbrev S650000x128 : Shape := ⟨2, ![650000, 128]⟩

abbrev nBuf : Space → Nat
  | .hbm => 156
  | .vmem => 36
  | .smem => 0
  | _ => 0

abbrev hbmTy0_0 (i : Nat) : BufTy := match i % 128 with
  | 0 => ⟨S50000x256, .f32⟩
  | 1 => ⟨S2x600000, .i32⟩
  | 2 => ⟨S256x128, .f32⟩
  | 3 => ⟨S128, .f32⟩
  | 4 => ⟨S128x128, .f32⟩
  | 5 => ⟨S128, .f32⟩
  | 6 => ⟨S128, .f32⟩
  | 7 => ⟨S128, .f32⟩
  | 8 => ⟨S128, .f32⟩
  | 9 => ⟨S128, .f32⟩
  | 10 => ⟨S50000, .i32⟩
  | 11 => ⟨S1x600000, .i32⟩
  | 12 => ⟨S600000, .i32⟩
  | 13 => ⟨S650000, .i32⟩
  | 14 => ⟨S1x600000, .i32⟩
  | 15 => ⟨S600000, .i32⟩
  | 16 => ⟨S650000, .i32⟩
  | 17 => ⟨S1x128, .f32⟩
  | 18 => ⟨S50000x128, .f32⟩
  | 19 => ⟨S_, .f32⟩
  | 20 => ⟨S650000, .f32⟩
  | 21 => ⟨S_, .f32⟩
  | 22 => ⟨S50000, .f32⟩
  | 23 => ⟨S650000x1, .i32⟩
  | 24 => ⟨S50000, .f32⟩
  | 25 => ⟨S_, .f32⟩
  | 26 => ⟨S50000, .f32⟩
  | 27 => ⟨S50000, .i1⟩
  | 28 => ⟨S_, .f32⟩
  | 29 => ⟨S50000, .f32⟩
  | 30 => ⟨S50000, .f32⟩
  | 31 => ⟨S_, .f32⟩
  | 32 => ⟨S_, .f32⟩
  | 33 => ⟨S50000, .f32⟩
  | 34 => ⟨S50000, .f32⟩
  | 35 => ⟨S_, .i32⟩
  | 36 => ⟨S650000, .i32⟩
  | 37 => ⟨S650000, .i1⟩
  | 38 => ⟨S_, .i32⟩
  | 39 => ⟨S650000, .i32⟩
  | 40 => ⟨S650000, .i32⟩
  | 41 => ⟨S650000, .i32⟩
  | 42 => ⟨S650000x1, .i32⟩
  | 43 => ⟨S650000, .f32⟩
  | 44 => ⟨S_, .i32⟩
  | 45 => ⟨S650000, .i32⟩
  | 46 => ⟨S650000, .i1⟩
  | 47 => ⟨S_, .i32⟩
  | 48 => ⟨S650000, .i32⟩
  | 49 => ⟨S650000, .i32⟩
  | 50 => ⟨S650000, .i32⟩
  | 51 => ⟨S650000x1, .i32⟩
  | 52 => ⟨S650000, .f32⟩
  | 53 => ⟨S650000, .f32⟩
  | 54 => ⟨S650000x1, .f32⟩
  | 55 => ⟨S_, .i32⟩
  | 56 => ⟨S650000, .i32⟩
  | 57 => ⟨S650000, .i1⟩
  | 58 => ⟨S_, .i32⟩
  | 59 => ⟨S650000, .i32⟩
  | 60 => ⟨S650000, .i32⟩
  | 61 => ⟨S650000, .i32⟩
  | 62 => ⟨S650000x1, .i32⟩
  | 63 => ⟨S650000x128, .f32⟩
  | 64 => ⟨S650000x128, .f32⟩
  | 65 => ⟨S650000x128, .f32⟩
  | 66 => ⟨S_, .f32⟩
  | 67 => ⟨S50000x128, .f32⟩
  | 68 => ⟨S650000x1, .i32⟩
  | 69 => ⟨S50000x128, .f32⟩
  | 70 => ⟨S1x128, .f32⟩
  | 71 => ⟨S1x128, .f32⟩
  | 72 => ⟨S_, .f32⟩
  | 73 => ⟨S1x128, .f32⟩
  | 74 => ⟨S1x128, .f32⟩
  | 75 => ⟨S_, .f32⟩
  | 76 => ⟨S1x128, .f32⟩
  | 77 => ⟨S1x128, .f32⟩
  | 78 => ⟨S1x128, .f32⟩
  | 79 => ⟨S1x128, .f32⟩
  | 80 => ⟨S1x128, .f32⟩
  | 81 => ⟨S1x128, .f32⟩
  | 82 => ⟨S50000x128, .f32⟩
  | 83 => ⟨S50000, .i32⟩
  | 84 => ⟨S1x600000, .i32⟩
  | 85 => ⟨S600000, .i32⟩
  | 86 => ⟨S650000, .i32⟩
  | 87 => ⟨S1x600000, .i32⟩
  | 88 => ⟨S600000, .i32⟩
  | 89 => ⟨S650000, .i32⟩
  | 90 => ⟨S1x128, .f32⟩
  | 91 => ⟨S50000x128, .f32⟩
  | 92 => ⟨S_, .f32⟩
  | 93 => ⟨S650000, .f32⟩
  | 94 => ⟨S_, .f32⟩
  | 95 => ⟨S50000, .f32⟩
  | 96 => ⟨S650000x1, .i32⟩
  | 97 => ⟨S50000, .f32⟩
  | 98 => ⟨S_, .f32⟩
  | 99 => ⟨S50000, .f32⟩
  | 100 => ⟨S50000, .i1⟩
  | 101 => ⟨S_, .f32⟩
  | 102 => ⟨S50000, .f32⟩
  | 103 => ⟨S50000, .f32⟩
  | 104 => ⟨S_, .f32⟩
  | 105 => ⟨S_, .f32⟩
  | 106 => ⟨S50000, .f32⟩
  | 107 => ⟨S50000, .f32⟩
  | 108 => ⟨S_, .i32⟩
  | 109 => ⟨S650000, .i32⟩
  | 110 => ⟨S650000, .i1⟩
  | 111 => ⟨S_, .i32⟩
  | 112 => ⟨S650000, .i32⟩
  | 113 => ⟨S650000, .i32⟩
  | 114 => ⟨S650000, .i32⟩
  | 115 => ⟨S650000x1, .i32⟩
  | 116 => ⟨S650000, .f32⟩
  | 117 => ⟨S_, .i32⟩
  | 118 => ⟨S650000, .i32⟩
  | 119 => ⟨S650000, .i1⟩
  | 120 => ⟨S_, .i32⟩
  | 121 => ⟨S650000, .i32⟩
  | 122 => ⟨S650000, .i32⟩
  | 123 => ⟨S650000, .i32⟩
  | 124 => ⟨S650000x1, .i32⟩
  | 125 => ⟨S650000, .f32⟩
  | 126 => ⟨S650000, .f32⟩
  | 127 => ⟨S650000x1, .f32⟩
  | _ => ⟨S50000x256, .f32⟩

abbrev hbmTy0_1 (i : Nat) : BufTy := match i % 128 with
  | 0 => ⟨S_, .i32⟩
  | 1 => ⟨S650000, .i32⟩
  | 2 => ⟨S650000, .i1⟩
  | 3 => ⟨S_, .i32⟩
  | 4 => ⟨S650000, .i32⟩
  | 5 => ⟨S650000, .i32⟩
  | 6 => ⟨S650000, .i32⟩
  | 7 => ⟨S650000x1, .i32⟩
  | 8 => ⟨S650000x128, .f32⟩
  | 9 => ⟨S650000x128, .f32⟩
  | 10 => ⟨S650000x128, .f32⟩
  | 11 => ⟨S_, .f32⟩
  | 12 => ⟨S50000x128, .f32⟩
  | 13 => ⟨S650000x1, .i32⟩
  | 14 => ⟨S50000x128, .f32⟩
  | 15 => ⟨S1x128, .f32⟩
  | 16 => ⟨S1x128, .f32⟩
  | 17 => ⟨S_, .f32⟩
  | 18 => ⟨S1x128, .f32⟩
  | 19 => ⟨S1x128, .f32⟩
  | 20 => ⟨S_, .f32⟩
  | 21 => ⟨S1x128, .f32⟩
  | 22 => ⟨S1x128, .f32⟩
  | 23 => ⟨S1x128, .f32⟩
  | 24 => ⟨S1x128, .f32⟩
  | 25 => ⟨S1x128, .f32⟩
  | 26 => ⟨S1x128, .f32⟩
  | 27 => ⟨S50000x128, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | .local _ .vmem, ⟨0, _⟩ => ⟨S1000x256, .f32⟩
  | .local _ .vmem, ⟨1, _⟩ => ⟨S1000x256, .f32⟩
  | .local _ .vmem, ⟨2, _⟩ => ⟨S256x128, .f32⟩
  | .local _ .vmem, ⟨3, _⟩ => ⟨S1x128, .f32⟩
  | .local _ .vmem, ⟨4, _⟩ => ⟨S1000x128, .f32⟩
  | .local _ .vmem, ⟨5, _⟩ => ⟨S1000x128, .f32⟩
  | .local _ .vmem, ⟨6, _⟩ => ⟨S1000x128, .f32⟩
  | .local _ .vmem, ⟨7, _⟩ => ⟨S1000x128, .f32⟩
  | .local _ .vmem, ⟨8, _⟩ => ⟨S1x128, .f32⟩
  | .local _ .vmem, ⟨9, _⟩ => ⟨S1x128, .f32⟩
  | .local _ .vmem, ⟨10, _⟩ => ⟨S1000x128, .f32⟩
  | .local _ .vmem, ⟨11, _⟩ => ⟨S1000x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S1000x128, .f32⟩
  | .local _ .vmem, ⟨17, _⟩ => ⟨S1000x128, .f32⟩
  | .local _ .vmem, ⟨18, _⟩ => ⟨S1000x128, .f32⟩
  | .local _ .vmem, ⟨19, _⟩ => ⟨S1000x128, .f32⟩
  | .local _ .vmem, ⟨20, _⟩ => ⟨S128x128, .f32⟩
  | .local _ .vmem, ⟨21, _⟩ => ⟨S1x128, .f32⟩
  | .local _ .vmem, ⟨22, _⟩ => ⟨S1000x128, .f32⟩
  | .local _ .vmem, ⟨23, _⟩ => ⟨S1000x128, .f32⟩
  | .local _ .vmem, ⟨24, _⟩ => ⟨S1000x128, .f32⟩
  | .local _ .vmem, ⟨25, _⟩ => ⟨S1000x128, .f32⟩
  | .local _ .vmem, ⟨26, _⟩ => ⟨S1x128, .f32⟩
  | .local _ .vmem, ⟨27, _⟩ => ⟨S1x128, .f32⟩
  | .local _ .vmem, ⟨28, _⟩ => ⟨S1000x128, .f32⟩
  | .local _ .vmem, ⟨29, _⟩ => ⟨S1000x128, .f32⟩
  | .local _ .vmem, ⟨30, _⟩ => ⟨S1x128, .f32⟩
  | .local _ .vmem, ⟨31, _⟩ => ⟨S1x128, .f32⟩
  | .local _ .vmem, ⟨32, _⟩ => ⟨S1x128, .f32⟩
  | .local _ .vmem, ⟨33, _⟩ => ⟨S1x128, .f32⟩
  | .local _ .vmem, ⟨34, _⟩ => ⟨S1000x128, .f32⟩
  | .local _ .vmem, ⟨35, _⟩ => ⟨S1000x128, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v17 : Ref sig .tc := ⟨.hbm, 34, rfl⟩
abbrev main_c : Ref sig .tc := ⟨.hbm, 35, rfl⟩
abbrev main_v18 : Ref sig .tc := ⟨.hbm, 36, rfl⟩
abbrev main_v19 : Ref sig .tc := ⟨.hbm, 37, rfl⟩
abbrev main_c_4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_c_5 : Ref sig .tc := ⟨.hbm, 44, rfl⟩
abbrev main_v25 : Ref sig .tc := ⟨.hbm, 45, rfl⟩
abbrev main_v26 : Ref sig .tc := ⟨.hbm, 46, rfl⟩
abbrev main_c_6 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_c_7 : Ref sig .tc := ⟨.hbm, 55, rfl⟩
abbrev main_v34 : Ref sig .tc := ⟨.hbm, 56, rfl⟩
abbrev main_v35 : Ref sig .tc := ⟨.hbm, 57, rfl⟩
abbrev main_c_8 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_9 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46_0 : Ref sig .tc := ⟨.hbm, 70, rfl⟩
abbrev main_v46_1 : Ref sig .tc := ⟨.hbm, 71, rfl⟩
abbrev main_cst_10 : Ref sig .tc := ⟨.hbm, 72, rfl⟩
abbrev main_v47 : Ref sig .tc := ⟨.hbm, 73, rfl⟩
abbrev main_v48 : Ref sig .tc := ⟨.hbm, 74, rfl⟩
abbrev main_cst_11 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_cst_12 : Ref sig .tc := ⟨.hbm, 92, rfl⟩
abbrev main_v65 : Ref sig .tc := ⟨.hbm, 93, rfl⟩
abbrev main_cst_13 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_cst_14 : Ref sig .tc := ⟨.hbm, 98, rfl⟩
abbrev main_v69 : Ref sig .tc := ⟨.hbm, 99, rfl⟩
abbrev main_v70 : Ref sig .tc := ⟨.hbm, 100, rfl⟩
abbrev main_cst_15 : Ref sig .tc := ⟨.hbm, 101, rfl⟩
abbrev main_v71 : Ref sig .tc := ⟨.hbm, 102, rfl⟩
abbrev main_v72 : Ref sig .tc := ⟨.hbm, 103, rfl⟩
abbrev main_cst_16 : Ref sig .tc := ⟨.hbm, 104, rfl⟩
abbrev main_call1_v0 : Ref sig .tc := ⟨.hbm, 105, rfl⟩
abbrev main_call1_v1 : Ref sig .tc := ⟨.hbm, 106, rfl⟩
abbrev main_v73 : Ref sig .tc := ⟨.hbm, 107, rfl⟩
abbrev main_c_17 : Ref sig .tc := ⟨.hbm, 108, rfl⟩
abbrev main_v74 : Ref sig .tc := ⟨.hbm, 109, rfl⟩
abbrev main_v75 : Ref sig .tc := ⟨.hbm, 110, rfl⟩
abbrev main_c_18 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_c_19 : Ref sig .tc := ⟨.hbm, 117, rfl⟩
abbrev main_v81 : Ref sig .tc := ⟨.hbm, 118, rfl⟩
abbrev main_v82 : Ref sig .tc := ⟨.hbm, 119, rfl⟩
abbrev main_c_20 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_c_21 : Ref sig .tc := ⟨.hbm, 128, rfl⟩
abbrev main_v90 : Ref sig .tc := ⟨.hbm, 129, rfl⟩
abbrev main_v91 : Ref sig .tc := ⟨.hbm, 130, rfl⟩
abbrev main_c_22 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_cst_23 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102_0 : Ref sig .tc := ⟨.hbm, 143, rfl⟩
abbrev main_v102_1 : Ref sig .tc := ⟨.hbm, 144, rfl⟩
abbrev main_cst_24 : Ref sig .tc := ⟨.hbm, 145, rfl⟩
abbrev main_v103 : Ref sig .tc := ⟨.hbm, 146, rfl⟩
abbrev main_v104 : Ref sig .tc := ⟨.hbm, 147, rfl⟩
abbrev main_cst_25 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg4_0 : Ref sig .tc := ⟨.vmem, 15, rfl⟩
abbrev cc2_stg5_0 : Ref sig .tc := ⟨.vmem, 16, rfl⟩
abbrev cc2_stg5_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc5_stg0_0 : Ref sig .tc := ⟨.vmem, 28, rfl⟩
abbrev cc5_stg0_1 : Ref sig .tc := ⟨.vmem, 29, rfl⟩
abbrev cc5_stg1_0 : Ref sig .tc := ⟨.vmem, 30, rfl⟩
abbrev cc5_stg2_0 : Ref sig .tc := ⟨.vmem, 31, rfl⟩
abbrev cc5_stg3_0 : Ref sig .tc := ⟨.vmem, 32, rfl⟩
abbrev cc5_stg4_0 : Ref sig .tc := ⟨.vmem, 33, rfl⟩
abbrev cc5_stg5_0 : Ref sig .tc := ⟨.vmem, 34, rfl⟩
abbrev cc5_stg5_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem4_0 : DmaSem sig := 15
abbrev cc2_sem5_0 : DmaSem sig := 16
abbrev cc2_sem5_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc5_sem0_0 : DmaSem sig := 28
abbrev cc5_sem0_1 : DmaSem sig := 29
abbrev cc5_sem1_0 : DmaSem sig := 30
abbrev cc5_sem2_0 : DmaSem sig := 31
abbrev cc5_sem3_0 : DmaSem sig := 32
abbrev cc5_sem4_0 : DmaSem sig := 33
abbrev cc5_sem5_0 : DmaSem sig := 34
abbrev cc5_sem5_1 : DmaSem sig := 35

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S1000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S1000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S1000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S1000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S1000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

class Facts₀ : Prop where
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  shapeCasts_S128_S1x128 : S128.ShapeCasts S1x128
  inb_S1000x256_S1000x256_0_0 : ∀ a, (![0, 0] : Fin 2 → Nat) a + S1000x256.size a ≤ S1000x256.size a
  h_S1000x256 : 0 < S1000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1000x128 : S1x128.Broadcasts S1000x128
  inb_S1000x128_S1000x128_0_0 : ∀ a, (![0, 0] : Fin 2 → Nat) a + S1000x128.size a ≤ S1000x128.size a
  h_S1000x128 : 0 < S1000x128.numel
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  shapeCasts_S1000x128_S1000x128 : S1000x128.ShapeCasts S1000x128
  reduces_S1000x128_S128 : S1000x128.Reduces [0] S128
  bcast_S_S1x128 : S_.BroadcastsInDim S1x128 (![] : Fin 0 → Fin S1x128.rank)
  inb_S128x128_S128x128_0_0 : ∀ a, (![0, 0] : Fin 2 → Nat) a + S128x128.size a ≤ S128x128.size a
  h_S128x128 : 0 < S128x128.numel
  dot_S1000x256_S256x128_S1000x128_1_0_0_1_n_n_wf : DotDims.WF S1000x256 S256x128 S1000x128 [1] [0] [0] [1] [] []
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  dot_S1000x128_S128x128_S1000x128_1_0_0_1_n_n_wf : DotDims.WF S1000x128 S128x128 S1000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x256.size a ≤ S50000x256.size a
  hwx0_0 : ∀ i : grid0.Coords, EltTy.bits .f32 = 32 ∨ (Rect.block (s := S50000x256) S1000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x128.size a ≤ S50000x128.size a
  hwx0_3 : ∀ i : grid0.Coords, EltTy.bits .f32 = 32 ∨ (Rect.block (s := S50000x128) S1000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x128.size a ≤ S50000x128.size a
  hwx1_0 : ∀ i : grid1.Coords, EltTy.bits .f32 = 32 ∨ (Rect.block (s := S50000x128) S1000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x128.size a ≤ S50000x128.size a
  hwx2_0 : ∀ i : grid2.Coords, EltTy.bits .f32 = 32 ∨ (Rect.block (s := S50000x128) S1000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1000x128.size a ≤ S50000x128.size a
  hwx2_5 : ∀ i : grid2.Coords, EltTy.bits .f32 = 32 ∨ (Rect.block (s := S50000x128) S1000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x128.size a ≤ S50000x128.size a
  hwx3_0 : ∀ i : grid3.Coords, EltTy.bits .f32 = 32 ∨ (Rect.block (s := S50000x128) S1000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1000x128.size a ≤ S50000x128.size a
  hwx3_3 : ∀ i : grid3.Coords, EltTy.bits .f32 = 32 ∨ (Rect.block (s := S50000x128) S1000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1000x128.size a ≤ S50000x128.size a
  hwx4_0 : ∀ i : grid4.Coords, EltTy.bits .f32 = 32 ∨ (Rect.block (s := S50000x128) S1000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1000x128.size a ≤ S50000x128.size a
  hwx5_0 : ∀ i : grid5.Coords, EltTy.bits .f32 = 32 ∨ (Rect.block (s := S50000x128) S1000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S1000x128.size a ≤ S50000x128.size a
  hwx5_5 : ∀ i : grid5.Coords, EltTy.bits .f32 = 32 ∨ (Rect.block (s := S50000x128) S1000x128.size (cc5_transform_5 i) (hinb5_5 i)).WholeWords (EltTy.packing .f32)

variable [Facts₀]

def dot_S1000x256_S256x128_S1000x128_1_0_0_1_n_n : DotDims S1000x256 S256x128 S1000x128 where
  lhsContracting := [1]
  rhsContracting := [0]
  lhsNonContracting := [0]
  rhsNonContracting := [1]
  lhsBatch := []
  rhsBatch := []
  wf := dot_S1000x256_S256x128_S1000x128_1_0_0_1_n_n_wf
def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf

abbrev win0_0 : Pipeline.Window sig grid0 :=
  Pipeline.Window.ofSpec (Memref.whole main_arg0) S1000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v45) S1000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46_0) S1x128.size cc1_transform_1 reads1_1 true true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46_1) S1x128.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S1000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v48) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v52) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v53) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v54) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v55) S1000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v55) S1000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg4) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v64) S1000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v101) S1000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v102_0) S1x128.size cc4_transform_1 reads4_1 true true 1 stage4_1 sem4_1
    hrank4 hreads4_1 hinb4_1 nbuf4_1 (Memref.isWhole_whole _) hwx4_1 hstage4_1

abbrev win4_2 : Pipeline.Window sig grid4 :=
  Pipeline.Window.ofSpec (Memref.whole main_v102_1) S1x128.size cc4_transform_2 reads4_2 true true 1 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v101) S1000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v104) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v108) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v109) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v110) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v111) S1000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S50000x256 : Shape := ⟨2, ![50000, 256]⟩
abbrev S2x600000 : Shape := ⟨2, ![2, 600000]⟩
abbrev S256x128 : Shape := ⟨2, ![256, 128]⟩
abbrev S128 : Shape := ⟨1, ![128]⟩
abbrev S128x128 : Shape := ⟨2, ![128, 128]⟩
abbrev S50000 : Shape := ⟨1, ![50000]⟩
abbrev S1x600000 : Shape := ⟨2, ![1, 600000]⟩
abbrev S600000 : Shape := ⟨1, ![600000]⟩
abbrev S650000 : Shape := ⟨1, ![650000]⟩
abbrev S50000x128 : Shape := ⟨2, ![50000, 128]⟩
abbrev S1x128 : Shape := ⟨2, ![1, 128]⟩
abbrev S_ : Shape := ⟨0, ![]⟩
abbrev S650000x1 : Shape := ⟨2, ![650000, 1]⟩
abbrev S650000x128 : Shape := ⟨2, ![650000, 128]⟩

abbrev nBuf : Space → Nat
  | .hbm => 208
  | .vmem => 0
  | .smem => 0
  | _ => 0

abbrev hbmTy0_0 (i : Nat) : BufTy := match i % 128 with
  | 0 => ⟨S50000x256, .f32⟩
  | 1 => ⟨S2x600000, .i32⟩
  | 2 => ⟨S256x128, .f32⟩
  | 3 => ⟨S128, .f32⟩
  | 4 => ⟨S128x128, .f32⟩
  | 5 => ⟨S128, .f32⟩
  | 6 => ⟨S128, .f32⟩
  | 7 => ⟨S128, .f32⟩
  | 8 => ⟨S128, .f32⟩
  | 9 => ⟨S128, .f32⟩
  | 10 => ⟨S50000, .i32⟩
  | 11 => ⟨S1x600000, .i32⟩
  | 12 => ⟨S600000, .i32⟩
  | 13 => ⟨S650000, .i32⟩
  | 14 => ⟨S1x600000, .i32⟩
  | 15 => ⟨S600000, .i32⟩
  | 16 => ⟨S650000, .i32⟩
  | 17 => ⟨S50000x128, .f32⟩
  | 18 => ⟨S1x128, .f32⟩
  | 19 => ⟨S50000x128, .f32⟩
  | 20 => ⟨S50000x128, .f32⟩
  | 21 => ⟨S_, .f32⟩
  | 22 => ⟨S650000, .f32⟩
  | 23 => ⟨S_, .f32⟩
  | 24 => ⟨S50000, .f32⟩
  | 25 => ⟨S650000x1, .i32⟩
  | 26 => ⟨S50000, .f32⟩
  | 27 => ⟨S_, .f32⟩
  | 28 => ⟨S50000, .f32⟩
  | 29 => ⟨S50000, .i1⟩
  | 30 => ⟨S_, .f32⟩
  | 31 => ⟨S50000, .f32⟩
  | 32 => ⟨S50000, .f32⟩
  | 33 => ⟨S_, .f32⟩
  | 34 => ⟨S_, .f32⟩
  | 35 => ⟨S50000, .f32⟩
  | 36 => ⟨S50000, .f32⟩
  | 37 => ⟨S_, .i32⟩
  | 38 => ⟨S650000, .i32⟩
  | 39 => ⟨S650000, .i1⟩
  | 40 => ⟨S_, .i32⟩
  | 41 => ⟨S650000, .i32⟩
  | 42 => ⟨S650000, .i32⟩
  | 43 => ⟨S650000, .i32⟩
  | 44 => ⟨S650000x1, .i32⟩
  | 45 => ⟨S650000, .f32⟩
  | 46 => ⟨S_, .i32⟩
  | 47 => ⟨S650000, .i32⟩
  | 48 => ⟨S650000, .i1⟩
  | 49 => ⟨S_, .i32⟩
  | 50 => ⟨S650000, .i32⟩
  | 51 => ⟨S650000, .i32⟩
  | 52 => ⟨S650000, .i32⟩
  | 53 => ⟨S650000x1, .i32⟩
  | 54 => ⟨S650000, .f32⟩
  | 55 => ⟨S650000, .f32⟩
  | 56 => ⟨S650000x1, .f32⟩
  | 57 => ⟨S_, .i32⟩
  | 58 => ⟨S650000, .i32⟩
  | 59 => ⟨S650000, .i1⟩
  | 60 => ⟨S_, .i32⟩
  | 61 => ⟨S650000, .i32⟩
  | 62 => ⟨S650000, .i32⟩
  | 63 => ⟨S650000, .i32⟩
  | 64 => ⟨S650000x1, .i32⟩
  | 65 => ⟨S650000x128, .f32⟩
  | 66 => ⟨S650000x128, .f32⟩
  | 67 => ⟨S650000x128, .f32⟩
  | 68 => ⟨S_, .f32⟩
  | 69 => ⟨S50000x128, .f32⟩
  | 70 => ⟨S650000x1, .i32⟩
  | 71 => ⟨S50000x128, .f32⟩
  | 72 => ⟨S_, .f32⟩
  | 73 => ⟨S128, .f32⟩
  | 74 => ⟨S_, .f32⟩
  | 75 => ⟨S128, .f32⟩
  | 76 => ⟨S128, .f32⟩
  | 77 => ⟨S1x128, .f32⟩
  | 78 => ⟨S50000x128, .f32⟩
  | 79 => ⟨S50000x128, .f32⟩
  | 80 => ⟨S50000x128, .f32⟩
  | 81 => ⟨S_, .f32⟩
  | 82 => ⟨S128, .f32⟩
  | 83 => ⟨S_, .f32⟩
  | 84 => ⟨S128, .f32⟩
  | 85 => ⟨S128, .f32⟩
  | 86 => ⟨S1x128, .f32⟩
  | 87 => ⟨S50000x128, .f32⟩
  | 88 => ⟨S50000x128, .f32⟩
  | 89 => ⟨S_, .f32⟩
  | 90 => ⟨S128, .f32⟩
  | 91 => ⟨S128, .f32⟩
  | 92 => ⟨S128, .f32⟩
  | 93 => ⟨S1x128, .f32⟩
  | 94 => ⟨S50000x128, .f32⟩
  | 95 => ⟨S50000x128, .f32⟩
  | 96 => ⟨S1x128, .f32⟩
  | 97 => ⟨S50000x128, .f32⟩
  | 98 => ⟨S50000x128, .f32⟩
  | 99 => ⟨S1x128, .f32⟩
  | 100 => ⟨S50000x128, .f32⟩
  | 101 => ⟨S50000x128, .f32⟩
  | 102 => ⟨S_, .f32⟩
  | 103 => ⟨S50000x128, .f32⟩
  | 104 => ⟨S50000x128, .i1⟩
  | 105 => ⟨S_, .f32⟩
  | 106 => ⟨S50000x128, .f32⟩
  | 107 => ⟨S50000x128, .f32⟩
  | 108 => ⟨S50000x128, .f32⟩
  | 109 => ⟨S50000, .i32⟩
  | 110 => ⟨S1x600000, .i32⟩
  | 111 => ⟨S600000, .i32⟩
  | 112 => ⟨S650000, .i32⟩
  | 113 => ⟨S1x600000, .i32⟩
  | 114 => ⟨S600000, .i32⟩
  | 115 => ⟨S650000, .i32⟩
  | 116 => ⟨S50000x128, .f32⟩
  | 117 => ⟨S1x128, .f32⟩
  | 118 => ⟨S50000x128, .f32⟩
  | 119 => ⟨S50000x128, .f32⟩
  | 120 => ⟨S_, .f32⟩
  | 121 => ⟨S650000, .f32⟩
  | 122 => ⟨S_, .f32⟩
  | 123 => ⟨S50000, .f32⟩
  | 124 => ⟨S650000x1, .i32⟩
  | 125 => ⟨S50000, .f32⟩
  | 126 => ⟨S_, .f32⟩
  | 127 => ⟨S50000, .f32⟩
  | _ => ⟨S50000x256, .f32⟩

abbrev hbmTy0_1 (i : Nat) : BufTy := match i % 128 with
  | 0 => ⟨S50000, .i1⟩
  | 1 => ⟨S_, .f32⟩
  | 2 => ⟨S50000, .f32⟩
  | 3 => ⟨S50000, .f32⟩
  | 4 => ⟨S_, .f32⟩
  | 5 => ⟨S_, .f32⟩
  | 6 => ⟨S50000, .f32⟩
  | 7 => ⟨S50000, .f32⟩
  | 8 => ⟨S_, .i32⟩
  | 9 => ⟨S650000, .i32⟩
  | 10 => ⟨S650000, .i1⟩
  | 11 => ⟨S_, .i32⟩
  | 12 => ⟨S650000, .i32⟩
  | 13 => ⟨S650000, .i32⟩
  | 14 => ⟨S650000, .i32⟩
  | 15 => ⟨S650000x1, .i32⟩
  | 16 => ⟨S650000, .f32⟩
  | 17 => ⟨S_, .i32⟩
  | 18 => ⟨S650000, .i32⟩
  | 19 => ⟨S650000, .i1⟩
  | 20 => ⟨S_, .i32⟩
  | 21 => ⟨S650000, .i32⟩
  | 22 => ⟨S650000, .i32⟩
  | 23 => ⟨S650000, .i32⟩
  | 24 => ⟨S650000x1, .i32⟩
  | 25 => ⟨S650000, .f32⟩
  | 26 => ⟨S650000, .f32⟩
  | 27 => ⟨S650000x1, .f32⟩
  | 28 => ⟨S_, .i32⟩
  | 29 => ⟨S650000, .i32⟩
  | 30 => ⟨S650000, .i1⟩
  | 31 => ⟨S_, .i32⟩
  | 32 => ⟨S650000, .i32⟩
  | 33 => ⟨S650000, .i32⟩
  | 34 => ⟨S650000, .i32⟩
  | 35 => ⟨S650000x1, .i32⟩
  | 36 => ⟨S650000x128, .f32⟩
  | 37 => ⟨S650000x128, .f32⟩
  | 38 => ⟨S650000x128, .f32⟩
  | 39 => ⟨S_, .f32⟩
  | 40 => ⟨S50000x128, .f32⟩
  | 41 => ⟨S650000x1, .i32⟩
  | 42 => ⟨S50000x128, .f32⟩
  | 43 => ⟨S_, .f32⟩
  | 44 => ⟨S128, .f32⟩
  | 45 => ⟨S_, .f32⟩
  | 46 => ⟨S128, .f32⟩
  | 47 => ⟨S128, .f32⟩
  | 48 => ⟨S1x128, .f32⟩
  | 49 => ⟨S50000x128, .f32⟩
  | 50 => ⟨S50000x128, .f32⟩
  | 51 => ⟨S50000x128, .f32⟩
  | 52 => ⟨S_, .f32⟩
  | 53 => ⟨S128, .f32⟩
  | 54 => ⟨S_, .f32⟩
  | 55 => ⟨S128, .f32⟩
  | 56 => ⟨S128, .f32⟩
  | 57 => ⟨S1x128, .f32⟩
  | 58 => ⟨S50000x128, .f32⟩
  | 59 => ⟨S50000x128, .f32⟩
  | 60 => ⟨S_, .f32⟩
  | 61 => ⟨S128, .f32⟩
  | 62 => ⟨S128, .f32⟩
  | 63 => ⟨S128, .f32⟩
  | 64 => ⟨S1x128, .f32⟩
  | 65 => ⟨S50000x128, .f32⟩
  | 66 => ⟨S50000x128, .f32⟩
  | 67 => ⟨S1x128, .f32⟩
  | 68 => ⟨S50000x128, .f32⟩
  | 69 => ⟨S50000x128, .f32⟩
  | 70 => ⟨S1x128, .f32⟩
  | 71 => ⟨S50000x128, .f32⟩
  | 72 => ⟨S50000x128, .f32⟩
  | 73 => ⟨S_, .f32⟩
  | 74 => ⟨S50000x128, .f32⟩
  | 75 => ⟨S50000x128, .i1⟩
  | 76 => ⟨S_, .f32⟩
  | 77 => ⟨S50000x128, .f32⟩
  | 78 => ⟨S50000x128, .f32⟩
  | 79 => ⟨S50000x128, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_cst_0 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_v18 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_v19 : Ref sig .tc := ⟨.hbm, 36, rfl⟩
abbrev main_c : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_c_5 : Ref sig .tc := ⟨.hbm, 46, rfl⟩
abbrev main_v27 : Ref sig .tc := ⟨.hbm, 47, rfl⟩
abbrev main_v28 : Ref sig .tc := ⟨.hbm, 48, rfl⟩
abbrev main_c_6 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_c_7 : Ref sig .tc := ⟨.hbm, 57, rfl⟩
abbrev main_v36 : Ref sig .tc := ⟨.hbm, 58, rfl⟩
abbrev main_v37 : Ref sig .tc := ⟨.hbm, 59, rfl⟩
abbrev main_c_8 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_9 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_10 : Ref sig .tc := ⟨.hbm, 72, rfl⟩
abbrev main_v48 : Ref sig .tc := ⟨.hbm, 73, rfl⟩
abbrev main_cst_11 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_12 : Ref sig .tc := ⟨.hbm, 81, rfl⟩
abbrev main_v55 : Ref sig .tc := ⟨.hbm, 82, rfl⟩
abbrev main_cst_13 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_14 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_cst_15 : Ref sig .tc := ⟨.hbm, 102, rfl⟩
abbrev main_v73 : Ref sig .tc := ⟨.hbm, 103, rfl⟩
abbrev main_v74 : Ref sig .tc := ⟨.hbm, 104, rfl⟩
abbrev main_cst_16 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_cst_17 : Ref sig .tc := ⟨.hbm, 120, rfl⟩
abbrev main_v89 : Ref sig .tc := ⟨.hbm, 121, rfl⟩
abbrev main_cst_18 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_cst_19 : Ref sig .tc := ⟨.hbm, 126, rfl⟩
abbrev main_v93 : Ref sig .tc := ⟨.hbm, 127, rfl⟩
abbrev main_v94 : Ref sig .tc := ⟨.hbm, 128, rfl⟩
abbrev main_cst_20 : Ref sig .tc := ⟨.hbm, 129, rfl⟩
abbrev main_v95 : Ref sig .tc := ⟨.hbm, 130, rfl⟩
abbrev main_v96 : Ref sig .tc := ⟨.hbm, 131, rfl⟩
abbrev main_cst_21 : Ref sig .tc := ⟨.hbm, 132, rfl⟩
abbrev main_call2_v0 : Ref sig .tc := ⟨.hbm, 133, rfl⟩
abbrev main_call2_v1 : Ref sig .tc := ⟨.hbm, 134, rfl⟩
abbrev main_v97 : Ref sig .tc := ⟨.hbm, 135, rfl⟩
abbrev main_c_22 : Ref sig .tc := ⟨.hbm, 136, rfl⟩
abbrev main_v98 : Ref sig .tc := ⟨.hbm, 137, rfl⟩
abbrev main_v99 : Ref sig .tc := ⟨.hbm, 138, rfl⟩
abbrev main_c_23 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_c_24 : Ref sig .tc := ⟨.hbm, 145, rfl⟩
abbrev main_v105 : Ref sig .tc := ⟨.hbm, 146, rfl⟩
abbrev main_v106 : Ref sig .tc := ⟨.hbm, 147, rfl⟩
abbrev main_c_25 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_c_26 : Ref sig .tc := ⟨.hbm, 156, rfl⟩
abbrev main_v114 : Ref sig .tc := ⟨.hbm, 157, rfl⟩
abbrev main_v115 : Ref sig .tc := ⟨.hbm, 158, rfl⟩
abbrev main_c_27 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_cst_28 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_cst_29 : Ref sig .tc := ⟨.hbm, 171, rfl⟩
abbrev main_v126 : Ref sig .tc := ⟨.hbm, 172, rfl⟩
abbrev main_cst_30 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_cst_31 : Ref sig .tc := ⟨.hbm, 180, rfl⟩
abbrev main_v133 : Ref sig .tc := ⟨.hbm, 181, rfl⟩
abbrev main_cst_32 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_cst_33 : Ref sig .tc := ⟨.hbm, 188, rfl⟩
abbrev main_v139 : Ref sig .tc := ⟨.hbm, 189, rfl⟩
abbrev main_v140 : Ref sig .tc := ⟨.hbm, 190, rfl⟩
abbrev main_v141 : Ref sig .tc := ⟨.hbm, 191, rfl⟩
abbrev main_v142 : Ref sig .tc := ⟨.hbm, 192, rfl⟩
abbrev main_v143 : Ref sig .tc := ⟨.hbm, 193, rfl⟩
abbrev main_v144 : Ref sig .tc := ⟨.hbm, 194, rfl⟩
abbrev main_v145 : Ref sig .tc := ⟨.hbm, 195, rfl⟩
abbrev main_v146 : Ref sig .tc := ⟨.hbm, 196, rfl⟩
abbrev main_v147 : Ref sig .tc := ⟨.hbm, 197, rfl⟩
abbrev main_v148 : Ref sig .tc := ⟨.hbm, 198, rfl⟩
abbrev main_v149 : Ref sig .tc := ⟨.hbm, 199, rfl⟩
abbrev main_v150 : Ref sig .tc := ⟨.hbm, 200, rfl⟩
abbrev main_cst_34 : Ref sig .tc := ⟨.hbm, 201, rfl⟩
abbrev main_v151 : Ref sig .tc := ⟨.hbm, 202, rfl⟩
abbrev main_v152 : Ref sig .tc := ⟨.hbm, 203, rfl⟩
abbrev main_cst_35 : Ref sig .tc := ⟨.hbm, 204, rfl⟩
abbrev main_v153 : Ref sig .tc := ⟨.hbm, 205, rfl⟩
abbrev main_v154 : Ref sig .tc := ⟨.hbm, 206, rfl⟩
abbrev main_v155 : Ref sig .tc := ⟨.hbm, 207, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  reducesTo_S50000x128_S128_d0 : S50000x128.ReducesTo [0] S128
  h_S_ : 0 < S_.numel
  bcast_S_S128 : S_.BroadcastsInDim S128 (![] : Fin 0 → Fin S128.rank)
  dot_S50000x256_S256x128_S50000x128_1_0_0_1_n_n_wf : DotDims.WF S50000x256 S256x128 S50000x128 [1] [0] [0] [1] [] []
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  dot_S50000x128_S128x128_S50000x128_1_0_0_1_n_n_wf : DotDims.WF S50000x128 S128x128 S50000x128 [1] [0] [0] [1] [] []

variable [Facts₀]

def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KernelKept.lean ====
/-
  Buffers that a stretch of the program does not write keep their contents: each argument array as launched at the
  boundary where a later line reads it, and each intermediate array from the line that writes it to the region or line
  that reads it. A host line leaves every buffer but its result; a region leaves every buffer but its output arrays, and an
  input array it reads through a window ends as it was entered.
-/
import proofs.«126232_j32822140076791_1_alg».proof.Proof.Gen.KernelIdeal.Frame

set_option maxRecDepth 16384

noncomputable section

namespace Cert.KernelIdeal.Kept

open Cert.KernelIdeal Cert.KernelIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem arg0_at1 (c : Dev nD) : W1 m ρ c (Proc.devRef .tc main_arg0) = m ((c : Thread nD τ).loc main_arg0) :=
  calc W1 m ρ c (Proc.devRef .tc main_arg0)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem arg2_at1 (c : Dev nD) : W1 m ρ c (Proc.devRef .tc main_arg2) = m ((c : Thread nD τ).loc main_arg2) :=
  calc W1 m ρ c (Proc.devRef .tc main_arg2)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem arg6_at6 (c : Dev nD) : W6 m ρ c (Proc.devRef .tc main_arg6) = m ((c : Thread nD τ).loc main_arg6) :=
  calc W6 m ρ c (Proc.devRef .tc main_arg6)
    _ = W5 m ρ c (Proc.devRef .tc main_arg6) := W6_of_ne m ρ c main_arg6 (by decide)
    _ = W4 m ρ c (Proc.devRef .tc main_arg6) := StableHlo.after_of_forall_not_mem (b := Proc.devRef .tc main_arg6) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg6) := StableHlo.after_of_forall_not_mem (b := Proc.devRef .tc main_arg6) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

theorem arg7_at6 (c : Dev nD) : W6 m ρ c (Proc.devRef .tc main_arg7) = m ((c : Thread nD τ).loc main_arg7) :=
  calc W6 m ρ c (Proc.devRef .tc main_arg7)
    _ = W5 m ρ c (Proc.devRef .tc main_arg7) := W6_of_ne m ρ c main_arg7 (by decide)
    _ = W4 m ρ c (Proc.devRef .tc main_arg7) := StableHlo.after_of_forall_not_mem (b := Proc.devRef .tc main_arg7) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg7) := StableHlo.after_of_forall_not_mem (b := Proc.devRef .tc main_arg7) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

theorem arg1_at8 (c : Dev nD) : W8 m ρ c (Proc.devRef .tc main_arg1) = m ((c : Thread nD τ).loc main_arg1) :=
  calc W8 m ρ c (Proc.devRef .tc main_arg1)
    _ = W7 m ρ c (Proc.devRef .tc main_arg1) := W8_of_ne m ρ c main_arg1 (by decide)
    _ = W6 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg1) := W6_of_ne m ρ c main_arg1 (by decide)
    _ = W4 m ρ c (Proc.devRef .tc main_arg1) := StableHlo.after_of_forall_not_mem (b := Proc.devRef .tc main_arg1) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg1) := StableHlo.after_of_forall_not_mem (b := Proc.devRef .tc main_arg1) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem arg5_at8 (c : Dev nD) : W8 m ρ c (Proc.devRef .tc main_arg5) = m ((c : Thread nD τ).loc main_arg5) :=
  calc W8 m ρ c (Proc.devRef .tc main_arg5)
    _ = W7 m ρ c (Proc.devRef .tc main_arg5) := W8_of_ne m ρ c main_arg5 (by decide)
    _ = W6 m ρ c (Proc.devRef .tc main_arg5) := StableHlo.after_of_forall_not_mem (b := Proc.devRef .tc main_arg5) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg5) := W6_of_ne m ρ c main_arg5 (by decide)
    _ = W4 m ρ c (Proc.devRef .tc main_arg5) := StableHlo.after_of_forall_not_mem (b := Proc.devRef .tc main_arg5) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg5) := StableHlo.after_of_forall_not_mem (b := Proc.devRef .tc main_arg5) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem arg4_at9 (c : Dev nD) : W9 m ρ c (Proc.devRef .tc main_arg4) = m ((c : Thread nD τ).loc main_arg4) :=
  calc W9 m ρ c (Proc.devRef .tc main_arg4)
    _ = W8 m ρ c (Proc.devRef .tc main_arg4) := StableHlo.after_of_forall_not_mem (b := Proc.devRef .tc main_arg4) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg4) := W8_of_ne m ρ c main_arg4 (by decide)
    _ = W6 m ρ c (Proc.devRef .tc main_arg4) := StableHlo.after_of_forall_not_mem (b := Proc.devRef .tc main_arg4) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg4) := W6_of_ne m ρ c main_arg4 (by decide)
    _ = W4 m ρ c (Proc.devRef .tc main_arg4) := StableHlo.after_of_forall_not_mem (b := Proc.devRef .tc main_arg4) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg4) := StableHlo.after_of_forall_not_mem (b := Proc.devRef .tc main_arg4) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem arg8_at14 (c : Dev nD) : W14 m ρ c (Proc.devRef .tc main_arg8) = m ((c : Thread nD τ).loc main_arg8) :=
  calc W14 m ρ c (Proc.devRef .tc main_arg8)
    _ = W13 m ρ c (Proc.devRef .tc main_arg8) := W14_of_ne m ρ c main_arg8 (by decide)
    _ = W12 m ρ c (Proc.devRef .tc main_arg8) := StableHlo.after_of_forall_not_mem (b := Proc.devRef .tc main_arg8) _ _ (List.forall_iff_forall_mem.mp (by
          simp only [hostOps4_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg8) := StableHlo.after_of_forall_not_mem (b := Proc.devRef .tc main_arg8) _ _ (List.forall_iff_forall_mem.mp (by
          simp only [hostOps4_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W10 m ρ c (Proc.devRef .tc main_arg8) := StableHlo.after_of_forall_not_mem (b := Proc.devRef .tc main_arg8) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg8) := W10_of_ne m ρ c main_arg8 (by decide)
    _ = W8 m ρ c (Proc.devRef .tc main_arg8) := StableHlo.after_of_forall_not_mem (b := Proc.devRef .tc main_arg8) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg8) := W8_of_ne m ρ c main_arg8 (by decide)
    _ = W6 m ρ c (Proc.devRef .tc main_arg8) := StableHlo.after_of_forall_not_mem (b := Proc.devRef .tc main_arg8) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg8) := W6_of_ne m ρ c main_arg8 (by decide)
    _ = W4 m ρ c (Proc.devRef .tc main_arg8) := StableHlo.after_of_forall_not_mem (b := Proc.devRef .tc main_arg8) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg8) := StableHlo.after_of_forall_not_mem (b := Proc.devRef .tc main_arg8) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

theorem arg9_at14 (c : Dev nD) : W14 m ρ c (Proc.devRef .tc main_arg9) = m ((c : Thread nD τ).loc main_arg9) :=
  calc W14 m ρ c (Proc.devRef .tc main_arg9)
    _ = W13 m ρ c (Proc.devRef .tc main_arg9) := W14_of_ne m ρ c main_arg9 (by decide)
    _ = W12 m ρ c (Proc.devRef .tc main_arg9) := StableHlo.after_of_forall_not_mem (b := Proc.devRef .tc main_arg9) _ _ (List.forall_iff_forall_mem.mp (by
          simp only [hostOps4_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg9) := StableHlo.after_of_forall_not_mem (b := Proc.devRef .tc main_arg9) _ _ (List.forall_iff_forall_mem.mp (by
          simp only [hostOps4_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W10 m ρ c (Proc.devRef .tc main_arg9) := StableHlo.after_of_forall_not_mem (b := Proc.devRef .tc main_arg9) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg9) := W10_of_ne m ρ c main_arg9 (by decide)
    _ = W8 m ρ c (Proc.devRef .tc main_arg9) := StableHlo.after_of_forall_not_mem (b := Proc.devRef .tc main_arg9) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg9) := W8_of_ne m ρ c main_arg9 (by decide)
    _ = W6 m ρ c (Proc.devRef .tc main_arg9) := StableHlo.after_of_forall_not_mem (b := Proc.devRef .tc main_arg9) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg9) := W6_of_ne m ρ c main_arg9 (by decide)
    _ = W4 m ρ c (Proc.devRef .tc main_arg9) := StableHlo.after_of_forall_not_mem (b := Proc.devRef .tc main_arg9) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg9) := StableHlo.after_of_forall_not_mem (b := Proc.devRef .tc main_arg9) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg9) := StableHlo.after_of_forall_not_mem (b := Proc.devRef .tc main_arg9) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := rfl

theorem v3_at2 (c : Dev nD) : W2 m ρ c (Proc.devRef .tc main_v3) = W1 m ρ c (Proc.devRef .tc main_v3) :=
  calc W2 m ρ c (Proc.devRef .tc main_v3)
    _ = W1 m ρ c (Proc.devRef .tc main_v3) := W2_of_ne m ρ c main_v3 (by decide)

theorem v6_at2 (c : Dev nD) : W2 m ρ c (Proc.devRef .tc main_v6) = W1 m ρ c (Proc.devRef .tc main_v6) :=
  calc W2 m ρ c (Proc.devRef .tc main_v6)
    _ = W1 m ρ c (Proc.devRef .tc main_v6) := W2_of_ne m ρ c main_v6 (by decide)

theorem v45_at7 (c : Dev nD) : W7 m ρ c (Proc.devRef .tc main_v45) = W5 m ρ c (Proc.devRef .tc main_v45) :=
  calc W7 m ρ c (Proc.devRef .tc main_v45)
    _ = W6 m ρ c (Proc.devRef .tc main_v45) := StableHlo.after_of_forall_not_mem (b := Proc.devRef .tc main_v45) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v45) := (W6_arr m ρ c 0).trans (((dat1 (V5 m ρ) c).arrAt_in 0 rfl _).trans (A_eq1 (V5 m ρ) c 0))

theorem v55_at9 (c : Dev nD) : W9 m ρ c (Proc.devRef .tc main_v55) = W8 m ρ c (Proc.devRef .tc main_v55) :=
  calc W9 m ρ c (Proc.devRef .tc main_v55)
    _ = W8 m ρ c (Proc.devRef .tc main_v55) := StableHlo.after_of_forall_not_mem (b := Proc.devRef .tc main_v55) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem v59_at10 (c : Dev nD) : W10 m ρ c (Proc.devRef .tc main_v59) = W9 m ρ c (Proc.devRef .tc main_v59) :=
  calc W10 m ρ c (Proc.devRef .tc main_v59)
    _ = W9 m ρ c (Proc.devRef .tc main_v59) := W10_of_ne m ρ c main_v59 (by decide)

theorem v62_at10 (c : Dev nD) : W10 m ρ c (Proc.devRef .tc main_v62) = W9 m ρ c (Proc.devRef .tc main_v62) :=
  calc W10 m ρ c (Proc.devRef .tc main_v62)
    _ = W9 m ρ c (Proc.devRef .tc main_v62) := W10_of_ne m ρ c main_v62 (by decide)

theorem v101_at15 (c : Dev nD) : W15 m ρ c (Proc.devRef .tc main_v101) = W13 m ρ c (Proc.devRef .tc main_v101) :=
  calc W15 m ρ c (Proc.devRef .tc main_v101)
    _ = W14 m ρ c (Proc.devRef .tc main_v101) := StableHlo.after_of_forall_not_mem (b := Proc.devRef .tc main_v101) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_v101) := (W14_arr m ρ c 0).trans (((dat4 (V13 m ρ) c).arrAt_in 0 rfl _).trans (A_eq4 (V13 m ρ) c 0))

theorem v3_at4 (c : Dev nD) : W4 m ρ c (Proc.devRef .tc main_v3) = W2 m ρ c (Proc.devRef .tc main_v3) :=
  calc W4 m ρ c (Proc.devRef .tc main_v3)
    _ = W3 m ρ c (Proc.devRef .tc main_v3) := StableHlo.after_of_forall_not_mem (b := Proc.devRef .tc main_v3) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_v3) := StableHlo.after_of_forall_not_mem (b := Proc.devRef .tc main_v3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem v6_at4 (c : Dev nD) : W4 m ρ c (Proc.devRef .tc main_v6) = W2 m ρ c (Proc.devRef .tc main_v6) :=
  calc W4 m ρ c (Proc.devRef .tc main_v6)
    _ = W3 m ρ c (Proc.devRef .tc main_v6) := StableHlo.after_of_forall_not_mem (b := Proc.devRef .tc main_v6) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_v6) := StableHlo.after_of_forall_not_mem (b := Proc.devRef .tc main_v6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem v8_at4 (c : Dev nD) : W4 m ρ c (Proc.devRef .tc main_v8) = W2 m ρ c (Proc.devRef .tc main_v8) :=
  calc W4 m ρ c (Proc.devRef .tc main_v8)
    _ = W3 m ρ c (Proc.devRef .tc main_v8) := StableHlo.after_of_forall_not_mem (b := Proc.devRef .tc main_v8) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_v8) := StableHlo.after_of_forall_not_mem (b := Proc.devRef .tc main_v8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem v59_at12 (c : Dev nD) : W12 m ρ c (Proc.devRef .tc main_v59) = W10 m ρ c (Proc.devRef .tc main_v59) :=
  calc W12 m ρ c (Proc.devRef .tc main_v59)
    _ = W11 m ρ c (Proc.devRef .tc main_v59) := StableHlo.after_of_forall_not_mem (b := Proc.devRef .tc main_v59) _ _ (List.forall_iff_forall_mem.mp (by
          simp only [hostOps4_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W10 m ρ c (Proc.devRef .tc main_v59) := StableHlo.after_of_forall_not_mem (b := Proc.devRef .tc main_v59) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem v62_at12 (c : Dev nD) : W12 m ρ c (Proc.devRef .tc main_v62) = W10 m ρ c (Proc.devRef .tc main_v62) :=
  calc W12 m ρ c (Proc.devRef .tc main_v62)
    _ = W11 m ρ c (Proc.devRef .tc main_v62) := StableHlo.after_of_forall_not_mem (b := Proc.devRef .tc main_v62) _ _ (List.forall_iff_forall_mem.mp (by
          simp only [hostOps4_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W10 m ρ c (Proc.devRef .tc main_v62) := StableHlo.after_of_forall_not_mem (b := Proc.devRef .tc main_v62) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem v64_at12 (c : Dev nD) : W12 m ρ c (Proc.devRef .tc main_v64) = W10 m ρ c (Proc.devRef .tc main_v64) :=
  calc W12 m ρ c (Proc.devRef .tc main_v64)
    _ = W11 m ρ c (Proc.devRef .tc main_v64) := StableHlo.after_of_forall_not_mem (b := Proc.devRef .tc main_v64) _ _ (List.forall_iff_forall_mem.mp (by
          simp only [hostOps4_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W10 m ρ c (Proc.devRef .tc main_v64) := StableHlo.after_of_forall_not_mem (b := Proc.devRef .tc main_v64) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

end Cert.KernelIdeal.Kept

end
-- ==== Proof.KernelRun.lean ====
/-
  The idealized kernel program's run with its result named: every weakly fair execution of @main terminates, nothing
  faulting, the result array holding what the last region's write-backs leave in it and every argument as launched.
  This is the launch of the program's sixteen segments (ten stretches of host lines, six regions) with the final
  state read at the result array as well as at the arguments.
-/
import proofs.«126232_j32822140076791_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run_named : θ_run defs (onTc (τ := τ) (main (F := F))) ⟨m, fun _ => 0, ρ⟩ (fun r => ∀ c : Dev nD,
      r.2.mem ((c.tc : Thread nD τ).loc main_v111) = W16 m ρ c (Proc.devRef .tc main_v111)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h c =>
      ⟨h c _ (mem_uc main_v111 (by decide)),
       (h c _ (mem_uc main_arg0 (by decide))).trans (W16_main_arg0 m ρ c),
       (h c _ (mem_uc main_arg1 (by decide))).trans (W16_main_arg1 m ρ c),
       (h c _ (mem_uc main_arg2 (by decide))).trans (W16_main_arg2 m ρ c),
       (h c _ (mem_uc main_arg3 (by decide))).trans (W16_main_arg3 m ρ c),
       (h c _ (mem_uc main_arg4 (by decide))).trans (W16_main_arg4 m ρ c),
       (h c _ (mem_uc main_arg5 (by decide))).trans (W16_main_arg5 m ρ c),
       (h c _ (mem_uc main_arg6 (by decide))).trans (W16_main_arg6 m ρ c),
       (h c _ (mem_uc main_arg7 (by decide))).trans (W16_main_arg7 m ρ c),
       (h c _ (mem_uc main_arg8 (by decide))).trans (W16_main_arg8 m ρ c),
       (h c _ (mem_uc main_arg9 (by decide))).trans (W16_main_arg9 m ρ c)⟩)

end Cert.KernelIdeal.Named

end
-- ==== Proof.LibMatmulRows.lean ====
/-
  GENERAL LEMMAS: the product of an [R, K] matrix with a [K, N] matrix — (A * B)(p, q) = sum over k of A(p, k) * B(k, q) —
  read at an index on extended reals, in the two spellings a kernel and a host program give it. Nothing here mentions a
  program; the extents R, K (the contracted axis: the lanes of A, the rows of B) and N are arbitrary.

  * idx2_ext: two rank-2 indices with the same coordinates are one index.
  * contraction_rows: a contraction of axis 1 of an [R, K] array with axis 0 of a [K, N] array (no batch axes), read at
    (p, q), is the sum over k : Fin K of l (p, k) * r (k, q); the dimension record enters only through four coordinate facts
    about its operand indices and the rank and extent of its contraction shape.
  * matmul_rows: the kernel's spelling — the matrix unit's product into a zero accumulator — at (p, q).
  * hostdot_rows: the host's spelling — dot_general — at (p, q).
  No law of extended-real arithmetic beyond reindexing a finite sum is used, so none of these needs finite inputs.
-/
import Idealize.ShloMosaic.PureOps.Ideal
import Idealize.ShloMosaic.PureOps.Ideal.Laws
import Idealize.ShloMosaic.Lib.ValueIdx

noncomputable section

namespace Cert.LibMatmulRows

open Idealize.ShloMosaic Idealize.ShloMosaic.ValueIdx
open scoped BigOperators

/-- Two rank-2 indices with the same coordinates are one index. -/
theorem idx2_ext {n0 n1 : ℕ} (f g : (⟨2, ![n0, n1]⟩ : Shape).Idx) (h0 : (f 0).val = (g 0).val) (h1 : (f 1).val = (g 1).val) :
    f = g :=
  funext fun d => Fin.ext (by
    match d with
    | ⟨0, _⟩ => exact h0
    | ⟨1, _⟩ => exact h1)

/-- A contraction of the lanes of an [R, K] array with the rows of a [K, N] array, read at (p, q): the sum over k of
    l(p, k) * r(k, q). The dimension record enters through four coordinate facts and the extent of its one contracted
    axis. -/
theorem contraction_rows {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (l : (⟨2, ![R, K]⟩ : Shape).Idx → EReal) (r : (⟨2, ![K, N]⟩ : Shape).Idx → EReal) (p : Fin R) (q : Fin N) :
    ∑ s : d.contr.Idx, l (d.lhsIdx (ix2 p q) s) * r (d.rhsIdx (ix2 p q) s) = ∑ k : Fin K, l (ix2 p k) * r (ix2 k q) := by
  rw [← Equiv.sum_comp (contrEquiv1 d K hrank hsize).symm]
  refine Finset.sum_congr rfl fun k _ => ?_
  have hk := contrEquiv1_symm_val d K hrank hsize k
  have el : d.lhsIdx (ix2 p q) ((contrEquiv1 d K hrank hsize).symm k) = ix2 p k :=
    idx2_ext _ _ (hl0 _ _) ((hl1 _ _).trans hk)
  have er : d.rhsIdx (ix2 p q) ((contrEquiv1 d K hrank hsize).symm k) = ix2 k q :=
    idx2_ext _ _ ((hr0 _ _).trans hk) (hr1 _ _)
  rw [el, er]

/-- The matrix unit's product into a zero accumulator, read at (p, q). -/
theorem matmul_rows {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    {φ₁ φ₂ : FTy} (l : FVec Ideal ⟨2, ![R, K]⟩ φ₁) (r : FVec Ideal ⟨2, ![K, N]⟩ φ₂) (p : Fin R) (q : Fin N) :
    matmul d none l r (constant (F := Ideal) ⟨2, ![R, N]⟩ .f32 0x00000000#32) (ix2 p q)
      = ∑ k : Fin K, l (ix2 p k) * r (ix2 k q) :=
  (Ideal.matmul_constant_zero_apply d none l r (ix2 p q)).trans
    (contraction_rows d hrank hsize hl0 hl1 hr0 hr1 l r p q)

/-- The host's dot_general, read at (p, q). -/
theorem hostdot_rows {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (l : FVec Ideal ⟨2, ![R, K]⟩ .f32) (r : FVec Ideal ⟨2, ![K, N]⟩ .f32) (p : Fin R) (q : Fin N) :
    Host.dotGeneral d none l r (ix2 p q) = ∑ k : Fin K, l (ix2 p k) * r (ix2 k q) :=
  (Ideal.dotGeneral_apply d none .single l r (ix2 p q)).trans
    (contraction_rows d hrank hsize hl0 hl1 hr0 hr1 l r p q)

end Cert.LibMatmulRows

end
-- ==== Proof.LibBiasRows.lean ====
/-
  GENERAL LEMMAS: a bias vector laid along the rows of a matrix, read at an entry, in the two spellings a kernel and a
  host program give it. Nothing here mentions a program; the number of rows R and the bias's length n are arbitrary.

  * bias_rows: the kernel's spelling — a length-n vector cast to one row [1, n] and broadcast to [R, n] — at (p, c) is the
    vector at c.
  * bias_host: the host's spelling — a length-n vector broadcast along axis 1 to [1, n] and then along both axes to [R, n]
    — at (r, c) is the vector at c, for n other than 1 (a length-1 axis is the one that a broadcast stretches).
  Both hold for entries of any type: no arithmetic is involved.
-/
import Idealize.ShloMosaic.Lib.Pipeline.Value
import Idealize.ShloMosaic.Lib.ValueLayout
import Idealize.ShloMosaic.Lib.ValueIdx

noncomputable section

namespace Cert.LibBiasRows

open Idealize.ShloMosaic Idealize.ShloMosaic.ValueIdx

variable {α : Type}

/-- A vector of length n cast to one row and laid along R rows reads, at (p, c), the vector at c. -/
theorem bias_rows {R n : ℕ} (b : (⟨1, ![n]⟩ : Shape).Idx → α) (hc : (⟨1, ![n]⟩ : Shape).ShapeCasts ⟨2, ![1, n]⟩)
    (hb : (⟨2, ![1, n]⟩ : Shape).Broadcasts ⟨2, ![R, n]⟩) (p : Fin R) (c : Fin n) :
    broadcastTo ⟨2, ![R, n]⟩ (shapeCast ⟨2, ![1, n]⟩ b hc) hb (ix2 p c) = b (ix1 c) :=
  (broadcastTo_1b_ab_apply _ hb p c).trans (shapeCast_a_1a_apply b hc 0 c)

/-- A vector of length n (n not 1) broadcast to one row and then along R rows reads, at (r, c), the vector at c. -/
theorem bias_host {R n : ℕ} (hn : n ≠ 1) (b : (⟨1, ![n]⟩ : Shape).Idx → α)
    (h1 : (⟨1, ![n]⟩ : Shape).BroadcastsInDim ⟨2, ![1, n]⟩ (![1] : Fin 1 → Fin 2))
    (h2 : (⟨2, ![1, n]⟩ : Shape).BroadcastsInDim ⟨2, ![R, n]⟩ (![0, 1] : Fin 2 → Fin 2)) (r : Fin R) (c : Fin n) :
    broadcastInDim ⟨2, ![R, n]⟩ ![0, 1] h2 (broadcastInDim ⟨2, ![1, n]⟩ ![1] h1 b) (ix2 r c) = b (ix1 c) := by
  refine (broadcastInDim_apply _ h2 _ (ix2 r c) (ix2 (0 : Fin 1) c) fun a => ?_).trans
    (broadcastInDim_apply _ h1 b (ix2 (0 : Fin 1) c) (ix1 c) fun a => ?_)
  · match a with
    | ⟨0, _⟩ => show (0 : ℕ) = if (1 : ℕ) = 1 then 0 else r.val; rw [if_pos rfl]
    | ⟨1, _⟩ => show c.val = if n = 1 then 0 else c.val; rw [if_neg hn]
  · match a with
    | ⟨0, _⟩ => show c.val = if n = 1 then 0 else c.val; rw [if_neg hn]

end Cert.LibBiasRows

end
-- ==== Proof.LibDenseLayers.lean ====
/-
  GENERAL LEMMAS: dense layers as functions on extended reals. Nothing here mentions a program; every extent is arbitrary.

  An affine layer sends a matrix h of R rows and K columns to h · W + b: entry (p, q) is the sum over k of
  h(p, k) * W(k, q), plus b(q). The rectifier replaces every entry by the larger of it and zero. Two compositions
  are named: stage1 = rectifier ∘ affine, and stage2 = affine ∘ affine ∘ rectifier ∘ affine.

  Two facts are proved here, for any extents.
  * ROW-LOCALITY: row p of an affine layer's result depends only on row p of h. So a stage applied to a block of
    consecutive rows of a matrix is that block of rows of the stage applied to the whole matrix: this is what lets a
    computation tiled over blocks of rows be read as one computation on the whole matrix.
  * THE TWO SPELLINGS: a matrix product into a zero accumulator plus a vector cast to one row and laid along the rows,
    and a dot_general plus a vector broadcast twice, are both the affine layer.
  No law of extended-real arithmetic is used beyond re-indexing a finite sum, so nothing here needs finite entries.
-/
import Idealize.ShloMosaic.PureOps.Ideal
import Idealize.ShloMosaic.PureOps.Ideal.Laws
import Idealize.ShloMosaic.Lib.ValueIdx
import proofs.«126232_j32822140076791_1_alg».proof.Proof.LibMatmulRows
import proofs.«126232_j32822140076791_1_alg».proof.Proof.LibBiasRows

noncomputable section

namespace Cert.LibDenseLayers

open Idealize.ShloMosaic Idealize.ShloMosaic.ValueIdx
open scoped BigOperators

/-- Entry (p, q) of the affine layer h · W + b: row p of h against column q of W, plus the bias at q. -/
def affineAt {R K N : ℕ} (h : (⟨2, ![R, K]⟩ : Shape).Idx → EReal) (W : (⟨2, ![K, N]⟩ : Shape).Idx → EReal)
    (b : (⟨1, ![N]⟩ : Shape).Idx → EReal) (p : Fin R) (q : Fin N) : EReal :=
  (∑ k : Fin K, h (ix2 p k) * W (ix2 k q)) + b (ix1 q)

/-- The affine layer h · W + b as a matrix of R rows and N columns. -/
def affine {R K N : ℕ} (h : (⟨2, ![R, K]⟩ : Shape).Idx → EReal) (W : (⟨2, ![K, N]⟩ : Shape).Idx → EReal)
    (b : (⟨1, ![N]⟩ : Shape).Idx → EReal) : (⟨2, ![R, N]⟩ : Shape).Idx → EReal :=
  fun i => affineAt h W b (i 0) (i 1)

/-- The rectifier: every entry replaced by the larger of it and the single-precision zero. -/
def relu {s : Shape} (a : s.Idx → EReal) : s.Idx → EReal :=
  fun i => max (a i) (Ideal.ofBits .f32 0x00000000#32)

/-- The first dense stage: rectified affine layer. -/
def stage1 {R K N : ℕ} (h : (⟨2, ![R, K]⟩ : Shape).Idx → EReal) (W : (⟨2, ![K, N]⟩ : Shape).Idx → EReal)
    (b : (⟨1, ![N]⟩ : Shape).Idx → EReal) : (⟨2, ![R, N]⟩ : Shape).Idx → EReal :=
  relu (affine h W b)

/-- The second dense stage: a rectified affine layer followed by two affine layers. -/
def stage2 {R K N M L : ℕ} (h : (⟨2, ![R, K]⟩ : Shape).Idx → EReal)
    (W2 : (⟨2, ![K, N]⟩ : Shape).Idx → EReal) (b2 : (⟨1, ![N]⟩ : Shape).Idx → EReal)
    (W3 : (⟨2, ![N, M]⟩ : Shape).Idx → EReal) (b3 : (⟨1, ![M]⟩ : Shape).Idx → EReal)
    (W4 : (⟨2, ![M, L]⟩ : Shape).Idx → EReal) (b4 : (⟨1, ![L]⟩ : Shape).Idx → EReal) :
    (⟨2, ![R, L]⟩ : Shape).Idx → EReal :=
  affine (affine (relu (affine h W2 b2)) W3 b3) W4 b4

/-! ## Row-locality -/

/-- Row p of an affine layer of h is row p' of the affine layer of h' when row p of h is row p' of h'. -/
theorem affineAt_congr {R R' K N : ℕ} (h : (⟨2, ![R, K]⟩ : Shape).Idx → EReal) (h' : (⟨2, ![R', K]⟩ : Shape).Idx → EReal)
    (W : (⟨2, ![K, N]⟩ : Shape).Idx → EReal) (b : (⟨1, ![N]⟩ : Shape).Idx → EReal) (p : Fin R) (p' : Fin R')
    (hh : ∀ k : Fin K, h (ix2 p k) = h' (ix2 p' k)) (q : Fin N) :
    affineAt h W b p q = affineAt h' W b p' q := by
  unfold affineAt
  exact congrArg (· + b (ix1 q)) (Finset.sum_congr rfl fun k _ => by rw [hh k])

/-- The first stage on a matrix whose row p is row p' of another: the same row of results. -/
theorem stage1_row {R R' K N : ℕ} (h : (⟨2, ![R, K]⟩ : Shape).Idx → EReal) (h' : (⟨2, ![R', K]⟩ : Shape).Idx → EReal)
    (W : (⟨2, ![K, N]⟩ : Shape).Idx → EReal) (b : (⟨1, ![N]⟩ : Shape).Idx → EReal) (p : Fin R) (p' : Fin R')
    (hh : ∀ k : Fin K, h (ix2 p k) = h' (ix2 p' k)) (q : Fin N) :
    stage1 h W b (ix2 p q) = stage1 h' W b (ix2 p' q) := by
  show max (affineAt h W b p q) _ = max (affineAt h' W b p' q) _
  rw [affineAt_congr h h' W b p p' hh q]

/-- The second stage on a matrix whose row p is row p' of another: the same row of results. -/
theorem stage2_row {R R' K N M L : ℕ} (h : (⟨2, ![R, K]⟩ : Shape).Idx → EReal) (h' : (⟨2, ![R', K]⟩ : Shape).Idx → EReal)
    (W2 : (⟨2, ![K, N]⟩ : Shape).Idx → EReal) (b2 : (⟨1, ![N]⟩ : Shape).Idx → EReal)
    (W3 : (⟨2, ![N, M]⟩ : Shape).Idx → EReal) (b3 : (⟨1, ![M]⟩ : Shape).Idx → EReal)
    (W4 : (⟨2, ![M, L]⟩ : Shape).Idx → EReal) (b4 : (⟨1, ![L]⟩ : Shape).Idx → EReal) (p : Fin R) (p' : Fin R')
    (hh : ∀ k : Fin K, h (ix2 p k) = h' (ix2 p' k)) (q : Fin L) :
    stage2 h W2 b2 W3 b3 W4 b4 (ix2 p q) = stage2 h' W2 b2 W3 b3 W4 b4 (ix2 p' q) := by
  show affineAt (affine (relu (affine h W2 b2)) W3 b3) W4 b4 p q
     = affineAt (affine (relu (affine h' W2 b2)) W3 b3) W4 b4 p' q
  refine affineAt_congr _ _ W4 b4 p p' (fun k => ?_) q
  show affineAt (relu (affine h W2 b2)) W3 b3 p k = affineAt (relu (affine h' W2 b2)) W3 b3 p' k
  refine affineAt_congr _ _ W3 b3 p p' (fun k' => ?_) k
  show max (affineAt h W2 b2 p k') _ = max (affineAt h' W2 b2 p' k') _
  rw [affineAt_congr h h' W2 b2 p p' hh k']

/-! ## The two spellings of an affine layer -/

/-- The matrix unit's product into a zero accumulator, plus a vector cast to one row and laid along the rows, is the
    affine layer. The operands of the product may carry any float format: on extended reals a format is no change. -/
theorem affine_of_matmul {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (hc : (⟨1, ![N]⟩ : Shape).ShapeCasts ⟨2, ![1, N]⟩) (hb : (⟨2, ![1, N]⟩ : Shape).Broadcasts ⟨2, ![R, N]⟩)
    {φ₁ φ₂ : FTy} (h : FVec Ideal ⟨2, ![R, K]⟩ φ₁) (W : FVec Ideal ⟨2, ![K, N]⟩ φ₂) (b : FVec Ideal ⟨1, ![N]⟩ .f32) :
    addf (matmul d none h W (constant (F := Ideal) ⟨2, ![R, N]⟩ .f32 0x00000000#32))
      (broadcastTo ⟨2, ![R, N]⟩ (shapeCast ⟨2, ![1, N]⟩ b hc) hb) = affine h W b := by
  funext j
  obtain ⟨p, q, rfl⟩ : ∃ (p : Fin R) (q : Fin N), j = ix2 p q := ⟨j 0, j 1, eq_ix2 j⟩
  show matmul d none h W (constant (F := Ideal) ⟨2, ![R, N]⟩ .f32 0x00000000#32) (ix2 p q)
      + broadcastTo ⟨2, ![R, N]⟩ (shapeCast ⟨2, ![1, N]⟩ b hc) hb (ix2 p q) = affineAt h W b p q
  rw [Cert.LibMatmulRows.matmul_rows d hrank hsize hl0 hl1 hr0 hr1 h W p q, Cert.LibBiasRows.bias_rows b hc hb p q]
  rfl

/-- The host's dot_general, plus a vector broadcast to one row and then along the rows, is the affine layer. -/
theorem affine_of_dot {R K N : ℕ} (hN : N ≠ 1) (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (h1 : (⟨1, ![N]⟩ : Shape).BroadcastsInDim ⟨2, ![1, N]⟩ (![1] : Fin 1 → Fin 2))
    (h2 : (⟨2, ![1, N]⟩ : Shape).BroadcastsInDim ⟨2, ![R, N]⟩ (![0, 1] : Fin 2 → Fin 2))
    (h : FVec Ideal ⟨2, ![R, K]⟩ .f32) (W : FVec Ideal ⟨2, ![K, N]⟩ .f32) (b : FVec Ideal ⟨1, ![N]⟩ .f32) :
    addf (Host.dotGeneral d none h W)
      (broadcastInDim ⟨2, ![R, N]⟩ ![0, 1] h2 (broadcastInDim ⟨2, ![1, N]⟩ ![1] h1 b)) = affine h W b := by
  funext j
  obtain ⟨p, q, rfl⟩ : ∃ (p : Fin R) (q : Fin N), j = ix2 p q := ⟨j 0, j 1, eq_ix2 j⟩
  show Host.dotGeneral d none h W (ix2 p q)
      + broadcastInDim ⟨2, ![R, N]⟩ ![0, 1] h2 (broadcastInDim ⟨2, ![1, N]⟩ ![1] h1 b) (ix2 p q) = affineAt h W b p q
  rw [Cert.LibMatmulRows.hostdot_rows d hrank hsize hl0 hl1 hr0 hr1 h W p q, Cert.LibBiasRows.bias_host hN b h1 h2 p q]
  rfl

end Cert.LibDenseLayers

end
-- ==== Proof.LibMoments.lean ====
/-
  GENERAL lemmas on the extended reals with the exact ("ideal") float operations: entries that are real
  numbers, the quotient by a nonzero real, a few float literals, and the two formulas for a variance.

  On the extended reals a difference of infinities is a junk value, so E[x²] − E[x]² and E[(x − E[x])²] agree
  only where the entries are real numbers. The predicate IsR x says "x is (the image of) a real number"; it is
  closed under the ring operations, finite sums, max, if-then-else and the quotient by a nonzero real, and on
  such entries every identity below is the identity of real numbers transported along the inclusion ℝ → EReal.
-/
import Mathlib.Data.EReal.Inv
import Mathlib.Analysis.SpecialFunctions.Pow.Real
import Mathlib.Algebra.BigOperators.Group.Finset.Basic
import Mathlib.Algebra.BigOperators.Fin
import Mathlib.Tactic.Ring
import Mathlib.Tactic.Linarith
import Mathlib.Tactic.FieldSimp
import Mathlib.Tactic.Positivity
import Idealize.ShloMosaic.PureOps.Ideal

noncomputable section

namespace Cert.LibMoments

open Idealize.ShloMosaic
open scoped BigOperators

/-! ## Entries that are real numbers -/

/-- The extended real x is a real number. -/
def IsR (x : EReal) : Prop := ∃ r : ℝ, x = (r : EReal)

theorem IsR.coe (r : ℝ) : IsR (r : EReal) := ⟨r, rfl⟩

theorem IsR_zero : IsR 0 := ⟨0, EReal.coe_zero.symm⟩

theorem IsR_one : IsR 1 := ⟨1, EReal.coe_one.symm⟩

theorem IsR.ne_top {x : EReal} (hx : IsR x) : x ≠ ⊤ := by
  obtain ⟨a, rfl⟩ := hx; exact EReal.coe_ne_top a

theorem IsR.ne_bot {x : EReal} (hx : IsR x) : x ≠ ⊥ := by
  obtain ⟨a, rfl⟩ := hx; exact EReal.coe_ne_bot a

theorem IsR.add {x y : EReal} (hx : IsR x) (hy : IsR y) : IsR (x + y) := by
  obtain ⟨a, rfl⟩ := hx; obtain ⟨b, rfl⟩ := hy; exact ⟨a + b, (EReal.coe_add a b).symm⟩

theorem IsR.neg {x : EReal} (hx : IsR x) : IsR (-x) := by
  obtain ⟨a, rfl⟩ := hx; exact ⟨-a, (EReal.coe_neg a).symm⟩

theorem IsR.sub {x y : EReal} (hx : IsR x) (hy : IsR y) : IsR (x - y) := by
  obtain ⟨a, rfl⟩ := hx; obtain ⟨b, rfl⟩ := hy; exact ⟨a - b, (EReal.coe_sub a b).symm⟩

theorem IsR.mul {x y : EReal} (hx : IsR x) (hy : IsR y) : IsR (x * y) := by
  obtain ⟨a, rfl⟩ := hx; obtain ⟨b, rfl⟩ := hy; exact ⟨a * b, (EReal.coe_mul a b).symm⟩

/-- The inclusion of the reals commutes with finite sums. -/
theorem coe_finset_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A finite sum of real entries is a real entry. -/
theorem IsR.finset_sum {ι : Type*} (s : Finset ι) (f : ι → EReal) (h : ∀ i ∈ s, IsR (f i)) :
    IsR (∑ i ∈ s, f i) := by
  classical
  induction s using Finset.induction_on with
  | empty => simpa using IsR_zero
  | insert a s ha ih =>
    rw [Finset.sum_insert ha]
    exact (h a (Finset.mem_insert_self a s)).add (ih fun i hi => h i (Finset.mem_insert_of_mem hi))

theorem IsR.sum {ι : Type*} [Fintype ι] (f : ι → EReal) (h : ∀ i, IsR (f i)) : IsR (∑ i, f i) :=
  IsR.finset_sum Finset.univ f fun i _ => h i

theorem IsR.max {x y : EReal} (hx : IsR x) (hy : IsR y) : IsR (max x y) := by
  rcases le_total x y with h | h
  · rw [max_eq_right h]; exact hy
  · rw [max_eq_left h]; exact hx

theorem IsR.min {x y : EReal} (hx : IsR x) (hy : IsR y) : IsR (min x y) := by
  rcases le_total x y with h | h
  · rw [min_eq_left h]; exact hx
  · rw [min_eq_right h]; exact hy

theorem IsR.ite {p : Prop} [Decidable p] {x y : EReal} (hx : IsR x) (hy : IsR y) :
    IsR (if p then x else y) := by
  split
  · exact hx
  · exact hy

/-- The quotient of a real by a nonzero real, read as extended reals, is the real quotient. -/
theorem div_coe_coe (a b : ℝ) (hb : b ≠ 0) : Ideal.div (a : EReal) (b : EReal) = ((a / b : ℝ) : EReal) := by
  rw [Ideal.div_coe hb, ← EReal.coe_mul, mul_one_div]

theorem IsR.div_real {x : EReal} (hx : IsR x) (c : EReal) (hc : IsR c) (hc0 : c ≠ 0) : IsR (Ideal.div x c) := by
  obtain ⟨a, rfl⟩ := hx; obtain ⟨b, rfl⟩ := hc
  have hb : b ≠ 0 := fun h => hc0 (by rw [h, EReal.coe_zero])
  exact ⟨a / b, div_coe_coe a b hb⟩

/-! ## The quotient as a product with the reciprocal; max x 1 -/

/-- x * (1 / c) = x / c for every nonzero divisor, the infinities included. -/
theorem mul_one_div (x c : EReal) (hc : c ≠ 0) : x * Ideal.div 1 c = Ideal.div x c := by
  rw [Ideal.div, Ideal.div, if_neg hc, if_neg hc, one_mul]

theorem max_one_ne_zero (x : EReal) : max x 1 ≠ 0 :=
  ne_of_gt (lt_of_lt_of_le zero_lt_one (le_max_right x 1))

theorem isR_max_one {x : EReal} (hx : IsR x) : IsR (max x 1) := hx.max IsR_one

/-! ## Float literals -/

theorem ofBits_zero : Ideal.ofBits .f32 0x00000000#32 = 0 := by
  simp [Ideal.ofBits, Ideal.ieee]

theorem ofBits_one : Ideal.ofBits .f32 0x3F800000#32 = 1 := by
  simp [Ideal.ofBits, Ideal.ieee, -EReal.coe_mul]; norm_num

theorem ofBits_50000 : Ideal.ofBits .f32 0x47435000#32 = ((50000 : ℝ) : EReal) := by
  simp [Ideal.ofBits, Ideal.ieee, -EReal.coe_mul]; norm_num

theorem ofBits_eps : ∃ e : ℝ, 0 < e ∧ Ideal.ofBits .f32 0x3727C5AC#32 = (e : EReal) := by
  refine ⟨(10995116 : ℝ) * (2 : ℝ) ^ (-40 : ℤ), by positivity, ?_⟩
  simp [Ideal.ofBits, Ideal.ieee, -EReal.coe_mul]

/-! ## The two formulas for a variance

  For real numbers x₁ … xₙ with mean m = (∑ x) / n:  (∑ (x − m)²) / n = (∑ x²) / n − m².
  Expand the square: ∑ (x − m)² = ∑ x² − 2 m ∑ x + n m², and ∑ x = n m. -/

/-- The identity on the reals, with the sum of the entries named S. -/
theorem real_variance (n : ℕ) (P : Fin n → ℝ) (N S : ℝ) (hn : (n : ℝ) = N) (hN : N ≠ 0) (hS : ∑ q, P q = S) :
    (∑ p, (P p - S / N) * (P p - S / N)) / N = (∑ p, P p * P p) / N - S / N * (S / N) := by
  have h1 : ∀ p, (P p - S / N) * (P p - S / N) = P p * P p - 2 * (S / N) * P p + S / N * (S / N) :=
    fun p => by ring
  simp only [h1]
  rw [Finset.sum_add_distrib, Finset.sum_sub_distrib, ← Finset.mul_sum, hS, Finset.sum_const, Finset.card_univ,
    Fintype.card_fin, nsmul_eq_mul, hn]
  field_simp
  ring

/-- The identity on the extended reals, for entries that are images of reals: the mean of the squared deviations
    from the mean is the mean of the squares minus the square of the mean. -/
theorem variance_coe (n : ℕ) (P : Fin n → ℝ) (N : ℝ) (hn : (n : ℝ) = N) (hN : N ≠ 0) :
    Ideal.div (∑ p, (((P p : ℝ) : EReal) - Ideal.div (∑ q, ((P q : ℝ) : EReal)) (N : EReal))
        * (((P p : ℝ) : EReal) - Ideal.div (∑ q, ((P q : ℝ) : EReal)) (N : EReal))) (N : EReal)
      = Ideal.div (∑ p, ((P p : ℝ) : EReal) * ((P p : ℝ) : EReal)) (N : EReal)
        - Ideal.div (∑ q, ((P q : ℝ) : EReal)) (N : EReal) * Ideal.div (∑ q, ((P q : ℝ) : EReal)) (N : EReal) := by
  have hμ : Ideal.div (∑ q, ((P q : ℝ) : EReal)) (N : EReal) = (((∑ q, P q) / N : ℝ) : EReal) := by
    rw [coe_finset_sum, div_coe_coe _ _ hN]
  rw [hμ]
  have hL : ∀ p, (((P p : ℝ) : EReal) - (((∑ q, P q) / N : ℝ) : EReal)) * (((P p : ℝ) : EReal) - (((∑ q, P q) / N : ℝ) : EReal))
      = (((P p - (∑ q, P q) / N) * (P p - (∑ q, P q) / N) : ℝ) : EReal) := fun p => by
    rw [← EReal.coe_sub, ← EReal.coe_mul]
  have hR : ∀ p, ((P p : ℝ) : EReal) * ((P p : ℝ) : EReal) = ((P p * P p : ℝ) : EReal) := fun p =>
    (EReal.coe_mul _ _).symm
  simp only [hL, hR]
  rw [coe_finset_sum, coe_finset_sum, div_coe_coe _ _ hN, div_coe_coe _ _ hN, ← EReal.coe_mul, ← EReal.coe_sub]
  exact congrArg _ (real_variance n P N _ hn hN rfl)

/-- The same for any family of extended reals every entry of which is a real number. -/
theorem variance_isR (n : ℕ) (X : Fin n → EReal) (hX : ∀ p, IsR (X p)) (N : ℝ) (hn : (n : ℝ) = N) (hN : N ≠ 0) :
    Ideal.div (∑ p, (X p - Ideal.div (∑ q, X q) (N : EReal)) * (X p - Ideal.div (∑ q, X q) (N : EReal))) (N : EReal)
      = Ideal.div (∑ p, X p * X p) (N : EReal)
        - Ideal.div (∑ q, X q) (N : EReal) * Ideal.div (∑ q, X q) (N : EReal) := by
  choose P hP using hX
  obtain rfl : X = fun p => ((P p : ℝ) : EReal) := funext hP
  exact variance_coe n P N hn hN

/-- The same with the divisor any extended real known to be the real N (a float literal, say). -/
theorem variance_isR_of_eq (n : ℕ) (X : Fin n → EReal) (hX : ∀ p, IsR (X p)) (c : EReal) (N : ℝ) (hc : c = (N : EReal))
    (hn : (n : ℝ) = N) (hN : N ≠ 0) :
    Ideal.div (∑ p, (X p - Ideal.div (∑ q, X q) c) * (X p - Ideal.div (∑ q, X q) c)) c
      = Ideal.div (∑ p, X p * X p) c - Ideal.div (∑ q, X q) c * Ideal.div (∑ q, X q) c := by
  subst hc; exact variance_isR n X hX N hn hN

/-! ## The reciprocal square root of a variance plus a positive real -/

/-- At a positive real the reciprocal square root is the real (√r)⁻¹. -/
theorem rsqrt_pos (r : ℝ) (hr : 0 < r) : Ideal.rsqrt (r : EReal) = (((Real.sqrt r)⁻¹ : ℝ) : EReal) := by
  rw [Ideal.rsqrt_coe, if_neg (not_lt.mpr hr.le), if_neg hr.ne']

/-- A mean of squares of reals over a positive N, plus a positive e, is a positive real; its reciprocal square
    root is a real. -/
theorem rsqrt_sq_mean_real (n : ℕ) (Y : Fin n → EReal) (hY : ∀ p, IsR (Y p)) (N : ℝ) (hN : 0 < N) (e : ℝ) (he : 0 < e) :
    IsR (Ideal.rsqrt (Ideal.div (∑ p, Y p * Y p) (N : EReal) + (e : EReal))) := by
  choose Q hQ using hY
  have hsum : ∑ p, Y p * Y p = ((∑ p, Q p * Q p : ℝ) : EReal) := by
    rw [← coe_finset_sum]
    exact Finset.sum_congr rfl fun p _ => by rw [hQ p, ← EReal.coe_mul]
  have hpos : 0 < (∑ p, Q p * Q p) / N + e :=
    add_pos_of_nonneg_of_pos (div_nonneg (Finset.sum_nonneg fun p _ => mul_self_nonneg _) hN.le) he
  rw [hsum, div_coe_coe _ _ hN.ne', ← EReal.coe_add, rsqrt_pos _ hpos]
  exact ⟨_, rfl⟩

/-- The reciprocal square root of (the mean squared deviation from the mean, plus a positive real) is a real. -/
theorem rsqrt_real (n : ℕ) (X : Fin n → EReal) (hX : ∀ p, IsR (X p)) (N : ℝ) (hN : 0 < N) (e : ℝ) (he : 0 < e) :
    IsR (Ideal.rsqrt (Ideal.div (∑ p, (X p - Ideal.div (∑ q, X q) (N : EReal)) * (X p - Ideal.div (∑ q, X q) (N : EReal)))
      (N : EReal) + (e : EReal))) :=
  rsqrt_sq_mean_real n _ (fun p => (hX p).sub ((IsR.sum X hX).div_real _ (IsR.coe N) (by exact_mod_cast hN.ne'))) N hN e he

end Cert.LibMoments

end
-- ==== Proof.Spec.lean ====
/-
  The mathematics of a two-layer graph convolution with batch normalisation, on extended reals, with no program in sight.

  A batch normalisation over the rows of a matrix h of R rows: every column q has a mean and a variance, and entry (p, q)
  becomes ((h(p,q) - mean q) * rsqrt (var q + eps)) * g q + b q, followed by the leaky rectifier (y for y >= 0, y/10 below).
  The variance is taken in two ways: as the mean of the squared deviations from the mean, and as the mean of the squares
  minus the square of the mean. On the extended reals a difference of infinities is a junk value, so the two agree only
  where every entry of the column is a real number; there they are the same real number (expand the square).
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«126232_j32822140076791_1_alg».proof.Proof.LibMoments
import proofs.«126232_j32822140076791_1_alg».proof.Proof.LibDenseLayers

noncomputable section

namespace Cert.Gcn

open Idealize.ShloMosaic Idealize.ShloMosaic.ValueIdx Cert.LibMoments
open scoped BigOperators

/-- The single-precision words of 0, 50000, the epsilon 1e-5 and the slope 0.1, as extended reals. -/
abbrev zw : EReal := Ideal.ofBits .f32 0x00000000#32
abbrev nw : EReal := Ideal.ofBits .f32 0x47435000#32
abbrev ew : EReal := Ideal.ofBits .f32 0x3727C5AC#32
abbrev sw : EReal := Ideal.ofBits .f32 0x3DCCCCCD#32

theorem zw_eq : zw = 0 := ofBits_zero
theorem nw_eq : nw = ((50000 : ℝ) : EReal) := ofBits_50000

/-- The slope word is a real number. -/
theorem isR_sw : IsR sw := by
  refine ⟨(13421773 : ℝ) * (2 : ℝ) ^ (-27 : ℤ), ?_⟩
  simp [sw, Ideal.ofBits, Ideal.ieee, -EReal.coe_mul]

/-- The leaky rectifier: y where y is at least zero, a tenth of y below. -/
def leaky (y : EReal) : EReal :=
  Scalar.select (FloatOps.cmpf (F := Ideal) (φ := .f32) .oge y zw) y (sw * y)

theorem isR_leaky {y : EReal} (hy : IsR y) : IsR (leaky y) := by
  unfold leaky Scalar.select
  split
  · exact hy
  · exact isR_sw.mul hy

/-- One normalised entry: centred, scaled by the reciprocal root of the variance plus epsilon, scaled and shifted by the
    learnt pair, rectified. -/
def act (x m v g b : EReal) : EReal := leaky (((x - m) * Ideal.rsqrt (v + ew)) * g + b)

variable {R C : ℕ}

/-- A matrix of R rows and C columns, a vector of C entries. -/
abbrev Mat (R C : ℕ) : Type := (⟨2, ![R, C]⟩ : Shape).Idx → EReal
abbrev Vc (C : ℕ) : Type := (⟨1, ![C]⟩ : Shape).Idx → EReal

/-- The sum of column q. -/
def colSum (h : Mat R C) (q : Fin C) : EReal := ∑ k : Fin R, h (ix2 k q)
/-- The sum of the squares of column q. -/
def colSumSq (h : Mat R C) (q : Fin C) : EReal := ∑ k : Fin R, h (ix2 k q) * h (ix2 k q)

/-- The column mean as a host sum from zero divided by the count word. -/
def meanRef (h : Mat R C) (q : Fin C) : EReal := Ideal.div (zw + colSum h q) nw
/-- The column variance as the mean of the squared deviations from the mean. -/
def varRef (h : Mat R C) (q : Fin C) : EReal :=
  Ideal.div (zw + ∑ k : Fin R, (h (ix2 k q) - meanRef h q) * (h (ix2 k q) - meanRef h q)) nw
/-- The column mean as the accumulated sum divided by the count word. -/
def meanAcc (h : Mat R C) (q : Fin C) : EReal := Ideal.div (colSum h q) nw
/-- The column variance as the mean of the squares minus the square of the mean. -/
def varAcc (h : Mat R C) (q : Fin C) : EReal := Ideal.div (colSumSq h q) nw - meanAcc h q * meanAcc h q

/-- Entry (p, q) of the batch normalisation and rectifier with the deviations' variance. -/
def bnRefAt (h : Mat R C) (g b : Vc C) (p : Fin R) (q : Fin C) : EReal :=
  act (h (ix2 p q)) (meanRef h q) (varRef h q) (g (ix1 q)) (b (ix1 q))
/-- Entry (p, q) of the batch normalisation and rectifier with the moments' variance. -/
def bnAccAt (h : Mat R C) (g b : Vc C) (p : Fin R) (q : Fin C) : EReal :=
  act (h (ix2 p q)) (meanAcc h q) (varAcc h q) (g (ix1 q)) (b (ix1 q))
/-- Batch normalisation and rectifier with the deviations' variance. -/
def bnRef (h : Mat R C) (g b : Vc C) : Mat R C := fun i => bnRefAt h g b (i 0) (i 1)
/-- Batch normalisation and rectifier with the moments' variance. -/
def bnAcc (h : Mat R C) (g b : Vc C) : Mat R C := fun i => bnAccAt h g b (i 0) (i 1)

theorem meanRef_eq_meanAcc (h : Mat R C) (q : Fin C) : meanRef h q = meanAcc h q := by
  unfold meanRef meanAcc
  rw [zw_eq, zero_add]

/-- For a column of real numbers and 50000 rows the two variances are one number. -/
theorem varRef_eq_varAcc (hR : R = 50000) (h : Mat R C) (hh : ∀ i, IsR (h i)) (q : Fin C) : varRef h q = varAcc h q := by
  unfold varRef varAcc colSumSq
  rw [meanRef_eq_meanAcc]
  unfold meanAcc colSum
  rw [zw_eq, zero_add]
  exact variance_isR_of_eq R (fun k => h (ix2 k q)) (fun k => hh _) nw 50000 nw_eq (by rw [hR]; norm_num) (by norm_num)

/-- So on a matrix of real numbers with 50000 rows the two normalisations are one function. -/
theorem bnAccAt_eq_bnRefAt (hR : R = 50000) (h : Mat R C) (hh : ∀ i, IsR (h i)) (g b : Vc C) (p : Fin R) (q : Fin C) :
    bnAccAt h g b p q = bnRefAt h g b p q := by
  unfold bnAccAt bnRefAt
  rw [meanRef_eq_meanAcc, varRef_eq_varAcc hR h hh]

theorem bnAcc_eq_bnRef (hR : R = 50000) (h : Mat R C) (hh : ∀ i, IsR (h i)) (g b : Vc C) : bnAcc h g b = bnRef h g b :=
  funext fun i => bnAccAt_eq_bnRefAt hR h hh g b (i 0) (i 1)

/-- The normalisation of real numbers by real pairs gives real numbers: the variance is not negative, so the reciprocal
    root of it plus the positive epsilon is a real number. -/
theorem isR_bnRefAt (hR : R = 50000) (h : Mat R C) (hh : ∀ i, IsR (h i)) (g b : Vc C) (hg : ∀ i, IsR (g i)) (hb : ∀ i, IsR (b i))
    (p : Fin R) (q : Fin C) : IsR (bnRefAt h g b p q) := by
  obtain ⟨e, he, hew⟩ := ofBits_eps
  have hN : ((R : ℕ) : ℝ) = 50000 := by rw [hR]; norm_num
  have hmean : IsR (meanRef h q) := by
    rw [meanRef_eq_meanAcc]
    unfold meanAcc colSum
    rw [nw_eq]
    exact (IsR.sum _ fun k => hh _).div_real _ (IsR.coe _) (by exact_mod_cast (by norm_num : (50000 : ℝ) ≠ 0))
  have hrs : IsR (Ideal.rsqrt (varRef h q + ew)) := by
    unfold varRef
    rw [meanRef_eq_meanAcc]
    unfold meanAcc colSum
    rw [zw_eq, zero_add, nw_eq, show ew = (e : EReal) from hew]
    exact rsqrt_real R (fun k => h (ix2 k q)) (fun k => hh _) 50000 (by norm_num) e he
  unfold bnRefAt act
  exact isR_leaky ((((hh _).sub hmean).mul hrs).mul (hg _) |>.add (hb _))

theorem isR_bnRef (hR : R = 50000) (h : Mat R C) (hh : ∀ i, IsR (h i)) (g b : Vc C) (hg : ∀ i, IsR (g i)) (hb : ∀ i, IsR (b i))
    (i : (⟨2, ![R, C]⟩ : Shape).Idx) : IsR (bnRef h g b i) :=
  isR_bnRefAt hR h hh g b hg hb (i 0) (i 1)

/-! ## The layers with their one-row operands -/

/-- A one-row matrix as a vector. -/
def rowVec (b : Mat 1 C) : Vc C := fun j => b (ix2 (0 : Fin 1) (j 0))

/-- A vector cast to one row, read back as a vector, is the vector. -/
theorem rowVec_shapeCast (b : Vc C) (hc : (⟨1, ![C]⟩ : Shape).ShapeCasts ⟨2, ![1, C]⟩) : rowVec (shapeCast ⟨2, ![1, C]⟩ b hc) = b := by
  funext j
  obtain ⟨q, rfl⟩ : ∃ q : Fin C, j = ix1 q := ⟨j 0, eq_ix1 j⟩
  exact shapeCast_a_1a_apply b hc 0 q

/-- The affine layer with its bias kept as a one-row matrix. -/
def lin {K : ℕ} (x : Mat R K) (W : Mat K C) (b : Mat 1 C) : Mat R C := Cert.LibDenseLayers.affine x W (rowVec b)

/-- Entry i of the layer depends on row i 0 of x, column i 1 of W and entry i 1 of the bias row. -/
theorem lin_congr {R' K : ℕ} (x : Mat R K) (x' : Mat R' K) (W W' : Mat K C) (b b' : Mat 1 C)
    (i : (⟨2, ![R, C]⟩ : Shape).Idx) (i' : (⟨2, ![R', C]⟩ : Shape).Idx)
    (hx : ∀ k : Fin K, x (ix2 (i 0) k) = x' (ix2 (i' 0) k)) (hW : ∀ k : Fin K, W (ix2 k (i 1)) = W' (ix2 k (i' 1)))
    (hb : b (ix2 (0 : Fin 1) (i 1)) = b' (ix2 (0 : Fin 1) (i' 1))) : lin x W b i = lin x' W' b' i' := by
  show (∑ k : Fin K, x (ix2 (i 0) k) * W (ix2 k (i 1))) + b (ix2 (0 : Fin 1) (i 1))
     = (∑ k : Fin K, x' (ix2 (i' 0) k) * W' (ix2 k (i' 1))) + b' (ix2 (0 : Fin 1) (i' 1))
  rw [hb]
  exact congrArg (· + _) (Finset.sum_congr rfl fun k _ => by rw [hx k, hW k])

/-- Entry (p, q) of the normalisation whose four operands are one-row matrices. -/
def bnormAt (h : Mat R C) (m v g b : Mat 1 C) (p : Fin R) (q : Fin C) : EReal :=
  act (h (ix2 p q)) (m (ix2 (0 : Fin 1) q)) (v (ix2 (0 : Fin 1) q)) (g (ix2 (0 : Fin 1) q)) (b (ix2 (0 : Fin 1) q))

/-- The normalisation whose four operands are one-row matrices. -/
def bnorm (h : Mat R C) (m v g b : Mat 1 C) : Mat R C := fun i => bnormAt h m v g b (i 0) (i 1)

theorem bnorm_congr {R' : ℕ} (h : Mat R C) (h' : Mat R' C) (m v g b m' v' g' b' : Mat 1 C)
    (i : (⟨2, ![R, C]⟩ : Shape).Idx) (i' : (⟨2, ![R', C]⟩ : Shape).Idx)
    (hh : h (ix2 (i 0) (i 1)) = h' (ix2 (i' 0) (i' 1))) (hm : m (ix2 (0 : Fin 1) (i 1)) = m' (ix2 (0 : Fin 1) (i' 1)))
    (hv : v (ix2 (0 : Fin 1) (i 1)) = v' (ix2 (0 : Fin 1) (i' 1))) (hg : g (ix2 (0 : Fin 1) (i 1)) = g' (ix2 (0 : Fin 1) (i' 1)))
    (hb : b (ix2 (0 : Fin 1) (i 1)) = b' (ix2 (0 : Fin 1) (i' 1))) : bnorm h m v g b i = bnorm h' m' v' g' b' i' := by
  show act (h (ix2 (i 0) (i 1))) (m (ix2 (0 : Fin 1) (i 1))) (v (ix2 (0 : Fin 1) (i 1))) (g (ix2 (0 : Fin 1) (i 1))) (b (ix2 (0 : Fin 1) (i 1)))
     = act (h' (ix2 (i' 0) (i' 1))) (m' (ix2 (0 : Fin 1) (i' 1))) (v' (ix2 (0 : Fin 1) (i' 1))) (g' (ix2 (0 : Fin 1) (i' 1))) (b' (ix2 (0 : Fin 1) (i' 1)))
  rw [hh, hm, hv, hg, hb]

/-- The row of column sums from zero, and of column sums of squares from zero. -/
def sumRow (h : Mat R C) : Mat 1 C := fun i => zw + colSum h (i 1)
def sumSqRow (h : Mat R C) : Mat 1 C := fun i => zw + colSumSq h (i 1)

/-- An affine layer of real numbers is a matrix of real numbers. -/
theorem isR_affine {K : ℕ} (h : Mat R K) (W : Mat K C) (b : Vc C) (hh : ∀ i, IsR (h i)) (hW : ∀ i, IsR (W i)) (hb : ∀ i, IsR (b i))
    (i : (⟨2, ![R, C]⟩ : Shape).Idx) : IsR (Cert.LibDenseLayers.affine h W b i) := by
  unfold Cert.LibDenseLayers.affine Cert.LibDenseLayers.affineAt
  exact (IsR.sum _ fun k => (hh _).mul (hW _)).add (hb _)

end Cert.Gcn

end
-- ==== Proof.RegionLin0.lean ====
/-
  The first linear region: fifty blocks of a thousand rows. At grid point t the body reads rows 1000 t … 1000 t + 999 of the
  input, the whole weight matrix and the one-row bias, and writes the same rows of the result: entry (p, q) of the block is
  the sum over k of x(1000 t + p, k) * W(k, q), plus the bias at q. A row of the product depends only on the same row of the
  input, so the fifty blocks written back are the blocks of ONE matrix, the affine layer of the whole input; the blocks
  cover every row, so that matrix is what the result array holds after the region.
-/
import proofs.«126232_j32822140076791_1_alg».proof.Proof.Gen.KernelIdeal.Frame
import proofs.«126232_j32822140076791_1_alg».proof.Proof.LibDenseLayers
import proofs.«126232_j32822140076791_1_alg».proof.Proof.Spec
import Idealize.ShloMosaic.Lib.Pipeline.Value
import Idealize.ShloMosaic.Lib.ValueLayout

set_option maxRecDepth 16384

noncomputable section

namespace Cert.KernelIdeal.Lin0

open Cert.KernelIdeal Cert.KernelIdeal.Gen Cert.Gcn
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-! ## The body's payload -/

theorem dl0 (i : S1000x128.Idx) (s : dot_S1000x256_S256x128_S1000x128_1_0_0_1_n_n.contr.Idx) :
    (dot_S1000x256_S256x128_S1000x128_1_0_0_1_n_n.lhsIdx i s 0).val = (i 0).val := by
  unfold DotDims.lhsIdx
  rw [dif_neg (show ¬(0 : Fin S1000x256.rank) ∈ dot_S1000x256_S256x128_S1000x128_1_0_0_1_n_n.lhsBatch by decide), dif_pos (show (0 : Fin S1000x256.rank) ∈ dot_S1000x256_S256x128_S1000x128_1_0_0_1_n_n.lhsNonContracting by decide)]
  rfl
theorem dl1 (i : S1000x128.Idx) (s : dot_S1000x256_S256x128_S1000x128_1_0_0_1_n_n.contr.Idx) :
    (dot_S1000x256_S256x128_S1000x128_1_0_0_1_n_n.lhsIdx i s 1).val = (s ⟨0, by decide⟩).val :=
  dot_S1000x256_S256x128_S1000x128_1_0_0_1_n_n.lhsIdx_val_of_single rfl i s
theorem dr0 (i : S1000x128.Idx) (s : dot_S1000x256_S256x128_S1000x128_1_0_0_1_n_n.contr.Idx) :
    (dot_S1000x256_S256x128_S1000x128_1_0_0_1_n_n.rhsIdx i s 0).val = (s ⟨0, by decide⟩).val :=
  dot_S1000x256_S256x128_S1000x128_1_0_0_1_n_n.rhsIdx_val_of_single rfl i s
theorem dr1 (i : S1000x128.Idx) (s : dot_S1000x256_S256x128_S1000x128_1_0_0_1_n_n.contr.Idx) :
    (dot_S1000x256_S256x128_S1000x128_1_0_0_1_n_n.rhsIdx i s 1).val = (i 1).val := by
  unfold DotDims.rhsIdx
  rw [dif_neg (show ¬(1 : Fin S256x128.rank) ∈ dot_S1000x256_S256x128_S1000x128_1_0_0_1_n_n.rhsBatch by decide), dif_pos (show (1 : Fin S256x128.rank) ∈ dot_S1000x256_S256x128_S1000x128_1_0_0_1_n_n.rhsNonContracting by decide)]
  rfl

/-- The body's one store: the product into zero plus the bias row laid along the rows is the layer of the loaded blocks. -/
theorem pay_eq (x0 : Vec Ideal S1000x256 .f32) (x1 : Vec Ideal S256x128 .f32) (x2 : Vec Ideal S1x128 .f32) :
    k0_pay1 (F := Ideal) x0 x1 x2 = lin x0 x1 x2 := by
  funext j
  obtain ⟨p, q, rfl⟩ : ∃ (p : Fin 1000) (q : Fin 128), j = ix2 p q := ⟨j 0, j 1, eq_ix2 j⟩
  unfold k0_pay1
  show matmul dot_S1000x256_S256x128_S1000x128_1_0_0_1_n_n none (truncf .bf16 x0 bitsLt_bf16_f32) (truncf .bf16 x1 bitsLt_bf16_f32)
        (constant (F := Ideal) S1000x128 .f32 0x00000000#32) (ix2 p q)
      + broadcastTo S1000x128 (shapeCast S1x128 x2 shapeCasts_S1x128_S1x128) broadcasts_S1x128_S1000x128 (ix2 p q) = _
  rw [Cert.LibMatmulRows.matmul_rows dot_S1000x256_S256x128_S1000x128_1_0_0_1_n_n rfl rfl dl0 dl1 dr0 dr1 _ _ p q,
    broadcastTo_1b_ab_apply _ broadcasts_S1x128_S1000x128 p q, shapeCast_self]
  rfl

/-! ## From blocks to the array -/

/-- The printed index maps over the grid: the row blocks move with the point, everything else stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What the result array ends holding. -/
abbrev G (c : Dev nD) : S50000x128.Idx → EReal := lin (V c main_arg0) (V c main_arg2) (V c main_v7)

theorem block_eq (c : Dev nD) (t : Fin cfg0.N) (j : S1000x128.Idx) :
    lin (iblk0 V c 0 t) (iblk0 V c 1 t) (iblk0 V c 2 t) j = G V c (((cfg0.win 3).blk t).view.emb j) := by
  obtain ⟨e0, e1, e2, e3, e4, e5, e6, e7⟩ := idx_facts t
  have hj0 : (j 0).val < 1000 := (j 0).isLt
  have hj1 : (j 1).val < 128 := (j 1).isLt
  have o0 : ((((cfg0.win 3).blk t).view.emb j) 0).val = t.val * 1000 + (j 0).val := by
    show win0_3.index t (0 : Fin 2) * 1000 + 1 * (j 0).val = _
    rw [e6]; omega
  have o1 : ((((cfg0.win 3).blk t).view.emb j) 1).val = (j 1).val := by
    show win0_3.index t (1 : Fin 2) * 128 + 1 * (j 1).val = _
    rw [e7]; omega
  refine lin_congr _ _ _ _ _ _ j _ (fun k => ?_) (fun k => ?_) ?_
  · unfold iblk0
    rw [View.read_apply]
    show V c main_arg0 _ = V c main_arg0 _
    refine congrArg _ (Cert.LibMatmulRows.idx2_ext _ _ ?_ ?_)
    · show win0_0.index t (0 : Fin 2) * 1000 + 1 * (j 0).val = _
      rw [o0, e0]; omega
    · show win0_0.index t (1 : Fin 2) * 256 + 1 * k.val = k.val
      rw [e1]; omega
  · unfold iblk0
    rw [View.read_apply]
    show V c main_arg2 _ = V c main_arg2 _
    refine congrArg _ (Cert.LibMatmulRows.idx2_ext _ _ ?_ ?_)
    · show win0_1.index t (0 : Fin 2) * 256 + 1 * k.val = k.val
      rw [e2]; omega
    · show win0_1.index t (1 : Fin 2) * 128 + 1 * (j 1).val = _
      rw [o1, e3]; omega
  · unfold iblk0
    rw [View.read_apply]
    show V c main_v7 _ = V c main_v7 _
    refine congrArg _ (Cert.LibMatmulRows.idx2_ext _ _ ?_ ?_)
    · show win0_2.index t (0 : Fin 2) * 1 + 1 * 0 = 0
      rw [e4]
    · show win0_2.index t (1 : Fin 2) * 128 + 1 * (j 1).val = _
      rw [o1, e5]; omega

/-- What point t writes back is block t of G. -/
theorem flushed_eq (c : Dev nD) (t : Fin cfg0.N) :
    (dat0 V c).flushed 3 t = ((cfg0.win 3).blk t).view.read (Elt Ideal) (G V c) := by
  show (cfg0.win 3).cut (grid0.coords t) ((dat0 V c).after 3 t) = _
  rw [after0_3]
  unfold out0_3
  rw [View.canon_unit_zero hz]
  simp only [View.ld_unit_zero (S := S1000x256) hz, View.ld_unit_zero (S := S256x128) hz, View.ld_unit_zero (S := S1x128) hz]
  rw [pay_eq]
  funext j
  exact block_eq V c t j

theorem mem_blk (t : Fin cfg0.N) (i : S50000x128.Idx) :
    i ∈ ((cfg0.win 3).blk t).view.set ↔ ∀ a : Fin 2, win0_3.index t a * S1000x128.size a ≤ (i a).val ∧ (i a).val < win0_3.index t a * S1000x128.size a + S1000x128.size a := by
  show i ∈ ((View.whole main_v8).slice (win0_3.rect t)).set ↔ _
  rw [View.set_slice_whole, Rect.mem_set_unit]
  exact Iff.rfl

/-- Every row is in the block of the point numbered row / 1000. -/
theorem cover (i : S50000x128.Idx) : ∃ t : Fin cfg0.N, (cfg0.win 3).flush t = true ∧ i ∈ ((cfg0.win 3).blk t).view.set := by
  have hN : cfg0.N = 50 := N_0
  have hi0 : (i 0).val < 50000 := (i 0).isLt
  have hi1 : (i 1).val < 128 := (i 1).isLt
  refine ⟨⟨(i 0).val / 1000, by rw [hN]; omega⟩, flush0_3 _, ?_⟩
  rw [mem_blk]
  obtain ⟨-, -, -, -, -, -, e6, e7⟩ := idx_facts ⟨(i 0).val / 1000, by rw [hN]; omega⟩
  intro a
  match a with
  | ⟨0, _⟩ =>
    show win0_3.index _ (0 : Fin 2) * 1000 ≤ (i 0).val ∧ (i 0).val < win0_3.index _ (0 : Fin 2) * 1000 + 1000
    rw [e6]; dsimp only; omega
  | ⟨1, _⟩ =>
    show win0_3.index _ (1 : Fin 2) * 128 ≤ (i 1).val ∧ (i 1).val < win0_3.index _ (1 : Fin 2) * 128 + 128
    rw [e7]; omega

/-- The result array after the region: the layer of the whole input. -/
theorem final (c : Dev nD) : (dat0 V c).arrAt 3 cfg0.N = G V c :=
  (dat0 V c).arrAt_eq_of_cover 3 (G V c) (fun t _ => flushed_eq V c t) (cover)

end Cert.KernelIdeal.Lin0

end
-- ==== Proof.LibRowBlocks.lean ====
/-
  GENERAL LEMMAS: a sum over the first k rows of R, taken one block of rows at a time.

  * below R k: the rows r < k.
  * sum_below_zero: over no rows the sum is zero.
  * sum_below_add: the rows below k + B are the rows below k together with the B rows k, k + 1, …, k + B − 1, so the sum
    over them is the sum below k plus the block's sum.
  * sum_below_all: when k reaches R the rows below k are all the rows.
  Any additive commutative monoid; nothing here mentions a program.
-/
import Mathlib.Algebra.BigOperators.Group.Finset.Basic
import Mathlib.Algebra.BigOperators.Fin
import Mathlib.Tactic.Ring
import Mathlib.Tactic.Linarith

namespace Cert.LibRowBlocks

open scoped BigOperators

variable {M : Type*} [AddCommMonoid M] {R : ℕ}

/-- The rows below k. -/
def below (R k : ℕ) : Finset (Fin R) := Finset.univ.filter fun r => r.val < k

theorem mem_below {k : ℕ} {r : Fin R} : r ∈ below R k ↔ r.val < k := by
  simp [below]

theorem sum_below_zero (f : Fin R → M) : ∑ r ∈ below R 0, f r = 0 := by
  have h : below R 0 = ∅ := by
    ext r; simp [below]
  rw [h, Finset.sum_empty]

theorem sum_below_all {k : ℕ} (hk : R ≤ k) (f : Fin R → M) : ∑ r ∈ below R k, f r = ∑ r, f r := by
  have h : below R k = Finset.univ := by
    ext r; simp only [mem_below, Finset.mem_univ, iff_true]; exact lt_of_lt_of_le r.isLt hk
  rw [h]

/-- One more block of B rows. -/
theorem sum_below_add (k B : ℕ) (hk : k + B ≤ R) (f : Fin R → M) :
    ∑ r ∈ below R (k + B), f r
      = ∑ r ∈ below R k, f r + ∑ p : Fin B, f ⟨k + p.val, lt_of_lt_of_le (Nat.add_lt_add_left p.isLt k) hk⟩ := by
  rw [← Finset.sum_filter_add_sum_filter_not (below R (k + B)) (fun r => r.val < k) f]
  congr 1
  · refine Finset.sum_congr ?_ fun _ _ => rfl
    ext r
    simp only [Finset.mem_filter, mem_below]
    omega
  · symm
    refine Finset.sum_bij (fun p _ => (⟨k + p.val, lt_of_lt_of_le (Nat.add_lt_add_left p.isLt k) hk⟩ : Fin R)) ?_ ?_ ?_ ?_
    · intro p _
      simp only [Finset.mem_filter, mem_below]
      have := p.isLt
      omega
    · intro p _ p' _ h
      have h' := congrArg Fin.val h
      simp only at h'
      exact Fin.ext (by omega)
    · intro r hr
      simp only [Finset.mem_filter, mem_below] at hr
      refine ⟨⟨r.val - k, by omega⟩, Finset.mem_univ _, Fin.ext ?_⟩
      show k + (r.val - k) = r.val
      omega
    · intro p _
      rfl

end Cert.LibRowBlocks
-- ==== Proof.RegionStats1.lean ====
/-
  The first statistics region: the column sums and the column sums of squares of a [50000, 128] matrix, accumulated over
  fifty blocks of a thousand rows in two one-row outputs that stay in place. At the first point the body stores zero in
  both and then adds the block's column sums; at every later point it adds the block's column sums to what the point
  before left. After point n the first output holds, at column q, zero plus the sum of the entries (r, q) over the rows
  r < 1000 (n + 1), and the second the same over their squares: an induction over the points, one more block of a thousand
  rows at a time. The outputs are written back once, after the last point, when all 50000 rows are in.
-/
import proofs.«126232_j32822140076791_1_alg».proof.Proof.Gen.KernelIdeal.Frame
import proofs.«126232_j32822140076791_1_alg».proof.Proof.LibRowBlocks
import proofs.«126232_j32822140076791_1_alg».proof.Proof.LibMatmulRows
import proofs.«126232_j32822140076791_1_alg».proof.Proof.Spec
import Idealize.ShloMosaic.Lib.Pipeline.Value
import Idealize.ShloMosaic.Lib.ValueLayout
import Idealize.ShloMosaic.Lib.Tactic

set_option maxRecDepth 16384

noncomputable section

namespace Cert.KernelIdeal.Stats1

open Cert.KernelIdeal Cert.KernelIdeal.Gen Cert.Gcn
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-! ## What each case leaves in the two outputs -/

theorem out_B_1 (c : Dev nD) (i : grid1.Coords) (a1 : Memref sig .tc .vmem S1000x128 .f32) (h1 : a1.IsWhole)
    (a2 : Memref sig .tc .vmem S1x128 .f32) (h2 : a2.IsWhole) (a3 : Memref sig .tc .vmem S1x128 .f32) (h3 : a3.IsWhole)
    (hc : ¬cond1_0 i) (x : Vec Ideal S1000x128 .f32) (xo1 xo2 : Vec Ideal S1x128 .f32) :
    out1_B_1 (F := Ideal) c i a1 h1 a2 h2 a3 h3 hc x xo1 xo2 = k1_pay4 x xo1 := by
  unfold out1_B_1
  rw [View.read_writes_eq_canon _ _ _ (cover1_B_1 c i a1 h1 a2 h2 a3 h3 hc x xo1 xo2)]
  unfold kernelRun1_B
  dsimp only
  rw [View.canon_unit_zero hz]
  simp only [View.readAt_eq_ld, h1.read_unread, h2.read_unread, View.ld_unit_zero (S := S1000x128) hz, View.ld_unit_zero (S := S1x128) hz]

theorem out_B_2 (c : Dev nD) (i : grid1.Coords) (a1 : Memref sig .tc .vmem S1000x128 .f32) (h1 : a1.IsWhole)
    (a2 : Memref sig .tc .vmem S1x128 .f32) (h2 : a2.IsWhole) (a3 : Memref sig .tc .vmem S1x128 .f32) (h3 : a3.IsWhole)
    (hc : ¬cond1_0 i) (x : Vec Ideal S1000x128 .f32) (xo1 xo2 : Vec Ideal S1x128 .f32) :
    out1_B_2 (F := Ideal) c i a1 h1 a2 h2 a3 h3 hc x xo1 xo2 = k1_pay5 x xo2 := by
  unfold out1_B_2
  rw [View.read_writes_eq_canon _ _ _ (cover1_B_2 c i a1 h1 a2 h2 a3 h3 hc x xo1 xo2)]
  unfold kernelRun1_B
  dsimp only
  rw [View.canon_unit_zero hz]
  simp only [View.readAt_eq_ld, h1.read_unread, h3.read_unread, View.ld_unit_zero (S := S1000x128) hz, View.ld_unit_zero (S := S1x128) hz]

theorem out_A_1 (c : Dev nD) (i : grid1.Coords) (a1 : Memref sig .tc .vmem S1000x128 .f32) (h1 : a1.IsWhole)
    (a2 : Memref sig .tc .vmem S1x128 .f32) (h2 : a2.IsWhole) (a3 : Memref sig .tc .vmem S1x128 .f32) (h3 : a3.IsWhole)
    (hc : cond1_0 i) (x : Vec Ideal S1000x128 .f32) :
    out1_A_1 (F := Ideal) c i a1 h1 a2 h2 a3 h3 hc x = k1_pay4 x (k1_pay1 (F := Ideal)) := by
  unfold out1_A_1
  rw [View.read_writes_eq_canon _ _ _ (cover1_A_1 c i a1 h1 a2 h2 a3 h3 hc x)]
  unfold kernelRun1_A
  dsimp only
  sl_unfold_words
  rw [View.canon_cons_unit_zero (S := S1x128) hz, View.readCov_unit_zero (S := S1x128) _ hz]
  simp only [View.readAt_eq_ld, h1.read_unread, View.ld_unit_zero (S := S1000x128) hz, View.ld_unit_zero (S := S1x128) hz]

theorem out_A_2 (c : Dev nD) (i : grid1.Coords) (a1 : Memref sig .tc .vmem S1000x128 .f32) (h1 : a1.IsWhole)
    (a2 : Memref sig .tc .vmem S1x128 .f32) (h2 : a2.IsWhole) (a3 : Memref sig .tc .vmem S1x128 .f32) (h3 : a3.IsWhole)
    (hc : cond1_0 i) (x : Vec Ideal S1000x128 .f32) :
    out1_A_2 (F := Ideal) c i a1 h1 a2 h2 a3 h3 hc x = k1_pay5 x (k1_pay2 (F := Ideal)) := by
  unfold out1_A_2
  rw [View.read_writes_eq_canon _ _ _ (cover1_A_2 c i a1 h1 a2 h2 a3 h3 hc x)]
  unfold kernelRun1_A
  dsimp only
  sl_unfold_words
  rw [View.canon_cons_unit_zero (S := S1x128) hz, View.readCov_unit_zero (S := S1x128) _ hz]
  simp only [View.readAt_eq_ld, h1.read_unread, View.ld_unit_zero (S := S1000x128) hz, View.ld_unit_zero (S := S1x128) hz]

/-! ## The payloads at a column -/

/-- Adding a block's column sums: at column q, what was there plus the sum of the block's column q. -/
theorem pay4_apply (x : Vec Ideal S1000x128 .f32) (v : Vec Ideal S1x128 .f32) (q : Fin 128) :
    k1_pay4 (F := Ideal) x v (ix2 (0 : Fin 1) q) = v (ix2 (0 : Fin 1) q) + ∑ r : Fin 1000, x (ix2 r q) := by
  unfold k1_pay4 k1_pay3
  simp only [shapeCast_self]
  rw [addf_apply, shapeCast_a_1a_apply _ shapeCasts_S128_S1x128 0 q]
  refine congrArg (v (ix2 (0 : Fin 1) q) + ·) ?_
  refine (Ideal.multiReduction_add_single x 0x00000000#32 reduces_S1000x128_S128 (.inl rfl) rfl (ix1 q)).trans ?_
  exact Finset.sum_congr rfl fun k _ => congrArg x (funext fun a => Fin.ext (by match a with | ⟨0, _⟩ => rfl | ⟨1, _⟩ => rfl))

/-- Adding a block's column sums of squares. -/
theorem pay5_apply (x : Vec Ideal S1000x128 .f32) (v : Vec Ideal S1x128 .f32) (q : Fin 128) :
    k1_pay5 (F := Ideal) x v (ix2 (0 : Fin 1) q) = v (ix2 (0 : Fin 1) q) + ∑ r : Fin 1000, x (ix2 r q) * x (ix2 r q) := by
  unfold k1_pay5 k1_pay3
  simp only [shapeCast_self]
  rw [addf_apply, shapeCast_a_1a_apply _ shapeCasts_S128_S1x128 0 q]
  refine congrArg (v (ix2 (0 : Fin 1) q) + ·) ?_
  refine (Ideal.multiReduction_add_single (mulf x x) 0x00000000#32 reduces_S1000x128_S128 (.inl rfl) rfl (ix1 q)).trans ?_
  refine Finset.sum_congr rfl fun k _ => ?_
  have hl : (reduces_S1000x128_S128.lift (ix1 q) k : S1000x128.Idx) = ix2 k q :=
    funext fun a => Fin.ext (by match a with | ⟨0, _⟩ => rfl | ⟨1, _⟩ => rfl)
  rw [mulf_apply]
  exact congrArg₂ (· * ·) (congrArg x hl) (congrArg x hl)

/-! ## The running sums -/

/-- The matrix the region reads. -/
abbrev H (c : Dev nD) : S50000x128.Idx → EReal := V c main_v45

theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0 :=
  (by decide +kernel : ∀ t : Fin grid1.N, _)

/-- Row r of the block at point t is row 1000 t + r of the matrix. -/
theorem blk_read (c : Dev nD) (t : Fin cfg1.N) (r : Fin 1000) (q : Fin 128) (hlt : 1000 * t.val + r.val < 50000) :
    iblk1 V c 0 t (ix2 r q) = H V c (ix2 ⟨1000 * t.val + r.val, hlt⟩ q) := by
  obtain ⟨e0, e1, -⟩ := idx_facts t
  unfold iblk1
  rw [View.read_apply]
  show V c main_v45 _ = V c main_v45 _
  refine congrArg _ (Cert.LibMatmulRows.idx2_ext _ _ ?_ ?_)
  · show win1_0.index t (0 : Fin 2) * 1000 + 1 * r.val = 1000 * t.val + r.val
    rw [e0]; omega
  · show win1_0.index t (1 : Fin 2) * 128 + 1 * q.val = q.val
    rw [e1]; omega

open Cert.LibRowBlocks in
/-- One more block of a thousand rows. -/
theorem step (k : ℕ) (hk : k + 1000 ≤ 50000) (f : Fin 50000 → EReal) (a : EReal) :
    (a + ∑ r ∈ below 50000 k, f r) + ∑ p : Fin 1000, f ⟨k + p.val, lt_of_lt_of_le (Nat.add_lt_add_left p.isLt k) hk⟩
      = a + ∑ r ∈ below 50000 (k + 1000), f r := by
  rw [sum_below_add k 1000 hk f, add_assoc]

open Cert.LibRowBlocks in
/-- After point n the two outputs hold, at column q, zero plus the sums over the rows below 1000 (n + 1). -/
theorem acc_eq (c : Dev nD) (q : Fin 128) : ∀ (n : ℕ) (hn : n < cfg1.N),
    (outsAt1 V c n hn).1 (ix2 (0 : Fin 1) q) = zw + ∑ r ∈ below 50000 (1000 * n + 1000), H V c (ix2 r q)
    ∧ (outsAt1 V c n hn).2 (ix2 (0 : Fin 1) q) = zw + ∑ r ∈ below 50000 (1000 * n + 1000), H V c (ix2 r q) * H V c (ix2 r q)
  | 0, hn => by
    rw [outsAt1_A V c ⟨0, hn⟩ rfl]
    dsimp only
    rw [out_A_1, out_A_2, pay4_apply, pay5_apply]
    have hk : 0 + 1000 ≤ 50000 := by norm_num
    constructor
    · show _ = zw + ∑ r ∈ below 50000 (0 + 1000), H V c (ix2 r q)
      rw [← step 0 hk (fun r => H V c (ix2 r q)) zw, sum_below_zero, add_zero]
      refine congrArg₂ (· + ·) rfl (Finset.sum_congr rfl fun p _ => ?_)
      rw [blk_read V c ⟨0, hn⟩ p q (by dsimp only; have := p.isLt; omega)]
      exact congrArg (fun i => H V c (ix2 i q)) (Fin.ext (by first | omega | simp))
    · show _ = zw + ∑ r ∈ below 50000 (0 + 1000), H V c (ix2 r q) * H V c (ix2 r q)
      rw [← step 0 hk (fun r => H V c (ix2 r q) * H V c (ix2 r q)) zw, sum_below_zero, add_zero]
      refine congrArg₂ (· + ·) rfl (Finset.sum_congr rfl fun p _ => ?_)
      rw [blk_read V c ⟨0, hn⟩ p q (by dsimp only; have := p.isLt; omega)]
      exact congrArg (fun i => H V c (ix2 i q) * H V c (ix2 i q)) (Fin.ext (by first | omega | simp))
  | n + 1, hn => by
    have hN : cfg1.N = 50 := N_1
    have hB : ¬(⟨n + 1, hn⟩ : Fin cfg1.N).val % 50 = 0 := by dsimp only; omega
    have ih := acc_eq c q n (Nat.lt_of_succ_lt hn)
    rw [outsAt1_B V c ⟨n + 1, hn⟩ hB]
    dsimp only
    rw [out_B_1, out_B_2, pay4_apply, pay5_apply]
    have hk : 1000 * n + 1000 + 1000 ≤ 50000 := by omega
    have e : 1000 * (n + 1) + 1000 = 1000 * n + 1000 + 1000 := by ring
    constructor
    · show (outsAt1 V c n _).1 (ix2 (0 : Fin 1) q) + _ = _
      rw [ih.1, e, ← step (1000 * n + 1000) hk (fun r => H V c (ix2 r q)) zw]
      refine congrArg₂ (· + ·) rfl (Finset.sum_congr rfl fun p _ => ?_)
      rw [blk_read V c ⟨n + 1, hn⟩ p q (by dsimp only; have := p.isLt; omega)]
      exact congrArg (fun i => H V c (ix2 i q)) (Fin.ext (by dsimp only; ring))
    · show (outsAt1 V c n _).2 (ix2 (0 : Fin 1) q) + _ = _
      rw [ih.2, e, ← step (1000 * n + 1000) hk (fun r => H V c (ix2 r q) * H V c (ix2 r q)) zw]
      refine congrArg₂ (· + ·) rfl (Finset.sum_congr rfl fun p _ => ?_)
      rw [blk_read V c ⟨n + 1, hn⟩ p q (by dsimp only; have := p.isLt; omega)]
      have ei : (⟨1000 * (n + 1) + p.val, by have := p.isLt; omega⟩ : Fin 50000) = ⟨1000 * n + 1000 + p.val, by have := p.isLt; omega⟩ :=
        Fin.ext (by dsimp only; ring)
      exact congrArg (fun i => H V c (ix2 i q) * H V c (ix2 i q)) ei

/-! ## The one write-back -/

theorem mem_blk1 (t : Fin cfg1.N) (i : S1x128.Idx) :
    i ∈ ((cfg1.win 1).blk t).view.set ↔ ∀ a : Fin 2, win1_1.index t a * S1x128.size a ≤ (i a).val ∧ (i a).val < win1_1.index t a * S1x128.size a + S1x128.size a := by
  show i ∈ ((View.whole main_v46_0).slice (win1_1.rect t)).set ↔ _
  rw [View.set_slice_whole, Rect.mem_set_unit]
  exact Iff.rfl
theorem mem_blk2 (t : Fin cfg1.N) (i : S1x128.Idx) :
    i ∈ ((cfg1.win 2).blk t).view.set ↔ ∀ a : Fin 2, win1_2.index t a * S1x128.size a ≤ (i a).val ∧ (i a).val < win1_2.index t a * S1x128.size a + S1x128.size a := by
  show i ∈ ((View.whole main_v46_1).slice (win1_2.rect t)).set ↔ _
  rw [View.set_slice_whole, Rect.mem_set_unit]
  exact Iff.rfl

open Cert.LibRowBlocks in
theorem flushed_eq1 (c : Dev nD) (t : Fin cfg1.N) (hf : (cfg1.win 1).flush t = true) :
    (dat1 V c).flushed 1 t = ((cfg1.win 1).blk t).view.read (Elt Ideal) (sumRow (H V c)) := by
  have hN : cfg1.N = 50 := N_1
  have h49 : t.val = 49 := by have := (flush1_1 t).mp hf; have := t.isLt; omega
  obtain ⟨-, -, e2, e3, -, -⟩ := idx_facts t
  show (cfg1.win 1).cut (grid1.coords t) ((dat1 V c).after 1 t) = _
  rw [after1_1]
  funext y
  obtain ⟨u, q, rfl⟩ : ∃ (u : Fin 1) (q : Fin 128), y = ix2 u q := ⟨y 0, y 1, eq_ix2 y⟩
  obtain rfl : u = 0 := Subsingleton.elim _ _
  rw [View.read_apply]
  have hemb : ((cfg1.win 1).blk t).view.emb (ix2 (0 : Fin 1) q) = ix2 (0 : Fin 1) q :=
    Cert.LibMatmulRows.idx2_ext _ _ (by show win1_1.index t (0 : Fin 2) * 1 + 1 * 0 = 0; rw [e2])
      (by show win1_1.index t (1 : Fin 2) * 128 + 1 * q.val = q.val; rw [e3]; omega)
  show (outsAt1 V c t.val t.isLt).1 (ix2 (0 : Fin 1) q) = sumRow (H V c) (((cfg1.win 1).blk t).view.emb (ix2 (0 : Fin 1) q))
  rw [hemb, (acc_eq V c q t.val t.isLt).1, show 1000 * t.val + 1000 = 50000 by omega, sum_below_all (le_refl _)]
  rfl

open Cert.LibRowBlocks in
theorem flushed_eq2 (c : Dev nD) (t : Fin cfg1.N) (hf : (cfg1.win 2).flush t = true) :
    (dat1 V c).flushed 2 t = ((cfg1.win 2).blk t).view.read (Elt Ideal) (sumSqRow (H V c)) := by
  have hN : cfg1.N = 50 := N_1
  have h49 : t.val = 49 := by have := (flush1_2 t).mp hf; have := t.isLt; omega
  obtain ⟨-, -, -, -, e4, e5⟩ := idx_facts t
  show (cfg1.win 2).cut (grid1.coords t) ((dat1 V c).after 2 t) = _
  rw [after1_2]
  funext y
  obtain ⟨u, q, rfl⟩ : ∃ (u : Fin 1) (q : Fin 128), y = ix2 u q := ⟨y 0, y 1, eq_ix2 y⟩
  obtain rfl : u = 0 := Subsingleton.elim _ _
  rw [View.read_apply]
  have hemb : ((cfg1.win 2).blk t).view.emb (ix2 (0 : Fin 1) q) = ix2 (0 : Fin 1) q :=
    Cert.LibMatmulRows.idx2_ext _ _ (by show win1_2.index t (0 : Fin 2) * 1 + 1 * 0 = 0; rw [e4])
      (by show win1_2.index t (1 : Fin 2) * 128 + 1 * q.val = q.val; rw [e5]; omega)
  show (outsAt1 V c t.val t.isLt).2 (ix2 (0 : Fin 1) q) = sumSqRow (H V c) (((cfg1.win 2).blk t).view.emb (ix2 (0 : Fin 1) q))
  rw [hemb, (acc_eq V c q t.val t.isLt).2, show 1000 * t.val + 1000 = 50000 by omega, sum_below_all (le_refl _)]
  rfl

/-- The last point. -/
abbrev tLast : Fin cfg1.N := ⟨49, by rw [show cfg1.N = 50 from N_1]; decide⟩

theorem cover1 (i : S1x128.Idx) : ∃ t : Fin cfg1.N, (cfg1.win 1).flush t = true ∧ i ∈ ((cfg1.win 1).blk t).view.set := by
  have hi0 : (i 0).val < 1 := (i 0).isLt
  have hi1 : (i 1).val < 128 := (i 1).isLt
  refine ⟨tLast, (flush1_1 tLast).mpr rfl, ?_⟩
  rw [mem_blk1]
  obtain ⟨-, -, e2, e3, -, -⟩ := idx_facts tLast
  intro a
  match a with
  | ⟨0, _⟩ =>
    show win1_1.index tLast (0 : Fin 2) * 1 ≤ (i 0).val ∧ (i 0).val < win1_1.index tLast (0 : Fin 2) * 1 + 1
    rw [e2]; omega
  | ⟨1, _⟩ =>
    show win1_1.index tLast (1 : Fin 2) * 128 ≤ (i 1).val ∧ (i 1).val < win1_1.index tLast (1 : Fin 2) * 128 + 128
    rw [e3]; omega

theorem cover2 (i : S1x128.Idx) : ∃ t : Fin cfg1.N, (cfg1.win 2).flush t = true ∧ i ∈ ((cfg1.win 2).blk t).view.set := by
  have hi0 : (i 0).val < 1 := (i 0).isLt
  have hi1 : (i 1).val < 128 := (i 1).isLt
  refine ⟨tLast, (flush1_2 tLast).mpr rfl, ?_⟩
  rw [mem_blk2]
  obtain ⟨-, -, -, -, e4, e5⟩ := idx_facts tLast
  intro a
  match a with
  | ⟨0, _⟩ =>
    show win1_2.index tLast (0 : Fin 2) * 1 ≤ (i 0).val ∧ (i 0).val < win1_2.index tLast (0 : Fin 2) * 1 + 1
    rw [e4]; omega
  | ⟨1, _⟩ =>
    show win1_2.index tLast (1 : Fin 2) * 128 ≤ (i 1).val ∧ (i 1).val < win1_2.index tLast (1 : Fin 2) * 128 + 128
    rw [e5]; omega

/-- The first output array after the region: the row of column sums from zero. -/
theorem final1 (c : Dev nD) : (dat1 V c).arrAt 1 cfg1.N = sumRow (H V c) :=
  (dat1 V c).arrAt_eq_of_cover 1 (sumRow (H V c)) (flushed_eq1 V c) (cover1)

/-- The second output array after the region: the row of column sums of squares from zero. -/
theorem final2 (c : Dev nD) : (dat1 V c).arrAt 2 cfg1.N = sumSqRow (H V c) :=
  (dat1 V c).arrAt_eq_of_cover 2 (sumSqRow (H V c)) (flushed_eq2 V c) (cover2)

end Cert.KernelIdeal.Stats1

end
-- ==== Proof.RegionNorm2.lean ====
/-
  The first normalisation region: fifty blocks of a thousand rows. At grid point t the body reads rows 1000 t … 1000 t + 999 of
  the input and four one-row operands (mean, variance, scale, shift) and writes the same rows of the result: entry (p, q)
  is ((h(p,q) - mean q) * rsqrt (var q + eps)) * g q + b q, rectified. Each entry depends only on the same entry of the
  input and on column q of the rows, so the blocks written back are the blocks of one matrix; they cover every row.
-/
import proofs.«126232_j32822140076791_1_alg».proof.Proof.Gen.KernelIdeal.Frame
import proofs.«126232_j32822140076791_1_alg».proof.Proof.LibMatmulRows
import proofs.«126232_j32822140076791_1_alg».proof.Proof.Spec
import Idealize.ShloMosaic.Lib.Pipeline.Value
import Idealize.ShloMosaic.Lib.ValueLayout

set_option maxRecDepth 16384

noncomputable section

namespace Cert.KernelIdeal.Norm2

open Cert.KernelIdeal Cert.KernelIdeal.Gen Cert.Gcn
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The reciprocal square root at an index. -/
theorem rsqrt_apply {s : Shape} {φ : FTy} (a : FVec Ideal s φ) (i : s.Idx) : rsqrt a i = Ideal.rsqrt (a i) := rfl

/-- The body's one store is the normalisation of the loaded blocks: the mean row is the second operand and the variance
    row the third. -/
theorem pay_eq (x0 : Vec Ideal S1000x128 .f32) (x1 x2 x3 x4 : Vec Ideal S1x128 .f32) :
    k2_pay1 (F := Ideal) x0 x2 x1 x3 x4 = bnorm x0 x1 x2 x3 x4 := by
  funext j
  obtain ⟨p, q, rfl⟩ : ∃ (p : Fin 1000) (q : Fin 128), j = ix2 p q := ⟨j 0, j 1, eq_ix2 j⟩
  unfold k2_pay1
  simp only [shapeCast_self, select_apply, cmpf_apply, mulf_apply, addf_apply, subf_apply, broadcast_apply, rsqrt_apply,
    broadcastTo_1b_ab_apply _ broadcasts_S1x128_S1000x128 p q]
  rfl

/-! ## From blocks to the array -/

theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- What the result array ends holding. -/
abbrev G (c : Dev nD) : S50000x128.Idx → EReal :=
  bnorm (V c main_v45) (V c main_v48) (V c main_v52) (V c main_v53) (V c main_v54)

theorem block_eq (c : Dev nD) (t : Fin cfg2.N) (j : S1000x128.Idx) :
    bnorm (iblk2 V c 0 t) (iblk2 V c 1 t) (iblk2 V c 2 t) (iblk2 V c 3 t) (iblk2 V c 4 t) j = G V c (((cfg2.win 5).blk t).view.emb j) := by
  obtain ⟨e0, e1, e2, e3, e4, e5, e6, e7, e8, e9, e10, e11⟩ := idx_facts t
  have hj0 : (j 0).val < 1000 := (j 0).isLt
  have hj1 : (j 1).val < 128 := (j 1).isLt
  have o0 : ((((cfg2.win 5).blk t).view.emb j) 0).val = t.val * 1000 + (j 0).val := by
    show win2_5.index t (0 : Fin 2) * 1000 + 1 * (j 0).val = _
    rw [e10]; omega
  have o1 : ((((cfg2.win 5).blk t).view.emb j) 1).val = (j 1).val := by
    show win2_5.index t (1 : Fin 2) * 128 + 1 * (j 1).val = _
    rw [e11]; omega
  refine bnorm_congr _ _ _ _ _ _ _ _ _ _ j _ ?_ ?_ ?_ ?_ ?_
  · unfold iblk2
    rw [View.read_apply]
    show V c main_v45 _ = V c main_v45 _
    refine congrArg _ (Cert.LibMatmulRows.idx2_ext _ _ ?_ ?_)
    · show win2_0.index t (0 : Fin 2) * 1000 + 1 * (j 0).val = _
      rw [o0, e0]; omega
    · show win2_0.index t (1 : Fin 2) * 128 + 1 * (j 1).val = _
      rw [o1, e1]; omega
  · unfold iblk2
    rw [View.read_apply]
    show V c main_v48 _ = V c main_v48 _
    refine congrArg _ (Cert.LibMatmulRows.idx2_ext _ _ ?_ ?_)
    · show win2_1.index t (0 : Fin 2) * 1 + 1 * 0 = 0
      rw [e2]
    · show win2_1.index t (1 : Fin 2) * 128 + 1 * (j 1).val = _
      rw [o1, e3]; omega
  · unfold iblk2
    rw [View.read_apply]
    show V c main_v52 _ = V c main_v52 _
    refine congrArg _ (Cert.LibMatmulRows.idx2_ext _ _ ?_ ?_)
    · show win2_2.index t (0 : Fin 2) * 1 + 1 * 0 = 0
      rw [e4]
    · show win2_2.index t (1 : Fin 2) * 128 + 1 * (j 1).val = _
      rw [o1, e5]; omega
  · unfold iblk2
    rw [View.read_apply]
    show V c main_v53 _ = V c main_v53 _
    refine congrArg _ (Cert.LibMatmulRows.idx2_ext _ _ ?_ ?_)
    · show win2_3.index t (0 : Fin 2) * 1 + 1 * 0 = 0
      rw [e6]
    · show win2_3.index t (1 : Fin 2) * 128 + 1 * (j 1).val = _
      rw [o1, e7]; omega
  · unfold iblk2
    rw [View.read_apply]
    show V c main_v54 _ = V c main_v54 _
    refine congrArg _ (Cert.LibMatmulRows.idx2_ext _ _ ?_ ?_)
    · show win2_4.index t (0 : Fin 2) * 1 + 1 * 0 = 0
      rw [e8]
    · show win2_4.index t (1 : Fin 2) * 128 + 1 * (j 1).val = _
      rw [o1, e9]; omega

theorem flushed_eq (c : Dev nD) (t : Fin cfg2.N) :
    (dat2 V c).flushed 5 t = ((cfg2.win 5).blk t).view.read (Elt Ideal) (G V c) := by
  show (cfg2.win 5).cut (grid2.coords t) ((dat2 V c).after 5 t) = _
  rw [after2_5]
  unfold out2_5
  rw [View.canon_unit_zero hz]
  simp only [View.ld_unit_zero (S := S1000x128) hz, View.ld_unit_zero (S := S1x128) hz]
  rw [pay_eq]
  funext j
  exact block_eq V c t j

theorem mem_blk (t : Fin cfg2.N) (i : S50000x128.Idx) :
    i ∈ ((cfg2.win 5).blk t).view.set ↔ ∀ a : Fin 2, win2_5.index t a * S1000x128.size a ≤ (i a).val ∧ (i a).val < win2_5.index t a * S1000x128.size a + S1000x128.size a := by
  show i ∈ ((View.whole main_v55).slice (win2_5.rect t)).set ↔ _
  rw [View.set_slice_whole, Rect.mem_set_unit]
  exact Iff.rfl

theorem cover (i : S50000x128.Idx) : ∃ t : Fin cfg2.N, (cfg2.win 5).flush t = true ∧ i ∈ ((cfg2.win 5).blk t).view.set := by
  have hN : cfg2.N = 50 := N_2
  have hi0 : (i 0).val < 50000 := (i 0).isLt
  have hi1 : (i 1).val < 128 := (i 1).isLt
  refine ⟨⟨(i 0).val / 1000, by rw [hN]; omega⟩, flush2_5 _, ?_⟩
  rw [mem_blk]
  obtain ⟨-, -, -, -, -, -, -, -, -, -, e10, e11⟩ := idx_facts ⟨(i 0).val / 1000, by rw [hN]; omega⟩
  intro a
  match a with
  | ⟨0, _⟩ =>
    show win2_5.index _ (0 : Fin 2) * 1000 ≤ (i 0).val ∧ (i 0).val < win2_5.index _ (0 : Fin 2) * 1000 + 1000
    rw [e10]; dsimp only; omega
  | ⟨1, _⟩ =>
    show win2_5.index _ (1 : Fin 2) * 128 ≤ (i 1).val ∧ (i 1).val < win2_5.index _ (1 : Fin 2) * 128 + 128
    rw [e11]; omega

/-- The result array after the region: the normalisation of the whole input. -/
theorem final (c : Dev nD) : (dat2 V c).arrAt 5 cfg2.N = G V c :=
  (dat2 V c).arrAt_eq_of_cover 5 (G V c) (fun t _ => flushed_eq V c t) (cover)

end Cert.KernelIdeal.Norm2

end
-- ==== Proof.RegionLin3.lean ====
/-
  The second linear region: fifty blocks of a thousand rows. At grid point t the body reads rows 1000 t … 1000 t + 999 of the
  input, the whole weight matrix and the one-row bias, and writes the same rows of the result: entry (p, q) of the block is
  the sum over k of x(1000 t + p, k) * W(k, q), plus the bias at q. A row of the product depends only on the same row of the
  input, so the fifty blocks written back are the blocks of ONE matrix, the affine layer of the whole input; the blocks
  cover every row, so that matrix is what the result array holds after the region.
-/
import proofs.«126232_j32822140076791_1_alg».proof.Proof.Gen.KernelIdeal.Frame
import proofs.«126232_j32822140076791_1_alg».proof.Proof.LibDenseLayers
import proofs.«126232_j32822140076791_1_alg».proof.Proof.Spec
import Idealize.ShloMosaic.Lib.Pipeline.Value
import Idealize.ShloMosaic.Lib.ValueLayout

set_option maxRecDepth 16384

noncomputable section

namespace Cert.KernelIdeal.Lin3

open Cert.KernelIdeal Cert.KernelIdeal.Gen Cert.Gcn
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-! ## The body's payload -/

theorem dl0 (i : S1000x128.Idx) (s : dot_S1000x128_S128x128_S1000x128_1_0_0_1_n_n.contr.Idx) :
    (dot_S1000x128_S128x128_S1000x128_1_0_0_1_n_n.lhsIdx i s 0).val = (i 0).val := by
  unfold DotDims.lhsIdx
  rw [dif_neg (show ¬(0 : Fin S1000x128.rank) ∈ dot_S1000x128_S128x128_S1000x128_1_0_0_1_n_n.lhsBatch by decide), dif_pos (show (0 : Fin S1000x128.rank) ∈ dot_S1000x128_S128x128_S1000x128_1_0_0_1_n_n.lhsNonContracting by decide)]
  rfl
theorem dl1 (i : S1000x128.Idx) (s : dot_S1000x128_S128x128_S1000x128_1_0_0_1_n_n.contr.Idx) :
    (dot_S1000x128_S128x128_S1000x128_1_0_0_1_n_n.lhsIdx i s 1).val = (s ⟨0, by decide⟩).val :=
  dot_S1000x128_S128x128_S1000x128_1_0_0_1_n_n.lhsIdx_val_of_single rfl i s
theorem dr0 (i : S1000x128.Idx) (s : dot_S1000x128_S128x128_S1000x128_1_0_0_1_n_n.contr.Idx) :
    (dot_S1000x128_S128x128_S1000x128_1_0_0_1_n_n.rhsIdx i s 0).val = (s ⟨0, by decide⟩).val :=
  dot_S1000x128_S128x128_S1000x128_1_0_0_1_n_n.rhsIdx_val_of_single rfl i s
theorem dr1 (i : S1000x128.Idx) (s : dot_S1000x128_S128x128_S1000x128_1_0_0_1_n_n.contr.Idx) :
    (dot_S1000x128_S128x128_S1000x128_1_0_0_1_n_n.rhsIdx i s 1).val = (i 1).val := by
  unfold DotDims.rhsIdx
  rw [dif_neg (show ¬(1 : Fin S128x128.rank) ∈ dot_S1000x128_S128x128_S1000x128_1_0_0_1_n_n.rhsBatch by decide), dif_pos (show (1 : Fin S128x128.rank) ∈ dot_S1000x128_S128x128_S1000x128_1_0_0_1_n_n.rhsNonContracting by decide)]
  rfl

/-- The body's one store: the product into zero plus the bias row laid along the rows is the layer of the loaded blocks. -/
theorem pay_eq (x0 : Vec Ideal S1000x128 .f32) (x1 : Vec Ideal S128x128 .f32) (x2 : Vec Ideal S1x128 .f32) :
    k3_pay1 (F := Ideal) x0 x1 x2 = lin x0 x1 x2 := by
  funext j
  obtain ⟨p, q, rfl⟩ : ∃ (p : Fin 1000) (q : Fin 128), j = ix2 p q := ⟨j 0, j 1, eq_ix2 j⟩
  unfold k3_pay1
  show matmul dot_S1000x128_S128x128_S1000x128_1_0_0_1_n_n none (truncf .bf16 (shapeCast S1000x128 x0 shapeCasts_S1000x128_S1000x128) bitsLt_bf16_f32) (truncf .bf16 x1 bitsLt_bf16_f32)
        (constant (F := Ideal) S1000x128 .f32 0x00000000#32) (ix2 p q)
      + broadcastTo S1000x128 (shapeCast S1x128 x2 shapeCasts_S1x128_S1x128) broadcasts_S1x128_S1000x128 (ix2 p q) = _
  rw [Cert.LibMatmulRows.matmul_rows dot_S1000x128_S128x128_S1000x128_1_0_0_1_n_n rfl rfl dl0 dl1 dr0 dr1 _ _ p q,
    broadcastTo_1b_ab_apply _ broadcasts_S1x128_S1000x128 p q, shapeCast_self, shapeCast_self]
  rfl

/-! ## From blocks to the array -/

/-- The printed index maps over the grid: the row blocks move with the point, everything else stays. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- What the result array ends holding. -/
abbrev G (c : Dev nD) : S50000x128.Idx → EReal := lin (V c main_v55) (V c main_arg4) (V c main_v63)

theorem block_eq (c : Dev nD) (t : Fin cfg3.N) (j : S1000x128.Idx) :
    lin (iblk3 V c 0 t) (iblk3 V c 1 t) (iblk3 V c 2 t) j = G V c (((cfg3.win 3).blk t).view.emb j) := by
  obtain ⟨e0, e1, e2, e3, e4, e5, e6, e7⟩ := idx_facts t
  have hj0 : (j 0).val < 1000 := (j 0).isLt
  have hj1 : (j 1).val < 128 := (j 1).isLt
  have o0 : ((((cfg3.win 3).blk t).view.emb j) 0).val = t.val * 1000 + (j 0).val := by
    show win3_3.index t (0 : Fin 2) * 1000 + 1 * (j 0).val = _
    rw [e6]; omega
  have o1 : ((((cfg3.win 3).blk t).view.emb j) 1).val = (j 1).val := by
    show win3_3.index t (1 : Fin 2) * 128 + 1 * (j 1).val = _
    rw [e7]; omega
  refine lin_congr _ _ _ _ _ _ j _ (fun k => ?_) (fun k => ?_) ?_
  · unfold iblk3
    rw [View.read_apply]
    show V c main_v55 _ = V c main_v55 _
    refine congrArg _ (Cert.LibMatmulRows.idx2_ext _ _ ?_ ?_)
    · show win3_0.index t (0 : Fin 2) * 1000 + 1 * (j 0).val = _
      rw [o0, e0]; omega
    · show win3_0.index t (1 : Fin 2) * 128 + 1 * k.val = k.val
      rw [e1]; omega
  · unfold iblk3
    rw [View.read_apply]
    show V c main_arg4 _ = V c main_arg4 _
    refine congrArg _ (Cert.LibMatmulRows.idx2_ext _ _ ?_ ?_)
    · show win3_1.index t (0 : Fin 2) * 128 + 1 * k.val = k.val
      rw [e2]; omega
    · show win3_1.index t (1 : Fin 2) * 128 + 1 * (j 1).val = _
      rw [o1, e3]; omega
  · unfold iblk3
    rw [View.read_apply]
    show V c main_v63 _ = V c main_v63 _
    refine congrArg _ (Cert.LibMatmulRows.idx2_ext _ _ ?_ ?_)
    · show win3_2.index t (0 : Fin 2) * 1 + 1 * 0 = 0
      rw [e4]
    · show win3_2.index t (1 : Fin 2) * 128 + 1 * (j 1).val = _
      rw [o1, e5]; omega

/-- What point t writes back is block t of G. -/
theorem flushed_eq (c : Dev nD) (t : Fin cfg3.N) :
    (dat3 V c).flushed 3 t = ((cfg3.win 3).blk t).view.read (Elt Ideal) (G V c) := by
  show (cfg3.win 3).cut (grid3.coords t) ((dat3 V c).after 3 t) = _
  rw [after3_3]
  unfold out3_3
  rw [View.canon_unit_zero hz]
  simp only [View.ld_unit_zero (S := S1000x128) hz, View.ld_unit_zero (S := S128x128) hz, View.ld_unit_zero (S := S1x128) hz]
  rw [pay_eq]
  funext j
  exact block_eq V c t j

theorem mem_blk (t : Fin cfg3.N) (i : S50000x128.Idx) :
    i ∈ ((cfg3.win 3).blk t).view.set ↔ ∀ a : Fin 2, win3_3.index t a * S1000x128.size a ≤ (i a).val ∧ (i a).val < win3_3.index t a * S1000x128.size a + S1000x128.size a := by
  show i ∈ ((View.whole main_v64).slice (win3_3.rect t)).set ↔ _
  rw [View.set_slice_whole, Rect.mem_set_unit]
  exact Iff.rfl

/-- Every row is in the block of the point numbered row / 1000. -/
theorem cover (i : S50000x128.Idx) : ∃ t : Fin cfg3.N, (cfg3.win 3).flush t = true ∧ i ∈ ((cfg3.win 3).blk t).view.set := by
  have hN : cfg3.N = 50 := N_3
  have hi0 : (i 0).val < 50000 := (i 0).isLt
  have hi1 : (i 1).val < 128 := (i 1).isLt
  refine ⟨⟨(i 0).val / 1000, by rw [hN]; omega⟩, flush3_3 _, ?_⟩
  rw [mem_blk]
  obtain ⟨-, -, -, -, -, -, e6, e7⟩ := idx_facts ⟨(i 0).val / 1000, by rw [hN]; omega⟩
  intro a
  match a with
  | ⟨0, _⟩ =>
    show win3_3.index _ (0 : Fin 2) * 1000 ≤ (i 0).val ∧ (i 0).val < win3_3.index _ (0 : Fin 2) * 1000 + 1000
    rw [e6]; dsimp only; omega
  | ⟨1, _⟩ =>
    show win3_3.index _ (1 : Fin 2) * 128 ≤ (i 1).val ∧ (i 1).val < win3_3.index _ (1 : Fin 2) * 128 + 128
    rw [e7]; omega

/-- The result array after the region: the layer of the whole input. -/
theorem final (c : Dev nD) : (dat3 V c).arrAt 3 cfg3.N = G V c :=
  (dat3 V c).arrAt_eq_of_cover 3 (G V c) (fun t _ => flushed_eq V c t) (cover)

end Cert.KernelIdeal.Lin3

end
-- ==== Proof.RegionStats4.lean ====
/-
  The second statistics region: the column sums and the column sums of squares of a [50000, 128] matrix, accumulated over
  fifty blocks of a thousand rows in two one-row outputs that stay in place. At the first point the body stores zero in
  both and then adds the block's column sums; at every later point it adds the block's column sums to what the point
  before left. After point n the first output holds, at column q, zero plus the sum of the entries (r, q) over the rows
  r < 1000 (n + 1), and the second the same over their squares: an induction over the points, one more block of a thousand
  rows at a time. The outputs are written back once, after the last point, when all 50000 rows are in.
-/
import proofs.«126232_j32822140076791_1_alg».proof.Proof.Gen.KernelIdeal.Frame
import proofs.«126232_j32822140076791_1_alg».proof.Proof.LibRowBlocks
import proofs.«126232_j32822140076791_1_alg».proof.Proof.LibMatmulRows
import proofs.«126232_j32822140076791_1_alg».proof.Proof.Spec
import Idealize.ShloMosaic.Lib.Pipeline.Value
import Idealize.ShloMosaic.Lib.ValueLayout
import Idealize.ShloMosaic.Lib.Tactic

set_option maxRecDepth 16384

noncomputable section

namespace Cert.KernelIdeal.Stats4

open Cert.KernelIdeal Cert.KernelIdeal.Gen Cert.Gcn
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-! ## What each case leaves in the two outputs -/

theorem out_B_1 (c : Dev nD) (i : grid4.Coords) (a1 : Memref sig .tc .vmem S1000x128 .f32) (h1 : a1.IsWhole)
    (a2 : Memref sig .tc .vmem S1x128 .f32) (h2 : a2.IsWhole) (a3 : Memref sig .tc .vmem S1x128 .f32) (h3 : a3.IsWhole)
    (hc : ¬cond4_0 i) (x : Vec Ideal S1000x128 .f32) (xo1 xo2 : Vec Ideal S1x128 .f32) :
    out4_B_1 (F := Ideal) c i a1 h1 a2 h2 a3 h3 hc x xo1 xo2 = k4_pay4 x xo1 := by
  unfold out4_B_1
  rw [View.read_writes_eq_canon _ _ _ (cover4_B_1 c i a1 h1 a2 h2 a3 h3 hc x xo1 xo2)]
  unfold kernelRun4_B
  dsimp only
  rw [View.canon_unit_zero hz]
  simp only [View.readAt_eq_ld, h1.read_unread, h2.read_unread, View.ld_unit_zero (S := S1000x128) hz, View.ld_unit_zero (S := S1x128) hz]

theorem out_B_2 (c : Dev nD) (i : grid4.Coords) (a1 : Memref sig .tc .vmem S1000x128 .f32) (h1 : a1.IsWhole)
    (a2 : Memref sig .tc .vmem S1x128 .f32) (h2 : a2.IsWhole) (a3 : Memref sig .tc .vmem S1x128 .f32) (h3 : a3.IsWhole)
    (hc : ¬cond4_0 i) (x : Vec Ideal S1000x128 .f32) (xo1 xo2 : Vec Ideal S1x128 .f32) :
    out4_B_2 (F := Ideal) c i a1 h1 a2 h2 a3 h3 hc x xo1 xo2 = k4_pay5 x xo2 := by
  unfold out4_B_2
  rw [View.read_writes_eq_canon _ _ _ (cover4_B_2 c i a1 h1 a2 h2 a3 h3 hc x xo1 xo2)]
  unfold kernelRun4_B
  dsimp only
  rw [View.canon_unit_zero hz]
  simp only [View.readAt_eq_ld, h1.read_unread, h3.read_unread, View.ld_unit_zero (S := S1000x128) hz, View.ld_unit_zero (S := S1x128) hz]

theorem out_A_1 (c : Dev nD) (i : grid4.Coords) (a1 : Memref sig .tc .vmem S1000x128 .f32) (h1 : a1.IsWhole)
    (a2 : Memref sig .tc .vmem S1x128 .f32) (h2 : a2.IsWhole) (a3 : Memref sig .tc .vmem S1x128 .f32) (h3 : a3.IsWhole)
    (hc : cond4_0 i) (x : Vec Ideal S1000x128 .f32) :
    out4_A_1 (F := Ideal) c i a1 h1 a2 h2 a3 h3 hc x = k4_pay4 x (k4_pay1 (F := Ideal)) := by
  unfold out4_A_1
  rw [View.read_writes_eq_canon _ _ _ (cover4_A_1 c i a1 h1 a2 h2 a3 h3 hc x)]
  unfold kernelRun4_A
  dsimp only
  sl_unfold_words
  rw [View.canon_cons_unit_zero (S := S1x128) hz, View.readCov_unit_zero (S := S1x128) _ hz]
  simp only [View.readAt_eq_ld, h1.read_unread, View.ld_unit_zero (S := S1000x128) hz, View.ld_unit_zero (S := S1x128) hz]

theorem out_A_2 (c : Dev nD) (i : grid4.Coords) (a1 : Memref sig .tc .vmem S1000x128 .f32) (h1 : a1.IsWhole)
    (a2 : Memref sig .tc .vmem S1x128 .f32) (h2 : a2.IsWhole) (a3 : Memref sig .tc .vmem S1x128 .f32) (h3 : a3.IsWhole)
    (hc : cond4_0 i) (x : Vec Ideal S1000x128 .f32) :
    out4_A_2 (F := Ideal) c i a1 h1 a2 h2 a3 h3 hc x = k4_pay5 x (k4_pay2 (F := Ideal)) := by
  unfold out4_A_2
  rw [View.read_writes_eq_canon _ _ _ (cover4_A_2 c i a1 h1 a2 h2 a3 h3 hc x)]
  unfold kernelRun4_A
  dsimp only
  sl_unfold_words
  rw [View.canon_cons_unit_zero (S := S1x128) hz, View.readCov_unit_zero (S := S1x128) _ hz]
  simp only [View.readAt_eq_ld, h1.read_unread, View.ld_unit_zero (S := S1000x128) hz, View.ld_unit_zero (S := S1x128) hz]

/-! ## The payloads at a column -/

/-- Adding a block's column sums: at column q, what was there plus the sum of the block's column q. -/
theorem pay4_apply (x : Vec Ideal S1000x128 .f32) (v : Vec Ideal S1x128 .f32) (q : Fin 128) :
    k4_pay4 (F := Ideal) x v (ix2 (0 : Fin 1) q) = v (ix2 (0 : Fin 1) q) + ∑ r : Fin 1000, x (ix2 r q) := by
  unfold k4_pay4 k4_pay3
  simp only [shapeCast_self]
  rw [addf_apply, shapeCast_a_1a_apply _ shapeCasts_S128_S1x128 0 q]
  refine congrArg (v (ix2 (0 : Fin 1) q) + ·) ?_
  refine (Ideal.multiReduction_add_single x 0x00000000#32 reduces_S1000x128_S128 (.inl rfl) rfl (ix1 q)).trans ?_
  exact Finset.sum_congr rfl fun k _ => congrArg x (funext fun a => Fin.ext (by match a with | ⟨0, _⟩ => rfl | ⟨1, _⟩ => rfl))

/-- Adding a block's column sums of squares. -/
theorem pay5_apply (x : Vec Ideal S1000x128 .f32) (v : Vec Ideal S1x128 .f32) (q : Fin 128) :
    k4_pay5 (F := Ideal) x v (ix2 (0 : Fin 1) q) = v (ix2 (0 : Fin 1) q) + ∑ r : Fin 1000, x (ix2 r q) * x (ix2 r q) := by
  unfold k4_pay5 k4_pay3
  simp only [shapeCast_self]
  rw [addf_apply, shapeCast_a_1a_apply _ shapeCasts_S128_S1x128 0 q]
  refine congrArg (v (ix2 (0 : Fin 1) q) + ·) ?_
  refine (Ideal.multiReduction_add_single (mulf x x) 0x00000000#32 reduces_S1000x128_S128 (.inl rfl) rfl (ix1 q)).trans ?_
  refine Finset.sum_congr rfl fun k _ => ?_
  have hl : (reduces_S1000x128_S128.lift (ix1 q) k : S1000x128.Idx) = ix2 k q :=
    funext fun a => Fin.ext (by match a with | ⟨0, _⟩ => rfl | ⟨1, _⟩ => rfl)
  rw [mulf_apply]
  exact congrArg₂ (· * ·) (congrArg x hl) (congrArg x hl)

/-! ## The running sums -/

/-- The matrix the region reads. -/
abbrev H (c : Dev nD) : S50000x128.Idx → EReal := V c main_v101

theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0 :=
  (by decide +kernel : ∀ t : Fin grid4.N, _)

/-- Row r of the block at point t is row 1000 t + r of the matrix. -/
theorem blk_read (c : Dev nD) (t : Fin cfg4.N) (r : Fin 1000) (q : Fin 128) (hlt : 1000 * t.val + r.val < 50000) :
    iblk4 V c 0 t (ix2 r q) = H V c (ix2 ⟨1000 * t.val + r.val, hlt⟩ q) := by
  obtain ⟨e0, e1, -⟩ := idx_facts t
  unfold iblk4
  rw [View.read_apply]
  show V c main_v101 _ = V c main_v101 _
  refine congrArg _ (Cert.LibMatmulRows.idx2_ext _ _ ?_ ?_)
  · show win4_0.index t (0 : Fin 2) * 1000 + 1 * r.val = 1000 * t.val + r.val
    rw [e0]; omega
  · show win4_0.index t (1 : Fin 2) * 128 + 1 * q.val = q.val
    rw [e1]; omega

open Cert.LibRowBlocks in
/-- One more block of a thousand rows. -/
theorem step (k : ℕ) (hk : k + 1000 ≤ 50000) (f : Fin 50000 → EReal) (a : EReal) :
    (a + ∑ r ∈ below 50000 k, f r) + ∑ p : Fin 1000, f ⟨k + p.val, lt_of_lt_of_le (Nat.add_lt_add_left p.isLt k) hk⟩
      = a + ∑ r ∈ below 50000 (k + 1000), f r := by
  rw [sum_below_add k 1000 hk f, add_assoc]

open Cert.LibRowBlocks in
/-- After point n the two outputs hold, at column q, zero plus the sums over the rows below 1000 (n + 1). -/
theorem acc_eq (c : Dev nD) (q : Fin 128) : ∀ (n : ℕ) (hn : n < cfg4.N),
    (outsAt4 V c n hn).1 (ix2 (0 : Fin 1) q) = zw + ∑ r ∈ below 50000 (1000 * n + 1000), H V c (ix2 r q)
    ∧ (outsAt4 V c n hn).2 (ix2 (0 : Fin 1) q) = zw + ∑ r ∈ below 50000 (1000 * n + 1000), H V c (ix2 r q) * H V c (ix2 r q)
  | 0, hn => by
    rw [outsAt4_A V c ⟨0, hn⟩ rfl]
    dsimp only
    rw [out_A_1, out_A_2, pay4_apply, pay5_apply]
    have hk : 0 + 1000 ≤ 50000 := by norm_num
    constructor
    · show _ = zw + ∑ r ∈ below 50000 (0 + 1000), H V c (ix2 r q)
      rw [← step 0 hk (fun r => H V c (ix2 r q)) zw, sum_below_zero, add_zero]
      refine congrArg₂ (· + ·) rfl (Finset.sum_congr rfl fun p _ => ?_)
      rw [blk_read V c ⟨0, hn⟩ p q (by dsimp only; have := p.isLt; omega)]
      exact congrArg (fun i => H V c (ix2 i q)) (Fin.ext (by first | omega | simp))
    · show _ = zw + ∑ r ∈ below 50000 (0 + 1000), H V c (ix2 r q) * H V c (ix2 r q)
      rw [← step 0 hk (fun r => H V c (ix2 r q) * H V c (ix2 r q)) zw, sum_below_zero, add_zero]
      refine congrArg₂ (· + ·) rfl (Finset.sum_congr rfl fun p _ => ?_)
      rw [blk_read V c ⟨0, hn⟩ p q (by dsimp only; have := p.isLt; omega)]
      exact congrArg (fun i => H V c (ix2 i q) * H V c (ix2 i q)) (Fin.ext (by first | omega | simp))
  | n + 1, hn => by
    have hN : cfg4.N = 50 := N_4
    have hB : ¬(⟨n + 1, hn⟩ : Fin cfg4.N).val % 50 = 0 := by dsimp only; omega
    have ih := acc_eq c q n (Nat.lt_of_succ_lt hn)
    rw [outsAt4_B V c ⟨n + 1, hn⟩ hB]
    dsimp only
    rw [out_B_1, out_B_2, pay4_apply, pay5_apply]
    have hk : 1000 * n + 1000 + 1000 ≤ 50000 := by omega
    have e : 1000 * (n + 1) + 1000 = 1000 * n + 1000 + 1000 := by ring
    constructor
    · show (outsAt4 V c n _).1 (ix2 (0 : Fin 1) q) + _ = _
      rw [ih.1, e, ← step (1000 * n + 1000) hk (fun r => H V c (ix2 r q)) zw]
      refine congrArg₂ (· + ·) rfl (Finset.sum_congr rfl fun p _ => ?_)
      rw [blk_read V c ⟨n + 1, hn⟩ p q (by dsimp only; have := p.isLt; omega)]
      exact congrArg (fun i => H V c (ix2 i q)) (Fin.ext (by dsimp only; ring))
    · show (outsAt4 V c n _).2 (ix2 (0 : Fin 1) q) + _ = _
      rw [ih.2, e, ← step (1000 * n + 1000) hk (fun r => H V c (ix2 r q) * H V c (ix2 r q)) zw]
      refine congrArg₂ (· + ·) rfl (Finset.sum_congr rfl fun p _ => ?_)
      rw [blk_read V c ⟨n + 1, hn⟩ p q (by dsimp only; have := p.isLt; omega)]
      have ei : (⟨1000 * (n + 1) + p.val, by have := p.isLt; omega⟩ : Fin 50000) = ⟨1000 * n + 1000 + p.val, by have := p.isLt; omega⟩ :=
        Fin.ext (by dsimp only; ring)
      exact congrArg (fun i => H V c (ix2 i q) * H V c (ix2 i q)) ei

/-! ## The one write-back -/

theorem mem_blk1 (t : Fin cfg4.N) (i : S1x128.Idx) :
    i ∈ ((cfg4.win 1).blk t).view.set ↔ ∀ a : Fin 2, win4_1.index t a * S1x128.size a ≤ (i a).val ∧ (i a).val < win4_1.index t a * S1x128.size a + S1x128.size a := by
  show i ∈ ((View.whole main_v102_0).slice (win4_1.rect t)).set ↔ _
  rw [View.set_slice_whole, Rect.mem_set_unit]
  exact Iff.rfl
theorem mem_blk2 (t : Fin cfg4.N) (i : S1x128.Idx) :
    i ∈ ((cfg4.win 2).blk t).view.set ↔ ∀ a : Fin 2, win4_2.index t a * S1x128.size a ≤ (i a).val ∧ (i a).val < win4_2.index t a * S1x128.size a + S1x128.size a := by
  show i ∈ ((View.whole main_v102_1).slice (win4_2.rect t)).set ↔ _
  rw [View.set_slice_whole, Rect.mem_set_unit]
  exact Iff.rfl

open Cert.LibRowBlocks in
theorem flushed_eq1 (c : Dev nD) (t : Fin cfg4.N) (hf : (cfg4.win 1).flush t = true) :
    (dat4 V c).flushed 1 t = ((cfg4.win 1).blk t).view.read (Elt Ideal) (sumRow (H V c)) := by
  have hN : cfg4.N = 50 := N_4
  have h49 : t.val = 49 := by have := (flush4_1 t).mp hf; have := t.isLt; omega
  obtain ⟨-, -, e2, e3, -, -⟩ := idx_facts t
  show (cfg4.win 1).cut (grid4.coords t) ((dat4 V c).after 1 t) = _
  rw [after4_1]
  funext y
  obtain ⟨u, q, rfl⟩ : ∃ (u : Fin 1) (q : Fin 128), y = ix2 u q := ⟨y 0, y 1, eq_ix2 y⟩
  obtain rfl : u = 0 := Subsingleton.elim _ _
  rw [View.read_apply]
  have hemb : ((cfg4.win 1).blk t).view.emb (ix2 (0 : Fin 1) q) = ix2 (0 : Fin 1) q :=
    Cert.LibMatmulRows.idx2_ext _ _ (by show win4_1.index t (0 : Fin 2) * 1 + 1 * 0 = 0; rw [e2])
      (by show win4_1.index t (1 : Fin 2) * 128 + 1 * q.val = q.val; rw [e3]; omega)
  show (outsAt4 V c t.val t.isLt).1 (ix2 (0 : Fin 1) q) = sumRow (H V c) (((cfg4.win 1).blk t).view.emb (ix2 (0 : Fin 1) q))
  rw [hemb, (acc_eq V c q t.val t.isLt).1, show 1000 * t.val + 1000 = 50000 by omega, sum_below_all (le_refl _)]
  rfl

open Cert.LibRowBlocks in
theorem flushed_eq2 (c : Dev nD) (t : Fin cfg4.N) (hf : (cfg4.win 2).flush t = true) :
    (dat4 V c).flushed 2 t = ((cfg4.win 2).blk t).view.read (Elt Ideal) (sumSqRow (H V c)) := by
  have hN : cfg4.N = 50 := N_4
  have h49 : t.val = 49 := by have := (flush4_2 t).mp hf; have := t.isLt; omega
  obtain ⟨-, -, -, -, e4, e5⟩ := idx_facts t
  show (cfg4.win 2).cut (grid4.coords t) ((dat4 V c).after 2 t) = _
  rw [after4_2]
  funext y
  obtain ⟨u, q, rfl⟩ : ∃ (u : Fin 1) (q : Fin 128), y = ix2 u q := ⟨y 0, y 1, eq_ix2 y⟩
  obtain rfl : u = 0 := Subsingleton.elim _ _
  rw [View.read_apply]
  have hemb : ((cfg4.win 2).blk t).view.emb (ix2 (0 : Fin 1) q) = ix2 (0 : Fin 1) q :=
    Cert.LibMatmulRows.idx2_ext _ _ (by show win4_2.index t (0 : Fin 2) * 1 + 1 * 0 = 0; rw [e4])
      (by show win4_2.index t (1 : Fin 2) * 128 + 1 * q.val = q.val; rw [e5]; omega)
  show (outsAt4 V c t.val t.isLt).2 (ix2 (0 : Fin 1) q) = sumSqRow (H V c) (((cfg4.win 2).blk t).view.emb (ix2 (0 : Fin 1) q))
  rw [hemb, (acc_eq V c q t.val t.isLt).2, show 1000 * t.val + 1000 = 50000 by omega, sum_below_all (le_refl _)]
  rfl

/-- The last point. -/
abbrev tLast : Fin cfg4.N := ⟨49, by rw [show cfg4.N = 50 from N_4]; decide⟩

theorem cover1 (i : S1x128.Idx) : ∃ t : Fin cfg4.N, (cfg4.win 1).flush t = true ∧ i ∈ ((cfg4.win 1).blk t).view.set := by
  have hi0 : (i 0).val < 1 := (i 0).isLt
  have hi1 : (i 1).val < 128 := (i 1).isLt
  refine ⟨tLast, (flush4_1 tLast).mpr rfl, ?_⟩
  rw [mem_blk1]
  obtain ⟨-, -, e2, e3, -, -⟩ := idx_facts tLast
  intro a
  match a with
  | ⟨0, _⟩ =>
    show win4_1.index tLast (0 : Fin 2) * 1 ≤ (i 0).val ∧ (i 0).val < win4_1.index tLast (0 : Fin 2) * 1 + 1
    rw [e2]; omega
  | ⟨1, _⟩ =>
    show win4_1.index tLast (1 : Fin 2) * 128 ≤ (i 1).val ∧ (i 1).val < win4_1.index tLast (1 : Fin 2) * 128 + 128
    rw [e3]; omega

theorem cover2 (i : S1x128.Idx) : ∃ t : Fin cfg4.N, (cfg4.win 2).flush t = true ∧ i ∈ ((cfg4.win 2).blk t).view.set := by
  have hi0 : (i 0).val < 1 := (i 0).isLt
  have hi1 : (i 1).val < 128 := (i 1).isLt
  refine ⟨tLast, (flush4_2 tLast).mpr rfl, ?_⟩
  rw [mem_blk2]
  obtain ⟨-, -, -, -, e4, e5⟩ := idx_facts tLast
  intro a
  match a with
  | ⟨0, _⟩ =>
    show win4_2.index tLast (0 : Fin 2) * 1 ≤ (i 0).val ∧ (i 0).val < win4_2.index tLast (0 : Fin 2) * 1 + 1
    rw [e4]; omega
  | ⟨1, _⟩ =>
    show win4_2.index tLast (1 : Fin 2) * 128 ≤ (i 1).val ∧ (i 1).val < win4_2.index tLast (1 : Fin 2) * 128 + 128
    rw [e5]; omega

/-- The first output array after the region: the row of column sums from zero. -/
theorem final1 (c : Dev nD) : (dat4 V c).arrAt 1 cfg4.N = sumRow (H V c) :=
  (dat4 V c).arrAt_eq_of_cover 1 (sumRow (H V c)) (flushed_eq1 V c) (cover1)

/-- The second output array after the region: the row of column sums of squares from zero. -/
theorem final2 (c : Dev nD) : (dat4 V c).arrAt 2 cfg4.N = sumSqRow (H V c) :=
  (dat4 V c).arrAt_eq_of_cover 2 (sumSqRow (H V c)) (flushed_eq2 V c) (cover2)

end Cert.KernelIdeal.Stats4

end
-- ==== Proof.RegionNorm5.lean ====
/-
  The second normalisation region: fifty blocks of a thousand rows. At grid point t the body reads rows 1000 t … 1000 t + 999 of
  the input and four one-row operands (mean, variance, scale, shift) and writes the same rows of the result: entry (p, q)
  is ((h(p,q) - mean q) * rsqrt (var q + eps)) * g q + b q, rectified. Each entry depends only on the same entry of the
  input and on column q of the rows, so the blocks written back are the blocks of one matrix; they cover every row.
-/
import proofs.«126232_j32822140076791_1_alg».proof.Proof.Gen.KernelIdeal.Frame
import proofs.«126232_j32822140076791_1_alg».proof.Proof.LibMatmulRows
import proofs.«126232_j32822140076791_1_alg».proof.Proof.Spec
import Idealize.ShloMosaic.Lib.Pipeline.Value
import Idealize.ShloMosaic.Lib.ValueLayout

set_option maxRecDepth 16384

noncomputable section

namespace Cert.KernelIdeal.Norm5

open Cert.KernelIdeal Cert.KernelIdeal.Gen Cert.Gcn
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The reciprocal square root at an index. -/
theorem rsqrt_apply {s : Shape} {φ : FTy} (a : FVec Ideal s φ) (i : s.Idx) : rsqrt a i = Ideal.rsqrt (a i) := rfl

/-- The body's one store is the normalisation of the loaded blocks: the mean row is the second operand and the variance
    row the third. -/
theorem pay_eq (x0 : Vec Ideal S1000x128 .f32) (x1 x2 x3 x4 : Vec Ideal S1x128 .f32) :
    k5_pay1 (F := Ideal) x0 x2 x1 x3 x4 = bnorm x0 x1 x2 x3 x4 := by
  funext j
  obtain ⟨p, q, rfl⟩ : ∃ (p : Fin 1000) (q : Fin 128), j = ix2 p q := ⟨j 0, j 1, eq_ix2 j⟩
  unfold k5_pay1
  simp only [shapeCast_self, select_apply, cmpf_apply, mulf_apply, addf_apply, subf_apply, broadcast_apply, rsqrt_apply,
    broadcastTo_1b_ab_apply _ broadcasts_S1x128_S1000x128 p q]
  rfl

/-! ## From blocks to the array -/

theorem idx_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-- What the result array ends holding. -/
abbrev G (c : Dev nD) : S50000x128.Idx → EReal :=
  bnorm (V c main_v101) (V c main_v104) (V c main_v108) (V c main_v109) (V c main_v110)

theorem block_eq (c : Dev nD) (t : Fin cfg5.N) (j : S1000x128.Idx) :
    bnorm (iblk5 V c 0 t) (iblk5 V c 1 t) (iblk5 V c 2 t) (iblk5 V c 3 t) (iblk5 V c 4 t) j = G V c (((cfg5.win 5).blk t).view.emb j) := by
  obtain ⟨e0, e1, e2, e3, e4, e5, e6, e7, e8, e9, e10, e11⟩ := idx_facts t
  have hj0 : (j 0).val < 1000 := (j 0).isLt
  have hj1 : (j 1).val < 128 := (j 1).isLt
  have o0 : ((((cfg5.win 5).blk t).view.emb j) 0).val = t.val * 1000 + (j 0).val := by
    show win5_5.index t (0 : Fin 2) * 1000 + 1 * (j 0).val = _
    rw [e10]; omega
  have o1 : ((((cfg5.win 5).blk t).view.emb j) 1).val = (j 1).val := by
    show win5_5.index t (1 : Fin 2) * 128 + 1 * (j 1).val = _
    rw [e11]; omega
  refine bnorm_congr _ _ _ _ _ _ _ _ _ _ j _ ?_ ?_ ?_ ?_ ?_
  · unfold iblk5
    rw [View.read_apply]
    show V c main_v101 _ = V c main_v101 _
    refine congrArg _ (Cert.LibMatmulRows.idx2_ext _ _ ?_ ?_)
    · show win5_0.index t (0 : Fin 2) * 1000 + 1 * (j 0).val = _
      rw [o0, e0]; omega
    · show win5_0.index t (1 : Fin 2) * 128 + 1 * (j 1).val = _
      rw [o1, e1]; omega
  · unfold iblk5
    rw [View.read_apply]
    show V c main_v104 _ = V c main_v104 _
    refine congrArg _ (Cert.LibMatmulRows.idx2_ext _ _ ?_ ?_)
    · show win5_1.index t (0 : Fin 2) * 1 + 1 * 0 = 0
      rw [e2]
    · show win5_1.index t (1 : Fin 2) * 128 + 1 * (j 1).val = _
      rw [o1, e3]; omega
  · unfold iblk5
    rw [View.read_apply]
    show V c main_v108 _ = V c main_v108 _
    refine congrArg _ (Cert.LibMatmulRows.idx2_ext _ _ ?_ ?_)
    · show win5_2.index t (0 : Fin 2) * 1 + 1 * 0 = 0
      rw [e4]
    · show win5_2.index t (1 : Fin 2) * 128 + 1 * (j 1).val = _
      rw [o1, e5]; omega
  · unfold iblk5
    rw [View.read_apply]
    show V c main_v109 _ = V c main_v109 _
    refine congrArg _ (Cert.LibMatmulRows.idx2_ext _ _ ?_ ?_)
    · show win5_3.index t (0 : Fin 2) * 1 + 1 * 0 = 0
      rw [e6]
    · show win5_3.index t (1 : Fin 2) * 128 + 1 * (j 1).val = _
      rw [o1, e7]; omega
  · unfold iblk5
    rw [View.read_apply]
    show V c main_v110 _ = V c main_v110 _
    refine congrArg _ (Cert.LibMatmulRows.idx2_ext _ _ ?_ ?_)
    · show win5_4.index t (0 : Fin 2) * 1 + 1 * 0 = 0
      rw [e8]
    · show win5_4.index t (1 : Fin 2) * 128 + 1 * (j 1).val = _
      rw [o1, e9]; omega

theorem flushed_eq (c : Dev nD) (t : Fin cfg5.N) :
    (dat5 V c).flushed 5 t = ((cfg5.win 5).blk t).view.read (Elt Ideal) (G V c) := by
  show (cfg5.win 5).cut (grid5.coords t) ((dat5 V c).after 5 t) = _
  rw [after5_5]
  unfold out5_5
  rw [View.canon_unit_zero hz]
  simp only [View.ld_unit_zero (S := S1000x128) hz, View.ld_unit_zero (S := S1x128) hz]
  rw [pay_eq]
  funext j
  exact block_eq V c t j

theorem mem_blk (t : Fin cfg5.N) (i : S50000x128.Idx) :
    i ∈ ((cfg5.win 5).blk t).view.set ↔ ∀ a : Fin 2, win5_5.index t a * S1000x128.size a ≤ (i a).val ∧ (i a).val < win5_5.index t a * S1000x128.size a + S1000x128.size a := by
  show i ∈ ((View.whole main_v111).slice (win5_5.rect t)).set ↔ _
  rw [View.set_slice_whole, Rect.mem_set_unit]
  exact Iff.rfl

theorem cover (i : S50000x128.Idx) : ∃ t : Fin cfg5.N, (cfg5.win 5).flush t = true ∧ i ∈ ((cfg5.win 5).blk t).view.set := by
  have hN : cfg5.N = 50 := N_5
  have hi0 : (i 0).val < 50000 := (i 0).isLt
  have hi1 : (i 1).val < 128 := (i 1).isLt
  refine ⟨⟨(i 0).val / 1000, by rw [hN]; omega⟩, flush5_5 _, ?_⟩
  rw [mem_blk]
  obtain ⟨-, -, -, -, -, -, -, -, -, -, e10, e11⟩ := idx_facts ⟨(i 0).val / 1000, by rw [hN]; omega⟩
  intro a
  match a with
  | ⟨0, _⟩ =>
    show win5_5.index _ (0 : Fin 2) * 1000 ≤ (i 0).val ∧ (i 0).val < win5_5.index _ (0 : Fin 2) * 1000 + 1000
    rw [e10]; dsimp only; omega
  | ⟨1, _⟩ =>
    show win5_5.index _ (1 : Fin 2) * 128 ≤ (i 1).val ∧ (i 1).val < win5_5.index _ (1 : Fin 2) * 128 + 128
    rw [e11]; omega

/-- The result array after the region: the normalisation of the whole input. -/
theorem final (c : Dev nD) : (dat5 V c).arrAt 5 cfg5.N = G V c :=
  (dat5 V c).arrAt_eq_of_cover 5 (G V c) (fun t _ => flushed_eq V c t) (cover)

end Cert.KernelIdeal.Norm5

end
-- ==== Proof.LibRealArrays.lean ====
/-
  GENERAL lemmas: "real entries in, real entries out" for host operations on arrays of extended reals (the exact
  operations), at any shapes and dimension records.

  * A gather only selects: every element of the result is an element of the operand.
  * An accumulating scatter: each element of the result is the operand's element plus a finite sum of update
    elements.
  * A host sum: each element of the result is the initial value plus a finite sum of operand elements.
  * A contraction (host product, or matrix product onto an accumulator): a finite sum of products (plus the
    accumulator's element).
  Finite sums and products of reals are reals.
-/
import proofs.«126232_j32822140076791_1_alg».proof.Proof.LibMoments
import Idealize.ShloMosaic.PureOps.Ideal
import Idealize.ShloMosaic.PureOps.Ideal.Laws

noncomputable section

namespace Cert.LibMoments

open Idealize.ShloMosaic
open scoped BigOperators

/-- Every element of a gather is an element of the operand. -/
theorem isR_gather {s si t : Shape} (d : GatherDims s si t) (x : s.Idx → EReal) (hx : ∀ i, IsR (x i)) {w : Nat}
    (idx : IVec si w) (j : t.Idx) : IsR (Host.gather d x idx j) :=
  hx _

/-- An accumulating scatter of reals into reals gives reals: the operand's element plus a finite sum of updates. -/
theorem isR_scatterAdd {s si su : Shape} {φ : FTy} (d : ScatterDims s si su) (x : FVec Ideal s φ) (hx : ∀ i, IsR (x i))
    {w : Nat} (idx : IVec si w) (u : FVec Ideal su φ) (hu : ∀ j, IsR (u j)) (i : s.Idx) :
    IsR (Host.scatterAdd (F := Ideal) d x idx u i) := by
  show IsR (Ideal.hostScatterAdd d x idx u i)
  unfold Ideal.hostScatterAdd
  exact (hx i).add (IsR.finset_sum _ _ fun j _ => hu j)

/-- The same at any schedule key. -/
theorem isR_scatterAddAt (sched : HostSchedule) {s si su : Shape} {φ : FTy} (d : ScatterDims s si su) (x : FVec Ideal s φ)
    (hx : ∀ i, IsR (x i)) {w : Nat} (idx : IVec si w) (u : FVec Ideal su φ) (hu : ∀ j, IsR (u j)) (i : s.Idx) :
    IsR (Host.scatterAddAt (F := Ideal) sched d x idx u i) := by
  show IsR (Ideal.hostScatterAdd d x idx u i)
  unfold Ideal.hostScatterAdd
  exact (hx i).add (IsR.finset_sum _ _ fun j _ => hu j)

/-- A host sum of reals from a real initial value gives reals. -/
theorem isR_reduceAdd {s t u : Shape} {φ : FTy} {axes : List (Fin s.rank)} (x : FVec Ideal s φ) (hx : ∀ i, IsR (x i))
    (init : u.Idx → Ideal φ) (hinit : ∀ k, IsR (init k)) (h : s.ReducesTo axes t) (hu : 0 < u.numel) (j : t.Idx) :
    IsR (Host.reduceAdd (F := Ideal) x init h hu j) := by
  show IsR (Ideal.hostReduceAdd h x (init (Shape.Idx.first hu)) j)
  unfold Ideal.hostReduceAdd
  exact (hinit _).add (IsR.finset_sum _ _ fun i _ => hx i)

/-- A host product of arrays of reals is an array of reals. -/
theorem isR_dotGeneral {sl sr so : Shape} {φ₁ φ₂ : FTy} (d : DotDims sl sr so) (prec : Option ContractPrecision)
    (sched : HostSchedule) (lhs : FVec Ideal sl φ₁) (hl : ∀ i, IsR (lhs i)) (rhs : FVec Ideal sr φ₂) (hr : ∀ i, IsR (rhs i))
    (j : so.Idx) : IsR (FloatOps.dotGeneral d prec sched lhs rhs j) := by
  rw [Ideal.dotGeneral_apply]
  exact IsR.sum _ fun k => (hl _).mul (hr _)

/-- A matrix product of arrays of reals onto an accumulator of reals is an array of reals. -/
theorem isR_matmul {sl sr so : Shape} {φ₁ φ₂ : FTy} (d : DotDims sl sr so) (prec : Option ContractPrecision)
    (lhs : FVec Ideal sl φ₁) (hl : ∀ i, IsR (lhs i)) (rhs : FVec Ideal sr φ₂) (hr : ∀ i, IsR (rhs i))
    (acc : FVec Ideal so .f32) (hacc : ∀ j, IsR (acc j)) (j : so.Idx) : IsR (FloatOps.matmul d prec lhs rhs acc j) := by
  rw [Ideal.matmul_apply]
  exact (hacc j).add (IsR.sum _ fun k => (hl _).mul (hr _))

end Cert.LibMoments

end
-- ==== Proof.GlueDefs.lean ====
/-
  The host lines shared by both programs of a graph convolution, as functions, with the moment rows formed from the column sums.

  The edge table E has two rows of 600000 node numbers (sources, targets); every node also gets a loop to itself, so
  there are 650000 edges. A node's degree counts the edges that end in it; an edge (s, t) carries the weight
  deg(s)^(-1/2) * deg(t)^(-1/2); the aggregate of a node is the weighted sum of the rows y(s) over the edges that end in it.
  A negative node number is counted from the end (50000 is added). Out-of-range numbers select a clamped row on the
  way in and land nowhere on the way out; nothing here depends on that.

  The batch-normalisation moments as the accumulating program forms them from the column sums: mean = S / 50000,
  variance = SS / 50000 - mean * mean, read at a column.
-/
import proofs.«126232_j32822140076791_1_alg».proof.Proof.Gen.KernelIdeal
import proofs.«126232_j32822140076791_1_alg».proof.Proof.LibRealArrays
import proofs.«126232_j32822140076791_1_alg».proof.Proof.Spec
import Idealize.ShloMosaic.Lib.Pipeline.Value
import Idealize.ShloMosaic.Lib.ValueLayout

noncomputable section

namespace Cert.Gcn

open Cert.KernelIdeal Cert.KernelIdeal.Facts₀ Cert.KernelIdeal.Facts
open Idealize.ShloMosaic Idealize.ShloMosaic.ValueIdx Cert.LibMoments
open scoped BigOperators

/-- The single-precision words of 0, 1 and -1/2 denote real numbers. -/
theorem isR_w0 : IsR (Ideal.ofBits .f32 0x00000000#32) := by rw [ofBits_zero]; exact IsR_zero
theorem isR_w1 : IsR (Ideal.ofBits .f32 0x3F800000#32) := by rw [ofBits_one]; exact IsR_one
theorem isR_wnh : IsR (Ideal.ofBits .f32 0xBF000000#32) := by
  refine ⟨-(1/2 : ℝ), ?_⟩
  simp [Ideal.ofBits, Ideal.ieee, -EReal.coe_mul]
  norm_num

section Glue

variable {F : FTy → Type} [FloatOps F]

/-- The 650000 edge sources: row 0 of the table, then every node once. -/
def srcIdx (E : (⟨S2x600000, .i32⟩ : BufTy).Contents (Elt F)) : (⟨S650000, .i32⟩ : BufTy).Contents (Elt F) :=
  concatenate S650000 0 [⟨S600000, shapeCast _ (extractStridedSlice S1x600000 ![0, 0] E slices_S2x600000_S1x600000_0_0) shapeCasts_S1x600000_S600000⟩,
    ⟨S50000, iotaInDim S50000 32 0⟩] concatenates_S600000_S50000_S650000_d0

/-- The 650000 edge targets: row 1 of the table, then every node once. -/
def dstIdx (E : (⟨S2x600000, .i32⟩ : BufTy).Contents (Elt F)) : (⟨S650000, .i32⟩ : BufTy).Contents (Elt F) :=
  concatenate S650000 0 [⟨S600000, shapeCast _ (extractStridedSlice S1x600000 ![1, 0] E slices_S2x600000_S1x600000_1_0) shapeCasts_S1x600000_S600000⟩,
    ⟨S50000, iotaInDim S50000 32 0⟩] concatenates_S600000_S50000_S650000_d0

/-- A negative node number counted from the end. -/
def wrapIdx (v : (⟨S650000, .i32⟩ : BufTy).Contents (Elt F)) : (⟨S650000, .i32⟩ : BufTy).Contents (Elt F) :=
  select (cmpi .slt v (broadcastInDim S650000 ![] bcast_S_S650000 (constantI S_ 32 0#32)))
    (addi v (broadcastInDim S650000 ![] bcast_S_S650000 (constantI S_ 32 50000#32))) v

/-- The degree of every node: one for every edge that ends in it. -/
def degree (dst : (⟨S650000, .i32⟩ : BufTy).Contents (Elt F)) : FVec F S50000 .f32 :=
  Host.scatterAdd scatter_S50000_S650000x1_S650000_n_0_0_1 (broadcastInDim S50000 ![] bcast_S_S50000 (constant S_ .f32 0x00000000#32))
    (broadcastInDim S650000x1 ![0] bcast_S650000_S650000x1_0 dst) (broadcastInDim S650000 ![] bcast_S_S650000 (constant S_ .f32 0x3F800000#32))

/-- deg^(-1/2) where the degree is positive, zero elsewhere. -/
def degInv (dst : (⟨S650000, .i32⟩ : BufTy).Contents (Elt F)) : FVec F S50000 .f32 :=
  select (cmpf .ogt (degree dst) (broadcastInDim S50000 ![] bcast_S_S50000 (constant S_ .f32 0x00000000#32)))
    (Host.powf (degree dst) (broadcastInDim S50000 ![] bcast_S_S50000 (constant S_ .f32 0xBF000000#32)))
    (broadcastInDim S50000 ![] bcast_S_S50000 (id (constant S_ .f32 0x00000000#32)))

/-- The weight of every edge from the nodes' factors: the source's factor times the target's. -/
def normOf (dinv : FVec F S50000 .f32) (src dst : (⟨S650000, .i32⟩ : BufTy).Contents (Elt F)) : FVec F S650000 .f32 :=
  mulf (Host.gather gather_S50000_S650000x1_S650000_n_0_n_n_0_1_1 dinv (broadcastInDim S650000x1 ![0] bcast_S650000_S650000x1_0 (wrapIdx src)))
    (Host.gather gather_S50000_S650000x1_S650000_n_0_n_n_0_1_1 dinv (broadcastInDim S650000x1 ![0] bcast_S650000_S650000x1_0 (wrapIdx dst)))

/-- The aggregate from the nodes' factors: every node's weighted sum of the rows of y over the edges that end in it. -/
def aggOf (dinv : FVec F S50000 .f32) (src dst : (⟨S650000, .i32⟩ : BufTy).Contents (Elt F)) (y : FVec F S50000x128 .f32) : FVec F S50000x128 .f32 :=
  Host.scatterAdd scatter_S50000x128_S650000x1_S650000x128_1_0_0_1 (broadcastInDim S50000x128 ![] bcast_S_S50000x128 (constant S_ .f32 0x00000000#32))
    (broadcastInDim S650000x1 ![0] bcast_S650000_S650000x1_0 dst)
    (mulf (broadcastInDim S650000x128 ![0, 1] bcast_S650000x1_S650000x128_0_1 (broadcastInDim S650000x1 ![0] bcast_S650000_S650000x1_0 (normOf dinv src dst)))
      (Host.gather gather_S50000x128_S650000x1_S650000x128_1_0_n_n_0_1_1128 y (broadcastInDim S650000x1 ![0] bcast_S650000_S650000x1_0 (wrapIdx src))))

/-- The aggregate with the factors deg^(-1/2). -/
def aggregate (src dst : (⟨S650000, .i32⟩ : BufTy).Contents (Elt F)) (y : FVec F S50000x128 .f32) : FVec F S50000x128 .f32 :=
  aggOf (degInv dst) src dst y

/-- The row of column means from the row of column sums. -/
def meanRow (S : FVec F S1x128 .f32) : FVec F S1x128 .f32 :=
  Host.divf S (broadcastInDim S1x128 ![] bcast_S_S1x128 (constant S_ .f32 0x47435000#32))

/-- The row of column variances from the rows of column sums and sums of squares. -/
def varRow (S SS : FVec F S1x128 .f32) : FVec F S1x128 .f32 :=
  subf (Host.divf SS (broadcastInDim S1x128 ![] bcast_S_S1x128 (constant S_ .f32 0x47435000#32))) (mulf (meanRow S) (meanRow S))

end Glue

end Cert.Gcn

end
-- ==== Proof.Glue.lean ====
/-
  The shared host lines keep real entries real, and the moment rows read at a column.
-/
import proofs.«126232_j32822140076791_1_alg».proof.Proof.GlueDefs

noncomputable section

namespace Cert.Gcn

open Cert.KernelIdeal Cert.KernelIdeal.Facts₀ Cert.KernelIdeal.Facts
open Idealize.ShloMosaic Idealize.ShloMosaic.ValueIdx Cert.LibMoments
open scoped BigOperators

/-! ## Real entries in, real entries out -/

/-- A constant laid over any shape reads the constant's word. -/
theorem bcast_const_apply {t : Shape} (h : S_.BroadcastsInDim t (![] : Fin 0 → Fin t.rank)) (w : BitVec 32) (i : t.Idx) :
    broadcastInDim t ![] h (constant (F := Ideal) S_ .f32 w) i = Ideal.ofBits .f32 w :=
  broadcastInDim_apply _ h (constant (F := Ideal) S_ .f32 w) i (fun a => a.elim0) (fun a => a.elim0)

theorem isR_bcast_const {t : Shape} (h : S_.BroadcastsInDim t (![] : Fin 0 → Fin t.rank)) (w : BitVec 32)
    (hw : IsR (Ideal.ofBits .f32 w)) (i : t.Idx) : IsR (broadcastInDim t ![] h (constant (F := Ideal) S_ .f32 w) i) := by
  rw [bcast_const_apply]
  exact hw

theorem isR_select (c : BitVec 1) {a b : EReal} (ha : IsR a) (hb : IsR b) : IsR (Scalar.select c a b) := by
  unfold Scalar.select
  split
  · exact ha
  · exact hb

/-- The host's power at an index. -/
theorem hostPowf_apply {s : Shape} {φ : FTy} (a b : FVec Ideal s φ) (i : s.Idx) : Host.powf a b i = Ideal.pow (a i) (b i) := rfl

theorem isR_pow {x y : EReal} (hx : IsR x) (hy : IsR y) : IsR (Ideal.pow x y) := by
  obtain ⟨r, rfl⟩ := hx
  obtain ⟨s, rfl⟩ := hy
  rw [Ideal.pow_coe_coe]
  exact ⟨_, rfl⟩

theorem isR_degInv (dst : (⟨S650000, .i32⟩ : BufTy).Contents (Elt Ideal)) (n : S50000.Idx) : IsR (degInv (F := Ideal) dst n) := by
  have hdeg : IsR (degree (F := Ideal) dst n) := by
    unfold degree
    exact isR_scatterAdd _ _ (fun i => isR_bcast_const bcast_S_S50000 _ isR_w0 i) _ _ (fun j => isR_bcast_const bcast_S_S650000 _ isR_w1 j) n
  unfold degInv
  rw [select_apply, hostPowf_apply]
  exact isR_select _ (isR_pow hdeg (isR_bcast_const bcast_S_S50000 _ isR_wnh n)) (isR_bcast_const bcast_S_S50000 _ isR_w0 n)

/-- An array laid along further axes has only entries of the array. -/
theorem isR_bcast {s t : Shape} (dims : Fin s.rank → Fin t.rank) (h : s.BroadcastsInDim t dims) (x : s.Idx → EReal) (hx : ∀ k, IsR (x k))
    (j : t.Idx) : IsR (broadcastInDim t dims h x j) := hx _

theorem isR_normOf (dinv : FVec Ideal S50000 .f32) (hd : ∀ n, IsR (dinv n)) (src dst : (⟨S650000, .i32⟩ : BufTy).Contents (Elt Ideal))
    (e : S650000.Idx) : IsR (normOf (F := Ideal) dinv src dst e) := by
  unfold normOf
  rw [mulf_apply]
  exact (isR_gather _ _ hd _ e).mul (isR_gather _ _ hd _ e)

theorem isR_aggOf (dinv : FVec Ideal S50000 .f32) (hd : ∀ n, IsR (dinv n)) (src dst : (⟨S650000, .i32⟩ : BufTy).Contents (Elt Ideal))
    (y : FVec Ideal S50000x128 .f32) (hy : ∀ i, IsR (y i)) (i : S50000x128.Idx) : IsR (aggOf (F := Ideal) dinv src dst y i) := by
  unfold aggOf
  refine isR_scatterAdd _ _ (fun i => isR_bcast_const bcast_S_S50000x128 _ isR_w0 i) _ _ (fun j => ?_) i
  rw [mulf_apply]
  exact (isR_bcast _ _ _ (isR_bcast _ _ _ (isR_normOf dinv hd src dst)) j).mul (isR_gather _ y hy _ j)

/-- The aggregate of a matrix of real numbers is a matrix of real numbers. -/
theorem isR_aggregate (src dst : (⟨S650000, .i32⟩ : BufTy).Contents (Elt Ideal)) (y : FVec Ideal S50000x128 .f32) (hy : ∀ i, IsR (y i))
    (i : S50000x128.Idx) : IsR (aggregate (F := Ideal) src dst y i) :=
  isR_aggOf _ (isR_degInv dst) src dst y hy i

/-! ## The moment rows at a column -/

theorem meanRow_apply (S : FVec Ideal S1x128 .f32) (q : Fin 128) :
    meanRow (F := Ideal) S (ix2 (0 : Fin 1) q) = Ideal.div (S (ix2 (0 : Fin 1) q)) nw := by
  show Ideal.div (S (ix2 (0 : Fin 1) q)) (broadcastInDim S1x128 ![] bcast_S_S1x128 (constant (F := Ideal) S_ .f32 0x47435000#32) (ix2 (0 : Fin 1) q)) = _
  rw [bcast_const_apply]

theorem varRow_apply (S SS : FVec Ideal S1x128 .f32) (q : Fin 128) :
    varRow (F := Ideal) S SS (ix2 (0 : Fin 1) q)
      = Ideal.div (SS (ix2 (0 : Fin 1) q)) nw - Ideal.div (S (ix2 (0 : Fin 1) q)) nw * Ideal.div (S (ix2 (0 : Fin 1) q)) nw := by
  show Ideal.div (SS (ix2 (0 : Fin 1) q)) (broadcastInDim S1x128 ![] bcast_S_S1x128 (constant (F := Ideal) S_ .f32 0x47435000#32) (ix2 (0 : Fin 1) q))
      - meanRow (F := Ideal) S (ix2 (0 : Fin 1) q) * meanRow (F := Ideal) S (ix2 (0 : Fin 1) q) = _
  rw [bcast_const_apply, meanRow_apply]

/-- The normalisation by the rows formed from the accumulated column sums is the normalisation by the moments' variance. -/
theorem bnormAt_rows (h : FVec Ideal S50000x128 .f32) (g b : FVec Ideal S128 .f32) (p : Fin 50000) (q : Fin 128) :
    bnormAt h (meanRow (F := Ideal) (sumRow h)) (varRow (F := Ideal) (sumRow h) (sumSqRow h))
      (shapeCast S1x128 g shapeCasts_S128_S1x128) (shapeCast S1x128 b shapeCasts_S128_S1x128) p q = bnAccAt h g b p q := by
  unfold bnormAt bnAccAt
  rw [meanRow_apply, varRow_apply, shapeCast_a_1a_apply g _ 0 q, shapeCast_a_1a_apply b _ 0 q]
  show act _ (Ideal.div (zw + colSum h q) nw)
      (Ideal.div (zw + colSumSq h q) nw - Ideal.div (zw + colSum h q) nw * Ideal.div (zw + colSum h q) nw) _ _
    = act _ (meanAcc h q) (varAcc h q) _ _
  unfold varAcc meanAcc
  rw [zw_eq, zero_add, zero_add]

theorem bnorm_rows (h : FVec Ideal S50000x128 .f32) (g b : FVec Ideal S128 .f32) :
    bnorm h (meanRow (F := Ideal) (sumRow h)) (varRow (F := Ideal) (sumRow h) (sumSqRow h))
      (shapeCast S1x128 g shapeCasts_S128_S1x128) (shapeCast S1x128 b shapeCasts_S128_S1x128) = bnAcc h g b :=
  funext fun i => bnormAt_rows h g b (i 0) (i 1)

/-- The layer with the bias cast to one row is the affine layer. -/
theorem lin_shapeCast {R K : ℕ} (x : Mat R K) (W : Mat K 128) (b : FVec Ideal S128 .f32) :
    lin x W (shapeCast S1x128 b shapeCasts_S128_S1x128) = Cert.LibDenseLayers.affine x W b := by
  unfold lin
  rw [rowVec_shapeCast]

end Cert.Gcn

end
-- ==== Proof.KernelValue.lean ====
/-
  What the idealized kernel program leaves in its result array, followed through its sixteen segments: the first linear
  region, the host lines of the aggregation, the statistics region, the host lines that form the mean and variance rows,
  the normalisation region, and the same five again. Each region's output array is the function of its input arrays that
  its module proves; each stretch of host lines is read by the host operations' results; what is not written is kept.
-/
import proofs.«126232_j32822140076791_1_alg».proof.Proof.KernelKept
import proofs.«126232_j32822140076791_1_alg».proof.Proof.KernelRun
import proofs.«126232_j32822140076791_1_alg».proof.Proof.RegionLin0
import proofs.«126232_j32822140076791_1_alg».proof.Proof.RegionStats1
import proofs.«126232_j32822140076791_1_alg».proof.Proof.RegionNorm2
import proofs.«126232_j32822140076791_1_alg».proof.Proof.RegionLin3
import proofs.«126232_j32822140076791_1_alg».proof.Proof.RegionStats4
import proofs.«126232_j32822140076791_1_alg».proof.Proof.RegionNorm5
import proofs.«126232_j32822140076791_1_alg».proof.Proof.Glue

set_option maxRecDepth 16384

noncomputable section

namespace Cert.KernelIdeal.Whole

open Cert.KernelIdeal Cert.KernelIdeal.Gen Cert.Gcn
open Idealize.ShloMosaic Idealize.ShloMosaic.TcCoe Idealize.SL.Sem Idealize.ShloMosaic.StableHlo
open Idealize.ShloMosaic.Pipeline (Dat)

/-! ## The stretches of host lines, from any contents -/

section Stretches

variable (Wv : Valuation τ sig (Elt Ideal))

theorem h0_v3 : after hostOps0 Wv (Proc.devRef .tc main_v3) = srcIdx (F := Ideal) (Wv (Proc.devRef .tc main_arg1)) := by
  after_results <;> rfl
theorem h0_v6 : after hostOps0 Wv (Proc.devRef .tc main_v6) = dstIdx (F := Ideal) (Wv (Proc.devRef .tc main_arg1)) := by
  after_results <;> rfl
theorem h0_v7 : after hostOps0 Wv (Proc.devRef .tc main_v7) = shapeCast S1x128 (Wv (Proc.devRef .tc main_arg3)) shapeCasts_S128_S1x128 := by
  after_results <;> rfl

theorem h1a_v14 : after hostOps1 Wv (Proc.devRef .tc main_v14)
    = cmpf .ogt (degree (F := Ideal) (Wv (Proc.devRef .tc main_v6))) (broadcastInDim S50000 ![] bcast_S_S50000 (constant S_ .f32 0x00000000#32)) := by
  after_results <;> rfl
theorem h1a_v16 : after hostOps1 Wv (Proc.devRef .tc main_v16)
    = Host.powf (degree (F := Ideal) (Wv (Proc.devRef .tc main_v6))) (broadcastInDim S50000 ![] bcast_S_S50000 (constant S_ .f32 0xBF000000#32)) := by
  after_results <;> rfl
theorem h1a_c3 : after hostOps1 Wv (Proc.devRef .tc main_cst_3) = constant (F := Ideal) S_ .f32 0x00000000#32 := by
  after_results <;> rfl
theorem h1b_v17 : after hostOps1_1 Wv (Proc.devRef .tc main_v17)
    = select (Wv (Proc.devRef .tc main_v14)) (Wv (Proc.devRef .tc main_v16))
        (broadcastInDim S50000 ![] bcast_S_S50000 (id (Wv (Proc.devRef .tc main_cst_3)))) := by
  after_results <;> rfl
theorem h1_v17 : after hostOps1_1 (after hostOps1 Wv) (Proc.devRef .tc main_v17) = degInv (F := Ideal) (Wv (Proc.devRef .tc main_v6)) := by
  rw [h1b_v17, h1a_v14, h1a_v16, h1a_c3]
  rfl

set_option maxHeartbeats 4000000 in
theorem h1_v45 : after hostOps1_2 Wv (Proc.devRef .tc main_v45)
    = aggOf (F := Ideal) (Wv (Proc.devRef .tc main_v17)) (Wv (Proc.devRef .tc main_v3)) (Wv (Proc.devRef .tc main_v6)) (Wv (Proc.devRef .tc main_v8)) := by
  after_results_simp <;> rfl

theorem h2_v48 : after hostOps2 Wv (Proc.devRef .tc main_v48) = meanRow (F := Ideal) (Wv (Proc.devRef .tc main_v46_0)) := by
  after_results <;> rfl
theorem h2_v52 : after hostOps2 Wv (Proc.devRef .tc main_v52)
    = varRow (F := Ideal) (Wv (Proc.devRef .tc main_v46_0)) (Wv (Proc.devRef .tc main_v46_1)) := by
  after_results <;> rfl
theorem h2_v53 : after hostOps2 Wv (Proc.devRef .tc main_v53) = shapeCast S1x128 (Wv (Proc.devRef .tc main_arg6)) shapeCasts_S128_S1x128 := by
  after_results <;> rfl
theorem h2_v54 : after hostOps2 Wv (Proc.devRef .tc main_v54) = shapeCast S1x128 (Wv (Proc.devRef .tc main_arg7)) shapeCasts_S128_S1x128 := by
  after_results <;> rfl

theorem h3_v59 : after hostOps3 Wv (Proc.devRef .tc main_v59) = srcIdx (F := Ideal) (Wv (Proc.devRef .tc main_arg1)) := by
  after_results <;> rfl
theorem h3_v62 : after hostOps3 Wv (Proc.devRef .tc main_v62) = dstIdx (F := Ideal) (Wv (Proc.devRef .tc main_arg1)) := by
  after_results <;> rfl
theorem h3_v63 : after hostOps3 Wv (Proc.devRef .tc main_v63) = shapeCast S1x128 (Wv (Proc.devRef .tc main_arg5)) shapeCasts_S128_S1x128 := by
  after_results <;> rfl

theorem h4a_v70 : after hostOps4 Wv (Proc.devRef .tc main_v70)
    = cmpf .ogt (degree (F := Ideal) (Wv (Proc.devRef .tc main_v62))) (broadcastInDim S50000 ![] bcast_S_S50000 (constant S_ .f32 0x00000000#32)) := by
  after_results <;> rfl
theorem h4a_v72 : after hostOps4 Wv (Proc.devRef .tc main_v72)
    = Host.powf (degree (F := Ideal) (Wv (Proc.devRef .tc main_v62))) (broadcastInDim S50000 ![] bcast_S_S50000 (constant S_ .f32 0xBF000000#32)) := by
  after_results <;> rfl
theorem h4a_c16 : after hostOps4 Wv (Proc.devRef .tc main_cst_16) = constant (F := Ideal) S_ .f32 0x00000000#32 := by
  after_results <;> rfl
theorem h4b_v73 : after hostOps4_1 Wv (Proc.devRef .tc main_v73)
    = select (Wv (Proc.devRef .tc main_v70)) (Wv (Proc.devRef .tc main_v72))
        (broadcastInDim S50000 ![] bcast_S_S50000 (id (Wv (Proc.devRef .tc main_cst_16)))) := by
  after_results <;> rfl
theorem h4_v73 : after hostOps4_1 (after hostOps4 Wv) (Proc.devRef .tc main_v73) = degInv (F := Ideal) (Wv (Proc.devRef .tc main_v62)) := by
  rw [h4b_v73, h4a_v70, h4a_v72, h4a_c16]
  rfl

set_option maxHeartbeats 4000000 in
theorem h4_v101 : after hostOps4_2 Wv (Proc.devRef .tc main_v101)
    = aggOf (F := Ideal) (Wv (Proc.devRef .tc main_v73)) (Wv (Proc.devRef .tc main_v59)) (Wv (Proc.devRef .tc main_v62)) (Wv (Proc.devRef .tc main_v64)) := by
  after_results_simp <;> rfl

theorem h5_v104 : after hostOps5 Wv (Proc.devRef .tc main_v104) = meanRow (F := Ideal) (Wv (Proc.devRef .tc main_v102_0)) := by
  after_results <;> rfl
theorem h5_v108 : after hostOps5 Wv (Proc.devRef .tc main_v108)
    = varRow (F := Ideal) (Wv (Proc.devRef .tc main_v102_0)) (Wv (Proc.devRef .tc main_v102_1)) := by
  after_results <;> rfl
theorem h5_v109 : after hostOps5 Wv (Proc.devRef .tc main_v109) = shapeCast S1x128 (Wv (Proc.devRef .tc main_arg8)) shapeCasts_S128_S1x128 := by
  after_results <;> rfl
theorem h5_v110 : after hostOps5 Wv (Proc.devRef .tc main_v110) = shapeCast S1x128 (Wv (Proc.devRef .tc main_arg9)) shapeCasts_S128_S1x128 := by
  after_results <;> rfl

end Stretches

/-! ## The segments in order -/

variable (m : (ℓ : Loc nD τ sig) → Buf (Elt Ideal) ℓ) (ρ : Dev nD → PrngReg)

/-- The first affine layer. -/
abbrev y1 (c : Dev nD) : FVec Ideal S50000x128 .f32 :=
  Cert.LibDenseLayers.affine (m ((c : Thread nD τ).loc main_arg0)) (m ((c : Thread nD τ).loc main_arg2)) (m ((c : Thread nD τ).loc main_arg3))
/-- Its aggregate. -/
abbrev a1 (c : Dev nD) : FVec Ideal S50000x128 .f32 :=
  aggregate (F := Ideal) (srcIdx (m ((c : Thread nD τ).loc main_arg1))) (dstIdx (m ((c : Thread nD τ).loc main_arg1))) (y1 m c)
/-- The first normalisation. -/
abbrev n1 (c : Dev nD) : FVec Ideal S50000x128 .f32 := bnAcc (a1 m c) (m ((c : Thread nD τ).loc main_arg6)) (m ((c : Thread nD τ).loc main_arg7))
/-- The second affine layer. -/
abbrev y2 (c : Dev nD) : FVec Ideal S50000x128 .f32 :=
  Cert.LibDenseLayers.affine (n1 m c) (m ((c : Thread nD τ).loc main_arg4)) (m ((c : Thread nD τ).loc main_arg5))
/-- Its aggregate. -/
abbrev a2 (c : Dev nD) : FVec Ideal S50000x128 .f32 :=
  aggregate (F := Ideal) (srcIdx (m ((c : Thread nD τ).loc main_arg1))) (dstIdx (m ((c : Thread nD τ).loc main_arg1))) (y2 m c)
/-- The second normalisation: the program's result. -/
abbrev n2 (c : Dev nD) : FVec Ideal S50000x128 .f32 := bnAcc (a2 m c) (m ((c : Thread nD τ).loc main_arg8)) (m ((c : Thread nD τ).loc main_arg9))

theorem at_v8 (c : Dev nD) : W2 m ρ c (Proc.devRef .tc main_v8) = y1 m c := by
  rw [(W2_arr m ρ c 3).trans (Lin0.final (V1 m ρ) c)]
  show lin (W1 m ρ c (Proc.devRef .tc main_arg0)) (W1 m ρ c (Proc.devRef .tc main_arg2)) (W1 m ρ c (Proc.devRef .tc main_v7)) = _
  rw [Kept.arg0_at1, Kept.arg2_at1, show W1 m ρ c (Proc.devRef .tc main_v7) = _ from h0_v7 (W0 m ρ c), lin_shapeCast]

theorem at_v3 (c : Dev nD) : W2 m ρ c (Proc.devRef .tc main_v3) = srcIdx (F := Ideal) (m ((c : Thread nD τ).loc main_arg1)) := by
  rw [Kept.v3_at2, show W1 m ρ c (Proc.devRef .tc main_v3) = _ from h0_v3 (W0 m ρ c)]
theorem at_v6 (c : Dev nD) : W2 m ρ c (Proc.devRef .tc main_v6) = dstIdx (F := Ideal) (m ((c : Thread nD τ).loc main_arg1)) := by
  rw [Kept.v6_at2, show W1 m ρ c (Proc.devRef .tc main_v6) = _ from h0_v6 (W0 m ρ c)]

theorem at_v45 (c : Dev nD) : W5 m ρ c (Proc.devRef .tc main_v45) = a1 m c := by
  rw [show W5 m ρ c (Proc.devRef .tc main_v45) = _ from h1_v45 (W4 m ρ c),
    show W4 m ρ c (Proc.devRef .tc main_v17) = _ from h1_v17 (W2 m ρ c), Kept.v3_at4, Kept.v6_at4, Kept.v8_at4, at_v3, at_v6, at_v8]
  rfl

theorem at_v46_0 (c : Dev nD) : W6 m ρ c (Proc.devRef .tc main_v46_0) = sumRow (a1 m c) := by
  rw [(W6_arr m ρ c 1).trans (Stats1.final1 (V5 m ρ) c)]
  show sumRow (W5 m ρ c (Proc.devRef .tc main_v45)) = _
  rw [at_v45]
theorem at_v46_1 (c : Dev nD) : W6 m ρ c (Proc.devRef .tc main_v46_1) = sumSqRow (a1 m c) := by
  rw [(W6_arr m ρ c 2).trans (Stats1.final2 (V5 m ρ) c)]
  show sumSqRow (W5 m ρ c (Proc.devRef .tc main_v45)) = _
  rw [at_v45]

theorem at_v55 (c : Dev nD) : W8 m ρ c (Proc.devRef .tc main_v55) = n1 m c := by
  rw [(W8_arr m ρ c 5).trans (Norm2.final (V7 m ρ) c)]
  show bnorm (W7 m ρ c (Proc.devRef .tc main_v45)) (W7 m ρ c (Proc.devRef .tc main_v48)) (W7 m ρ c (Proc.devRef .tc main_v52))
      (W7 m ρ c (Proc.devRef .tc main_v53)) (W7 m ρ c (Proc.devRef .tc main_v54)) = _
  rw [Kept.v45_at7, at_v45, show W7 m ρ c (Proc.devRef .tc main_v48) = _ from h2_v48 (W6 m ρ c),
    show W7 m ρ c (Proc.devRef .tc main_v52) = _ from h2_v52 (W6 m ρ c), show W7 m ρ c (Proc.devRef .tc main_v53) = _ from h2_v53 (W6 m ρ c),
    show W7 m ρ c (Proc.devRef .tc main_v54) = _ from h2_v54 (W6 m ρ c), at_v46_0, at_v46_1, Kept.arg6_at6, Kept.arg7_at6]
  exact bnorm_rows _ _ _

theorem at_v64 (c : Dev nD) : W10 m ρ c (Proc.devRef .tc main_v64) = y2 m c := by
  rw [(W10_arr m ρ c 3).trans (Lin3.final (V9 m ρ) c)]
  show lin (W9 m ρ c (Proc.devRef .tc main_v55)) (W9 m ρ c (Proc.devRef .tc main_arg4)) (W9 m ρ c (Proc.devRef .tc main_v63)) = _
  rw [Kept.v55_at9, at_v55, Kept.arg4_at9, show W9 m ρ c (Proc.devRef .tc main_v63) = _ from h3_v63 (W8 m ρ c), Kept.arg5_at8, lin_shapeCast]

theorem at_v59 (c : Dev nD) : W10 m ρ c (Proc.devRef .tc main_v59) = srcIdx (F := Ideal) (m ((c : Thread nD τ).loc main_arg1)) := by
  rw [Kept.v59_at10, show W9 m ρ c (Proc.devRef .tc main_v59) = _ from h3_v59 (W8 m ρ c), Kept.arg1_at8]
theorem at_v62 (c : Dev nD) : W10 m ρ c (Proc.devRef .tc main_v62) = dstIdx (F := Ideal) (m ((c : Thread nD τ).loc main_arg1)) := by
  rw [Kept.v62_at10, show W9 m ρ c (Proc.devRef .tc main_v62) = _ from h3_v62 (W8 m ρ c), Kept.arg1_at8]

theorem at_v101 (c : Dev nD) : W13 m ρ c (Proc.devRef .tc main_v101) = a2 m c := by
  rw [show W13 m ρ c (Proc.devRef .tc main_v101) = _ from h4_v101 (W12 m ρ c),
    show W12 m ρ c (Proc.devRef .tc main_v73) = _ from h4_v73 (W10 m ρ c), Kept.v59_at12, Kept.v62_at12, Kept.v64_at12, at_v59, at_v62, at_v64]
  rfl

theorem at_v102_0 (c : Dev nD) : W14 m ρ c (Proc.devRef .tc main_v102_0) = sumRow (a2 m c) := by
  rw [(W14_arr m ρ c 1).trans (Stats4.final1 (V13 m ρ) c)]
  show sumRow (W13 m ρ c (Proc.devRef .tc main_v101)) = _
  rw [at_v101]
theorem at_v102_1 (c : Dev nD) : W14 m ρ c (Proc.devRef .tc main_v102_1) = sumSqRow (a2 m c) := by
  rw [(W14_arr m ρ c 2).trans (Stats4.final2 (V13 m ρ) c)]
  show sumSqRow (W13 m ρ c (Proc.devRef .tc main_v101)) = _
  rw [at_v101]

/-- The result array after the whole program. -/
theorem at_v111 (c : Dev nD) : W16 m ρ c (Proc.devRef .tc main_v111) = n2 m c := by
  rw [(W16_arr m ρ c 5).trans (Norm5.final (V15 m ρ) c)]
  show bnorm (W15 m ρ c (Proc.devRef .tc main_v101)) (W15 m ρ c (Proc.devRef .tc main_v104)) (W15 m ρ c (Proc.devRef .tc main_v108))
      (W15 m ρ c (Proc.devRef .tc main_v109)) (W15 m ρ c (Proc.devRef .tc main_v110)) = _
  rw [Kept.v101_at15, at_v101, show W15 m ρ c (Proc.devRef .tc main_v104) = _ from h5_v104 (W14 m ρ c),
    show W15 m ρ c (Proc.devRef .tc main_v108) = _ from h5_v108 (W14 m ρ c), show W15 m ρ c (Proc.devRef .tc main_v109) = _ from h5_v109 (W14 m ρ c),
    show W15 m ρ c (Proc.devRef .tc main_v110) = _ from h5_v110 (W14 m ρ c), at_v102_0, at_v102_1, Kept.arg8_at14, Kept.arg9_at14]
  exact bnorm_rows _ _ _

/-- The idealized kernel's run, read: the result array at the composed function of the arguments, the arguments unchanged. -/
theorem run : θ_run defs (onTc (τ := τ) (main (F := Ideal))) ⟨m, fun _ => 0, ρ⟩ (fun r => ∀ c : Dev nD,
      r.2.mem ((c.tc : Thread nD τ).loc main_v111) = n2 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(h c).1.trans (at_v111 m ρ c), (h c).2⟩) (Named.run_named m ρ)

end Cert.KernelIdeal.Whole

end
-- ==== Proof.RefChunks.lean ====
/-
  The reference program's 198 host operations taken eight stretches at a time — the edge endpoints and the first affine
  layer, the nodes' factors, the first aggregation, the first normalisation, and the same four again — with the fact that
  no stretch writes an argument array (nor, for the factors' stretch, the arrays the aggregation reads after it).
-/
import proofs.«126232_j32822140076791_1_alg».proof.Proof.RefOps
import Idealize.ShloMosaic.Lib.Pipeline.Frame

set_option maxRecDepth 16384

noncomputable section

namespace Cert.ReferenceIdeal.ValueP

open Cert.ReferenceIdeal Cert.ReferenceIdeal.Gen Idealize.ShloMosaic Idealize.ShloMosaic.TcCoe Idealize.SL.Sem Idealize.ShloMosaic.StableHlo

variable {F : FTy → Type} [FloatOps F]

/-- The edge endpoints and the first affine layer: operations 1 … 11 of @main. -/
abbrev opsA : List (HloOp τ sig (Elt F)) :=
  [ nullary main_v0 (iotaInDim S50000 32 0),
    unary main_arg1 main_v1 ((extractStridedSlice S1x600000 ![0, 0] · slices_S2x600000_S1x600000_0_0) : (⟨S2x600000, .i32⟩ : BufTy).Contents (Elt F) → (⟨S1x600000, .i32⟩ : BufTy).Contents (Elt F)),
    reshape main_v1 main_v2 rfl shapeCasts_S1x600000_S600000,
    binary main_v2 main_v0 main_v3 ((fun a b => concatenate S650000 0 [⟨S600000, a⟩, ⟨S50000, b⟩] concatenates_S600000_S50000_S650000_d0) : (⟨S600000, .i32⟩ : BufTy).Contents (Elt F) → (⟨S50000, .i32⟩ : BufTy).Contents (Elt F) → (⟨S650000, .i32⟩ : BufTy).Contents (Elt F)),
    unary main_arg1 main_v4 ((extractStridedSlice S1x600000 ![1, 0] · slices_S2x600000_S1x600000_1_0) : (⟨S2x600000, .i32⟩ : BufTy).Contents (Elt F) → (⟨S1x600000, .i32⟩ : BufTy).Contents (Elt F)),
    reshape main_v4 main_v5 rfl shapeCasts_S1x600000_S600000,
    binary main_v5 main_v0 main_v6 ((fun a b => concatenate S650000 0 [⟨S600000, a⟩, ⟨S50000, b⟩] concatenates_S600000_S50000_S650000_d0) : (⟨S600000, .i32⟩ : BufTy).Contents (Elt F) → (⟨S50000, .i32⟩ : BufTy).Contents (Elt F) → (⟨S650000, .i32⟩ : BufTy).Contents (Elt F)),
    binary main_arg0 main_arg2 main_v7 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    unary main_arg3 main_v8 (broadcastInDim S1x128 ![1] bcast_S128_S1x128_1 : (⟨S128, .f32⟩ : BufTy).Contents (Elt F) → (⟨S1x128, .f32⟩ : BufTy).Contents (Elt F)),
    unary main_v8 main_v9 (broadcastInDim S50000x128 ![0, 1] bcast_S1x128_S50000x128_0_1 : (⟨S1x128, .f32⟩ : BufTy).Contents (Elt F) → (⟨S50000x128, .f32⟩ : BufTy).Contents (Elt F)),
    binary main_v7 main_v9 main_v10 (addf : (⟨S50000x128, .f32⟩ : BufTy).Contents (Elt F) → (⟨S50000x128, .f32⟩ : BufTy).Contents (Elt F) → (⟨S50000x128, .f32⟩ : BufTy).Contents (Elt F)) ]

/-- The degrees and their powers -1/2: operations 12 … 27 of @main. -/
abbrev opsB1 : List (HloOp τ sig (Elt F)) :=
  [ nullary main_cst (constant S_ .f32 0x3F800000#32),
    unary main_cst main_v11 (broadcastInDim S650000 ![] bcast_S_S650000 : (⟨S_, .f32⟩ : BufTy).Contents (Elt F) → (⟨S650000, .f32⟩ : BufTy).Contents (Elt F)),
    nullary main_cst_0 (constant S_ .f32 0x00000000#32),
    unary main_cst_0 main_v12 (broadcastInDim S50000 ![] bcast_S_S50000 : (⟨S_, .f32⟩ : BufTy).Contents (Elt F) → (⟨S50000, .f32⟩ : BufTy).Contents (Elt F)),
    unary main_v6 main_v13 (broadcastInDim S650000x1 ![0] bcast_S650000_S650000x1_0 : (⟨S650000, .i32⟩ : BufTy).Contents (Elt F) → (⟨S650000x1, .i32⟩ : BufTy).Contents (Elt F)),
    ternary main_v12 main_v13 main_v11 main_v14 ((fun x i u => Host.scatterAdd scatter_S50000_S650000x1_S650000_n_0_0_1 x i u) : (⟨S50000, .f32⟩ : BufTy).Contents (Elt F) → (⟨S650000x1, .i32⟩ : BufTy).Contents (Elt F) → (⟨S650000, .f32⟩ : BufTy).Contents (Elt F) → (⟨S50000, .f32⟩ : BufTy).Contents (Elt F)),
    nullary main_cst_1 (constant S_ .f32 0x00000000#32),
    unary main_cst_1 main_v15 (broadcastInDim S50000 ![] bcast_S_S50000 : (⟨S_, .f32⟩ : BufTy).Contents (Elt F) → (⟨S50000, .f32⟩ : BufTy).Contents (Elt F)),
    binary main_v14 main_v15 main_v16 (cmpf .ogt : (⟨S50000, .f32⟩ : BufTy).Contents (Elt F) → (⟨S50000, .f32⟩ : BufTy).Contents (Elt F) → (⟨S50000, .i1⟩ : BufTy).Contents (Elt F)),
    nullary main_cst_2 (constant S_ .f32 0xBF000000#32),
    unary main_cst_2 main_v17 (broadcastInDim S50000 ![] bcast_S_S50000 : (⟨S_, .f32⟩ : BufTy).Contents (Elt F) → (⟨S50000, .f32⟩ : BufTy).Contents (Elt F)),
    binary main_v14 main_v17 main_v18 (Host.powf : (⟨S50000, .f32⟩ : BufTy).Contents (Elt F) → (⟨S50000, .f32⟩ : BufTy).Contents (Elt F) → (⟨S50000, .f32⟩ : BufTy).Contents (Elt F)),
    nullary main_cst_3 (constant S_ .f32 0x00000000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v16) (TRef.of (T := ⟨S50000, .f32⟩) main_v18) (TRef.of (T := ⟨S50000, .f32⟩) main_call0_v1) (TRef.of (T := ⟨S50000, .f32⟩) main_v19) select ]

/-- The first aggregation from the nodes' factors: operations 28 … 62 of @main. -/
abbrev opsB2 : List (HloOp τ sig (Elt F)) :=
  [ nullary main_c (constantI S_ 32 0#32),
    unary main_c main_v20 (broadcastInDim S650000 ![] bcast_S_S650000 : (⟨S_, .i32⟩ : BufTy).Contents (Elt F) → (⟨S650000, .i32⟩ : BufTy).Contents (Elt F)),
    binary main_v3 main_v20 main_v21 (cmpi .slt : (⟨S650000, .i32⟩ : BufTy).Contents (Elt F) → (⟨S650000, .i32⟩ : BufTy).Contents (Elt F) → (⟨S650000, .i1⟩ : BufTy).Contents (Elt F)),
    nullary main_c_4 (constantI S_ 32 50000#32),
    unary main_c_4 main_v22 (broadcastInDim S650000 ![] bcast_S_S650000 : (⟨S_, .i32⟩ : BufTy).Contents (Elt F) → (⟨S650000, .i32⟩ : BufTy).Contents (Elt F)),
    binary main_v3 main_v22 main_v23 (addi : (⟨S650000, .i32⟩ : BufTy).Contents (Elt F) → (⟨S650000, .i32⟩ : BufTy).Contents (Elt F) → (⟨S650000, .i32⟩ : BufTy).Contents (Elt F)),
    ternary main_v21 main_v23 main_v3 main_v24 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    unary main_v24 main_v25 (broadcastInDim S650000x1 ![0] bcast_S650000_S650000x1_0 : (⟨S650000, .i32⟩ : BufTy).Contents (Elt F) → (⟨S650000x1, .i32⟩ : BufTy).Contents (Elt F)),
    binary main_v19 main_v25 main_v26 ((fun x i => Host.gather gather_S50000_S650000x1_S650000_n_0_n_n_0_1_1 x i) : (⟨S50000, .f32⟩ : BufTy).Contents (Elt F) → (⟨S650000x1, .i32⟩ : BufTy).Contents (Elt F) → (⟨S650000, .f32⟩ : BufTy).Contents (Elt F)),
    nullary main_c_5 (constantI S_ 32 0#32),
    unary main_c_5 main_v27 (broadcastInDim S650000 ![] bcast_S_S650000 : (⟨S_, .i32⟩ : BufTy).Contents (Elt F) → (⟨S650000, .i32⟩ : BufTy).Contents (Elt F)),
    binary main_v6 main_v27 main_v28 (cmpi .slt : (⟨S650000, .i32⟩ : BufTy).Contents (Elt F) → (⟨S650000, .i32⟩ : BufTy).Contents (Elt F) → (⟨S650000, .i1⟩ : BufTy).Contents (Elt F)),
    nullary main_c_6 (constantI S_ 32 50000#32),
    unary main_c_6 main_v29 (broadcastInDim S650000 ![] bcast_S_S650000 : (⟨S_, .i32⟩ : BufTy).Contents (Elt F) → (⟨S650000, .i32⟩ : BufTy).Contents (Elt F)),
    binary main_v6 main_v29 main_v30 (addi : (⟨S650000, .i32⟩ : BufTy).Contents (Elt F) → (⟨S650000, .i32⟩ : BufTy).Contents (Elt F) → (⟨S650000, .i32⟩ : BufTy).Contents (Elt F)),
    ternary main_v28 main_v30 main_v6 main_v31 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    unary main_v31 main_v32 (broadcastInDim S650000x1 ![0] bcast_S650000_S650000x1_0 : (⟨S650000, .i32⟩ : BufTy).Contents (Elt F) → (⟨S650000x1, .i32⟩ : BufTy).Contents (Elt F)),
    binary main_v19 main_v32 main_v33 ((fun x i => Host.gather gather_S50000_S650000x1_S650000_n_0_n_n_0_1_1 x i) : (⟨S50000, .f32⟩ : BufTy).Contents (Elt F) → (⟨S650000x1, .i32⟩ : BufTy).Contents (Elt F) → (⟨S650000, .f32⟩ : BufTy).Contents (Elt F)),
    binary main_v26 main_v33 main_v34 (mulf : (⟨S650000, .f32⟩ : BufTy).Contents (Elt F) → (⟨S650000, .f32⟩ : BufTy).Contents (Elt F) → (⟨S650000, .f32⟩ : BufTy).Contents (Elt F)),
    unary main_v34 main_v35 (broadcastInDim S650000x1 ![0] bcast_S650000_S650000x1_0 : (⟨S650000, .f32⟩ : BufTy).Contents (Elt F) → (⟨S650000x1, .f32⟩ : BufTy).Contents (Elt F)),
    nullary main_c_7 (constantI S_ 32 0#32),
    unary main_c_7 main_v36 (broadcastInDim S650000 ![] bcast_S_S650000 : (⟨S_, .i32⟩ : BufTy).Contents (Elt F) → (⟨S650000, .i32⟩ : BufTy).Contents (Elt F)),
    binary main_v3 main_v36 main_v37 (cmpi .slt : (⟨S650000, .i32⟩ : BufTy).Contents (Elt F) → (⟨S650000, .i32⟩ : BufTy).Contents (Elt F) → (⟨S650000, .i1⟩ : BufTy).Contents (Elt F)),
    nullary main_c_8 (constantI S_ 32 50000#32),
    unary main_c_8 main_v38 (broadcastInDim S650000 ![] bcast_S_S650000 : (⟨S_, .i32⟩ : BufTy).Contents (Elt F) → (⟨S650000, .i32⟩ : BufTy).Contents (Elt F)),
    binary main_v3 main_v38 main_v39 (addi : (⟨S650000, .i32⟩ : BufTy).Contents (Elt F) → (⟨S650000, .i32⟩ : BufTy).Contents (Elt F) → (⟨S650000, .i32⟩ : BufTy).Contents (Elt F)),
    ternary main_v37 main_v39 main_v3 main_v40 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    unary main_v40 main_v41 (broadcastInDim S650000x1 ![0] bcast_S650000_S650000x1_0 : (⟨S650000, .i32⟩ : BufTy).Contents (Elt F) → (⟨S650000x1, .i32⟩ : BufTy).Contents (Elt F)),
    binary main_v10 main_v41 main_v42 ((fun x i => Host.gather gather_S50000x128_S650000x1_S650000x128_1_0_n_n_0_1_1128 x i) : (⟨S50000x128, .f32⟩ : BufTy).Contents (Elt F) → (⟨S650000x1, .i32⟩ : BufTy).Contents (Elt F) → (⟨S650000x128, .f32⟩ : BufTy).Contents (Elt F)),
    unary main_v35 main_v43 (broadcastInDim S650000x128 ![0, 1] bcast_S650000x1_S650000x128_0_1 : (⟨S650000x1, .f32⟩ : BufTy).Contents (Elt F) → (⟨S650000x128, .f32⟩ : BufTy).Contents (Elt F)),
    binary main_v43 main_v42 main_v44 (mulf : (⟨S650000x128, .f32⟩ : BufTy).Contents (Elt F) → (⟨S650000x128, .f32⟩ : BufTy).Contents (Elt F) → (⟨S650000x128, .f32⟩ : BufTy).Contents (Elt F)),
    nullary main_cst_9 (constant S_ .f32 0x00000000#32),
    unary main_cst_9 main_v45 (broadcastInDim S50000x128 ![] bcast_S_S50000x128 : (⟨S_, .f32⟩ : BufTy).Contents (Elt F) → (⟨S50000x128, .f32⟩ : BufTy).Contents (Elt F)),
    unary main_v6 main_v46 (broadcastInDim S650000x1 ![0] bcast_S650000_S650000x1_0 : (⟨S650000, .i32⟩ : BufTy).Contents (Elt F) → (⟨S650000x1, .i32⟩ : BufTy).Contents (Elt F)),
    ternary main_v45 main_v46 main_v44 main_v47 ((fun x i u => Host.scatterAdd scatter_S50000x128_S650000x1_S650000x128_1_0_0_1 x i u) : (⟨S50000x128, .f32⟩ : BufTy).Contents (Elt F) → (⟨S650000x1, .i32⟩ : BufTy).Contents (Elt F) → (⟨S650000x128, .f32⟩ : BufTy).Contents (Elt F) → (⟨S50000x128, .f32⟩ : BufTy).Contents (Elt F)) ]

/-- The first normalisation: operations 63 … 99 of @main. -/
abbrev opsC : List (HloOp τ sig (Elt F)) :=
  [ nullary main_cst_10 (constant S_ .f32 0x00000000#32),
    binary main_v47 main_cst_10 main_v48 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_11 (constant S_ .f32 0x47435000#32),
    unary main_cst_11 main_v49 (broadcastInDim S128 ![] bcast_S_S128 : (⟨S_, .f32⟩ : BufTy).Contents (Elt F) → (⟨S128, .f32⟩ : BufTy).Contents (Elt F)),
    binary main_v48 main_v49 main_v50 (Host.divf : (⟨S128, .f32⟩ : BufTy).Contents (Elt F) → (⟨S128, .f32⟩ : BufTy).Contents (Elt F) → (⟨S128, .f32⟩ : BufTy).Contents (Elt F)),
    unary main_v50 main_v51 (broadcastInDim S1x128 ![1] bcast_S128_S1x128_1 : (⟨S128, .f32⟩ : BufTy).Contents (Elt F) → (⟨S1x128, .f32⟩ : BufTy).Contents (Elt F)),
    unary main_v51 main_v52 (broadcastInDim S50000x128 ![0, 1] bcast_S1x128_S50000x128_0_1 : (⟨S1x128, .f32⟩ : BufTy).Contents (Elt F) → (⟨S50000x128, .f32⟩ : BufTy).Contents (Elt F)),
    binary main_v47 main_v52 main_v53 (subf : (⟨S50000x128, .f32⟩ : BufTy).Contents (Elt F) → (⟨S50000x128, .f32⟩ : BufTy).Contents (Elt F) → (⟨S50000x128, .f32⟩ : BufTy).Contents (Elt F)),
    binary main_v53 main_v53 main_v54 (mulf : (⟨S50000x128, .f32⟩ : BufTy).Contents (Elt F) → (⟨S50000x128, .f32⟩ : BufTy).Contents (Elt F) → (⟨S50000x128, .f32⟩ : BufTy).Contents (Elt F)),
    nullary main_cst_12 (constant S_ .f32 0x00000000#32),
    binary main_v54 main_cst_12 main_v55 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_13 (constant S_ .f32 0x47435000#32),
    unary main_cst_13 main_v56 (broadcastInDim S128 ![] bcast_S_S128 : (⟨S_, .f32⟩ : BufTy).Contents (Elt F) → (⟨S128, .f32⟩ : BufTy).Contents (Elt F)),
    binary main_v55 main_v56 main_v57 (Host.divf : (⟨S128, .f32⟩ : BufTy).Contents (Elt F) → (⟨S128, .f32⟩ : BufTy).Contents (Elt F) → (⟨S128, .f32⟩ : BufTy).Contents (Elt F)),
    unary main_v50 main_v58 (broadcastInDim S1x128 ![1] bcast_S128_S1x128_1 : (⟨S128, .f32⟩ : BufTy).Contents (Elt F) → (⟨S1x128, .f32⟩ : BufTy).Contents (Elt F)),
    unary main_v58 main_v59 (broadcastInDim S50000x128 ![0, 1] bcast_S1x128_S50000x128_0_1 : (⟨S1x128, .f32⟩ : BufTy).Contents (Elt F) → (⟨S50000x128, .f32⟩ : BufTy).Contents (Elt F)),
    binary main_v47 main_v59 main_v60 (subf : (⟨S50000x128, .f32⟩ : BufTy).Contents (Elt F) → (⟨S50000x128, .f32⟩ : BufTy).Contents (Elt F) → (⟨S50000x128, .f32⟩ : BufTy).Contents (Elt F)),
    nullary main_cst_14 (constant S_ .f32 0x3727C5AC#32),
    unary main_cst_14 main_v61 (broadcastInDim S128 ![] bcast_S_S128 : (⟨S_, .f32⟩ : BufTy).Contents (Elt F) → (⟨S128, .f32⟩ : BufTy).Contents (Elt F)),
    binary main_v57 main_v61 main_v62 (addf : (⟨S128, .f32⟩ : BufTy).Contents (Elt F) → (⟨S128, .f32⟩ : BufTy).Contents (Elt F) → (⟨S128, .f32⟩ : BufTy).Contents (Elt F)),
    unary main_v62 main_v63 (Host.rsqrt : (⟨S128, .f32⟩ : BufTy).Contents (Elt F) → (⟨S128, .f32⟩ : BufTy).Contents (Elt F)),
    unary main_v63 main_v64 (broadcastInDim S1x128 ![1] bcast_S128_S1x128_1 : (⟨S128, .f32⟩ : BufTy).Contents (Elt F) → (⟨S1x128, .f32⟩ : BufTy).Contents (Elt F)),
    unary main_v64 main_v65 (broadcastInDim S50000x128 ![0, 1] bcast_S1x128_S50000x128_0_1 : (⟨S1x128, .f32⟩ : BufTy).Contents (Elt F) → (⟨S50000x128, .f32⟩ : BufTy).Contents (Elt F)),
    binary main_v60 main_v65 main_v66 (mulf : (⟨S50000x128, .f32⟩ : BufTy).Contents (Elt F) → (⟨S50000x128, .f32⟩ : BufTy).Contents (Elt F) → (⟨S50000x128, .f32⟩ : BufTy).Contents (Elt F)),
    unary main_arg6 main_v67 (broadcastInDim S1x128 ![1] bcast_S128_S1x128_1 : (⟨S128, .f32⟩ : BufTy).Contents (Elt F) → (⟨S1x128, .f32⟩ : BufTy).Contents (Elt F)),
    unary main_v67 main_v68 (broadcastInDim S50000x128 ![0, 1] bcast_S1x128_S50000x128_0_1 : (⟨S1x128, .f32⟩ : BufTy).Contents (Elt F) → (⟨S50000x128, .f32⟩ : BufTy).Contents (Elt F)),
    binary main_v66 main_v68 main_v69 (mulf : (⟨S50000x128, .f32⟩ : BufTy).Contents (Elt F) → (⟨S50000x128, .f32⟩ : BufTy).Contents (Elt F) → (⟨S50000x128, .f32⟩ : BufTy).Contents (Elt F)),
    unary main_arg7 main_v70 (broadcastInDim S1x128 ![1] bcast_S128_S1x128_1 : (⟨S128, .f32⟩ : BufTy).Contents (Elt F) → (⟨S1x128, .f32⟩ : BufTy).Contents (Elt F)),
    unary main_v70 main_v71 (broadcastInDim S50000x128 ![0, 1] bcast_S1x128_S50000x128_0_1 : (⟨S1x128, .f32⟩ : BufTy).Contents (Elt F) → (⟨S50000x128, .f32⟩ : BufTy).Contents (Elt F)),
    binary main_v69 main_v71 main_v72 (addf : (⟨S50000x128, .f32⟩ : BufTy).Contents (Elt F) → (⟨S50000x128, .f32⟩ : BufTy).Contents (Elt F) → (⟨S50000x128, .f32⟩ : BufTy).Contents (Elt F)),
    nullary main_cst_15 (constant S_ .f32 0x00000000#32),
    unary main_cst_15 main_v73 (broadcastInDim S50000x128 ![] bcast_S_S50000x128 : (⟨S_, .f32⟩ : BufTy).Contents (Elt F) → (⟨S50000x128, .f32⟩ : BufTy).Contents (Elt F)),
    binary main_v72 main_v73 main_v74 (cmpf .oge : (⟨S50000x128, .f32⟩ : BufTy).Contents (Elt F) → (⟨S50000x128, .f32⟩ : BufTy).Contents (Elt F) → (⟨S50000x128, .i1⟩ : BufTy).Contents (Elt F)),
    nullary main_cst_16 (constant S_ .f32 0x3DCCCCCD#32),
    unary main_cst_16 main_v75 (broadcastInDim S50000x128 ![] bcast_S_S50000x128 : (⟨S_, .f32⟩ : BufTy).Contents (Elt F) → (⟨S50000x128, .f32⟩ : BufTy).Contents (Elt F)),
    binary main_v75 main_v72 main_v76 (mulf : (⟨S50000x128, .f32⟩ : BufTy).Contents (Elt F) → (⟨S50000x128, .f32⟩ : BufTy).Contents (Elt F) → (⟨S50000x128, .f32⟩ : BufTy).Contents (Elt F)),
    TRef.ternary (TRef.of (T := ⟨S50000x128, .i1⟩) main_v74) (TRef.of (T := ⟨S50000x128, .f32⟩) main_v72) (TRef.of (T := ⟨S50000x128, .f32⟩) main_v76) (TRef.of (T := ⟨S50000x128, .f32⟩) main_v77) select ]

/-- The edge endpoints again and the second affine layer: operations 100 … 110 of @main. -/
abbrev opsD : List (HloOp τ sig (Elt F)) :=
  [ nullary main_v78 (iotaInDim S50000 32 0),
    unary main_arg1 main_v79 ((extractStridedSlice S1x600000 ![0, 0] · slices_S2x600000_S1x600000_0_0) : (⟨S2x600000, .i32⟩ : BufTy).Contents (Elt F) → (⟨S1x600000, .i32⟩ : BufTy).Contents (Elt F)),
    reshape main_v79 main_v80 rfl shapeCasts_S1x600000_S600000,
    binary main_v80 main_v78 main_v81 ((fun a b => concatenate S650000 0 [⟨S600000, a⟩, ⟨S50000, b⟩] concatenates_S600000_S50000_S650000_d0) : (⟨S600000, .i32⟩ : BufTy).Contents (Elt F) → (⟨S50000, .i32⟩ : BufTy).Contents (Elt F) → (⟨S650000, .i32⟩ : BufTy).Contents (Elt F)),
    unary main_arg1 main_v82 ((extractStridedSlice S1x600000 ![1, 0] · slices_S2x600000_S1x600000_1_0) : (⟨S2x600000, .i32⟩ : BufTy).Contents (Elt F) → (⟨S1x600000, .i32⟩ : BufTy).Contents (Elt F)),
    reshape main_v82 main_v83 rfl shapeCasts_S1x600000_S600000,
    binary main_v83 main_v78 main_v84 ((fun a b => concatenate S650000 0 [⟨S600000, a⟩, ⟨S50000, b⟩] concatenates_S600000_S50000_S650000_d0) : (⟨S600000, .i32⟩ : BufTy).Contents (Elt F) → (⟨S50000, .i32⟩ : BufTy).Contents (Elt F) → (⟨S650000, .i32⟩ : BufTy).Contents (Elt F)),
    binary main_v77 main_arg4 main_v85 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg5 main_v86 (broadcastInDim S1x128 ![1] bcast_S128_S1x128_1 : (⟨S128, .f32⟩ : BufTy).Contents (Elt F) → (⟨S1x128, .f32⟩ : BufTy).Contents (Elt F)),
    unary main_v86 main_v87 (broadcastInDim S50000x128 ![0, 1] bcast_S1x128_S50000x128_0_1 : (⟨S1x128, .f32⟩ : BufTy).Contents (Elt F) → (⟨S50000x128, .f32⟩ : BufTy).Contents (Elt F)),
    binary main_v85 main_v87 main_v88 (addf : (⟨S50000x128, .f32⟩ : BufTy).Contents (Elt F) → (⟨S50000x128, .f32⟩ : BufTy).Contents (Elt F) → (⟨S50000x128, .f32⟩ : BufTy).Contents (Elt F)) ]

/-- The degrees and their powers -1/2 again: operations 111 … 126 of @main. -/
abbrev opsE1 : List (HloOp τ sig (Elt F)) :=
  [ nullary main_cst_17 (constant S_ .f32 0x3F800000#32),
    unary main_cst_17 main_v89 (broadcastInDim S650000 ![] bcast_S_S650000 : (⟨S_, .f32⟩ : BufTy).Contents (Elt F) → (⟨S650000, .f32⟩ : BufTy).Contents (Elt F)),
    nullary main_cst_18 (constant S_ .f32 0x00000000#32),
    unary main_cst_18 main_v90 (broadcastInDim S50000 ![] bcast_S_S50000 : (⟨S_, .f32⟩ : BufTy).Contents (Elt F) → (⟨S50000, .f32⟩ : BufTy).Contents (Elt F)),
    unary main_v84 main_v91 (broadcastInDim S650000x1 ![0] bcast_S650000_S650000x1_0 : (⟨S650000, .i32⟩ : BufTy).Contents (Elt F) → (⟨S650000x1, .i32⟩ : BufTy).Contents (Elt F)),
    ternary main_v90 main_v91 main_v89 main_v92 ((fun x i u => Host.scatterAdd scatter_S50000_S650000x1_S650000_n_0_0_1 x i u) : (⟨S50000, .f32⟩ : BufTy).Contents (Elt F) → (⟨S650000x1, .i32⟩ : BufTy).Contents (Elt F) → (⟨S650000, .f32⟩ : BufTy).Contents (Elt F) → (⟨S50000, .f32⟩ : BufTy).Contents (Elt F)),
    nullary main_cst_19 (constant S_ .f32 0x00000000#32),
    unary main_cst_19 main_v93 (broadcastInDim S50000 ![] bcast_S_S50000 : (⟨S_, .f32⟩ : BufTy).Contents (Elt F) → (⟨S50000, .f32⟩ : BufTy).Contents (Elt F)),
    binary main_v92 main_v93 main_v94 (cmpf .ogt : (⟨S50000, .f32⟩ : BufTy).Contents (Elt F) → (⟨S50000, .f32⟩ : BufTy).Contents (Elt F) → (⟨S50000, .i1⟩ : BufTy).Contents (Elt F)),
    nullary main_cst_20 (constant S_ .f32 0xBF000000#32),
    unary main_cst_20 main_v95 (broadcastInDim S50000 ![] bcast_S_S50000 : (⟨S_, .f32⟩ : BufTy).Contents (Elt F) → (⟨S50000, .f32⟩ : BufTy).Contents (Elt F)),
    binary main_v92 main_v95 main_v96 (Host.powf : (⟨S50000, .f32⟩ : BufTy).Contents (Elt F) → (⟨S50000, .f32⟩ : BufTy).Contents (Elt F) → (⟨S50000, .f32⟩ : BufTy).Contents (Elt F)),
    nullary main_cst_21 (constant S_ .f32 0x00000000#32),
    TRef.unary (TRef.of (T := ⟨S_, .f32⟩) main_cst_21) (TRef.of (T := ⟨S_, .f32⟩) main_call2_v0) id,
    TRef.unary (TRef.of (T := ⟨S_, .f32⟩) main_call2_v0) (TRef.of (T := ⟨S50000, .f32⟩) main_call2_v1) (broadcastInDim S50000 ![] bcast_S_S50000),
    TRef.ternary (TRef.of (T := ⟨S50000, .i1⟩) main_v94) (TRef.of (T := ⟨S50000, .f32⟩) main_v96) (TRef.of (T := ⟨S50000, .f32⟩) main_call2_v1) (TRef.of (T := ⟨S50000, .f32⟩) main_v97) select ]

/-- The second aggregation from the nodes' factors: operations 127 … 161 of @main. -/
abbrev opsE2 : List (HloOp τ sig (Elt F)) :=
  [ nullary main_c_22 (constantI S_ 32 0#32),
    unary main_c_22 main_v98 (broadcastInDim S650000 ![] bcast_S_S650000 : (⟨S_, .i32⟩ : BufTy).Contents (Elt F) → (⟨S650000, .i32⟩ : BufTy).Contents (Elt F)),
    binary main_v81 main_v98 main_v99 (cmpi .slt : (⟨S650000, .i32⟩ : BufTy).Contents (Elt F) → (⟨S650000, .i32⟩ : BufTy).Contents (Elt F) → (⟨S650000, .i1⟩ : BufTy).Contents (Elt F)),
    nullary main_c_23 (constantI S_ 32 50000#32),
    unary main_c_23 main_v100 (broadcastInDim S650000 ![] bcast_S_S650000 : (⟨S_, .i32⟩ : BufTy).Contents (Elt F) → (⟨S650000, .i32⟩ : BufTy).Contents (Elt F)),
    binary main_v81 main_v100 main_v101 (addi : (⟨S650000, .i32⟩ : BufTy).Contents (Elt F) → (⟨S650000, .i32⟩ : BufTy).Contents (Elt F) → (⟨S650000, .i32⟩ : BufTy).Contents (Elt F)),
    ternary main_v99 main_v101 main_v81 main_v102 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    unary main_v102 main_v103 (broadcastInDim S650000x1 ![0] bcast_S650000_S650000x1_0 : (⟨S650000, .i32⟩ : BufTy).Contents (Elt F) → (⟨S650000x1, .i32⟩ : BufTy).Contents (Elt F)),
    binary main_v97 main_v103 main_v104 ((fun x i => Host.gather gather_S50000_S650000x1_S650000_n_0_n_n_0_1_1 x i) : (⟨S50000, .f32⟩ : BufTy).Contents (Elt F) → (⟨S650000x1, .i32⟩ : BufTy).Contents (Elt F) → (⟨S650000, .f32⟩ : BufTy).Contents (Elt F)),
    nullary main_c_24 (constantI S_ 32 0#32),
    unary main_c_24 main_v105 (broadcastInDim S650000 ![] bcast_S_S650000 : (⟨S_, .i32⟩ : BufTy).Contents (Elt F) → (⟨S650000, .i32⟩ : BufTy).Contents (Elt F)),
    binary main_v84 main_v105 main_v106 (cmpi .slt : (⟨S650000, .i32⟩ : BufTy).Contents (Elt F) → (⟨S650000, .i32⟩ : BufTy).Contents (Elt F) → (⟨S650000, .i1⟩ : BufTy).Contents (Elt F)),
    nullary main_c_25 (constantI S_ 32 50000#32),
    unary main_c_25 main_v107 (broadcastInDim S650000 ![] bcast_S_S650000 : (⟨S_, .i32⟩ : BufTy).Contents (Elt F) → (⟨S650000, .i32⟩ : BufTy).Contents (Elt F)),
    binary main_v84 main_v107 main_v108 (addi : (⟨S650000, .i32⟩ : BufTy).Contents (Elt F) → (⟨S650000, .i32⟩ : BufTy).Contents (Elt F) → (⟨S650000, .i32⟩ : BufTy).Contents (Elt F)),
    ternary main_v106 main_v108 main_v84 main_v109 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    unary main_v109 main_v110 (broadcastInDim S650000x1 ![0] bcast_S650000_S650000x1_0 : (⟨S650000, .i32⟩ : BufTy).Contents (Elt F) → (⟨S650000x1, .i32⟩ : BufTy).Contents (Elt F)),
    binary main_v97 main_v110 main_v111 ((fun x i => Host.gather gather_S50000_S650000x1_S650000_n_0_n_n_0_1_1 x i) : (⟨S50000, .f32⟩ : BufTy).Contents (Elt F) → (⟨S650000x1, .i32⟩ : BufTy).Contents (Elt F) → (⟨S650000, .f32⟩ : BufTy).Contents (Elt F)),
    binary main_v104 main_v111 main_v112 (mulf : (⟨S650000, .f32⟩ : BufTy).Contents (Elt F) → (⟨S650000, .f32⟩ : BufTy).Contents (Elt F) → (⟨S650000, .f32⟩ : BufTy).Contents (Elt F)),
    unary main_v112 main_v113 (broadcastInDim S650000x1 ![0] bcast_S650000_S650000x1_0 : (⟨S650000, .f32⟩ : BufTy).Contents (Elt F) → (⟨S650000x1, .f32⟩ : BufTy).Contents (Elt F)),
    nullary main_c_26 (constantI S_ 32 0#32),
    unary main_c_26 main_v114 (broadcastInDim S650000 ![] bcast_S_S650000 : (⟨S_, .i32⟩ : BufTy).Contents (Elt F) → (⟨S650000, .i32⟩ : BufTy).Contents (Elt F)),
    binary main_v81 main_v114 main_v115 (cmpi .slt : (⟨S650000, .i32⟩ : BufTy).Contents (Elt F) → (⟨S650000, .i32⟩ : BufTy).Contents (Elt F) → (⟨S650000, .i1⟩ : BufTy).Contents (Elt F)),
    nullary main_c_27 (constantI S_ 32 50000#32),
    unary main_c_27 main_v116 (broadcastInDim S650000 ![] bcast_S_S650000 : (⟨S_, .i32⟩ : BufTy).Contents (Elt F) → (⟨S650000, .i32⟩ : BufTy).Contents (Elt F)),
    binary main_v81 main_v116 main_v117 (addi : (⟨S650000, .i32⟩ : BufTy).Contents (Elt F) → (⟨S650000, .i32⟩ : BufTy).Contents (Elt F) → (⟨S650000, .i32⟩ : BufTy).Contents (Elt F)),
    ternary main_v115 main_v117 main_v81 main_v118 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    unary main_v118 main_v119 (broadcastInDim S650000x1 ![0] bcast_S650000_S650000x1_0 : (⟨S650000, .i32⟩ : BufTy).Contents (Elt F) → (⟨S650000x1, .i32⟩ : BufTy).Contents (Elt F)),
    binary main_v88 main_v119 main_v120 ((fun x i => Host.gather gather_S50000x128_S650000x1_S650000x128_1_0_n_n_0_1_1128 x i) : (⟨S50000x128, .f32⟩ : BufTy).Contents (Elt F) → (⟨S650000x1, .i32⟩ : BufTy).Contents (Elt F) → (⟨S650000x128, .f32⟩ : BufTy).Contents (Elt F)),
    unary main_v113 main_v121 (broadcastInDim S650000x128 ![0, 1] bcast_S650000x1_S650000x128_0_1 : (⟨S650000x1, .f32⟩ : BufTy).Contents (Elt F) → (⟨S650000x128, .f32⟩ : BufTy).Contents (Elt F)),
    binary main_v121 main_v120 main_v122 (mulf : (⟨S650000x128, .f32⟩ : BufTy).Contents (Elt F) → (⟨S650000x128, .f32⟩ : BufTy).Contents (Elt F) → (⟨S650000x128, .f32⟩ : BufTy).Contents (Elt F)),
    nullary main_cst_28 (constant S_ .f32 0x00000000#32),
    unary main_cst_28 main_v123 (broadcastInDim S50000x128 ![] bcast_S_S50000x128 : (⟨S_, .f32⟩ : BufTy).Contents (Elt F) → (⟨S50000x128, .f32⟩ : BufTy).Contents (Elt F)),
    unary main_v84 main_v124 (broadcastInDim S650000x1 ![0] bcast_S650000_S650000x1_0 : (⟨S650000, .i32⟩ : BufTy).Contents (Elt F) → (⟨S650000x1, .i32⟩ : BufTy).Contents (Elt F)),
    ternary main_v123 main_v124 main_v122 main_v125 ((fun x i u => Host.scatterAdd scatter_S50000x128_S650000x1_S650000x128_1_0_0_1 x i u) : (⟨S50000x128, .f32⟩ : BufTy).Contents (Elt F) → (⟨S650000x1, .i32⟩ : BufTy).Contents (Elt F) → (⟨S650000x128, .f32⟩ : BufTy).Contents (Elt F) → (⟨S50000x128, .f32⟩ : BufTy).Contents (Elt F)) ]

/-- The second normalisation: operations 162 … 198 of @main. -/
abbrev opsF : List (HloOp τ sig (Elt F)) :=
  [ nullary main_cst_29 (constant S_ .f32 0x00000000#32),
    binary main_v125 main_cst_29 main_v126 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_30 (constant S_ .f32 0x47435000#32),
    unary main_cst_30 main_v127 (broadcastInDim S128 ![] bcast_S_S128 : (⟨S_, .f32⟩ : BufTy).Contents (Elt F) → (⟨S128, .f32⟩ : BufTy).Contents (Elt F)),
    binary main_v126 main_v127 main_v128 (Host.divf : (⟨S128, .f32⟩ : BufTy).Contents (Elt F) → (⟨S128, .f32⟩ : BufTy).Contents (Elt F) → (⟨S128, .f32⟩ : BufTy).Contents (Elt F)),
    unary main_v128 main_v129 (broadcastInDim S1x128 ![1] bcast_S128_S1x128_1 : (⟨S128, .f32⟩ : BufTy).Contents (Elt F) → (⟨S1x128, .f32⟩ : BufTy).Contents (Elt F)),
    unary main_v129 main_v130 (broadcastInDim S50000x128 ![0, 1] bcast_S1x128_S50000x128_0_1 : (⟨S1x128, .f32⟩ : BufTy).Contents (Elt F) → (⟨S50000x128, .f32⟩ : BufTy).Contents (Elt F)),
    binary main_v125 main_v130 main_v131 (subf : (⟨S50000x128, .f32⟩ : BufTy).Contents (Elt F) → (⟨S50000x128, .f32⟩ : BufTy).Contents (Elt F) → (⟨S50000x128, .f32⟩ : BufTy).Contents (Elt F)),
    binary main_v131 main_v131 main_v132 (mulf : (⟨S50000x128, .f32⟩ : BufTy).Contents (Elt F) → (⟨S50000x128, .f32⟩ : BufTy).Contents (Elt F) → (⟨S50000x128, .f32⟩ : BufTy).Contents (Elt F)),
    nullary main_cst_31 (constant S_ .f32 0x00000000#32),
    binary main_v132 main_cst_31 main_v133 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_32 (constant S_ .f32 0x47435000#32),
    unary main_cst_32 main_v134 (broadcastInDim S128 ![] bcast_S_S128 : (⟨S_, .f32⟩ : BufTy).Contents (Elt F) → (⟨S128, .f32⟩ : BufTy).Contents (Elt F)),
    binary main_v133 main_v134 main_v135 (Host.divf : (⟨S128, .f32⟩ : BufTy).Contents (Elt F) → (⟨S128, .f32⟩ : BufTy).Contents (Elt F) → (⟨S128, .f32⟩ : BufTy).Contents (Elt F)),
    unary main_v128 main_v136 (broadcastInDim S1x128 ![1] bcast_S128_S1x128_1 : (⟨S128, .f32⟩ : BufTy).Contents (Elt F) → (⟨S1x128, .f32⟩ : BufTy).Contents (Elt F)),
    unary main_v136 main_v137 (broadcastInDim S50000x128 ![0, 1] bcast_S1x128_S50000x128_0_1 : (⟨S1x128, .f32⟩ : BufTy).Contents (Elt F) → (⟨S50000x128, .f32⟩ : BufTy).Contents (Elt F)),
    binary main_v125 main_v137 main_v138 (subf : (⟨S50000x128, .f32⟩ : BufTy).Contents (Elt F) → (⟨S50000x128, .f32⟩ : BufTy).Contents (Elt F) → (⟨S50000x128, .f32⟩ : BufTy).Contents (Elt F)),
    nullary main_cst_33 (constant S_ .f32 0x3727C5AC#32),
    unary main_cst_33 main_v139 (broadcastInDim S128 ![] bcast_S_S128 : (⟨S_, .f32⟩ : BufTy).Contents (Elt F) → (⟨S128, .f32⟩ : BufTy).Contents (Elt F)),
    binary main_v135 main_v139 main_v140 (addf : (⟨S128, .f32⟩ : BufTy).Contents (Elt F) → (⟨S128, .f32⟩ : BufTy).Contents (Elt F) → (⟨S128, .f32⟩ : BufTy).Contents (Elt F)),
    unary main_v140 main_v141 (Host.rsqrt : (⟨S128, .f32⟩ : BufTy).Contents (Elt F) → (⟨S128, .f32⟩ : BufTy).Contents (Elt F)),
    unary main_v141 main_v142 (broadcastInDim S1x128 ![1] bcast_S128_S1x128_1 : (⟨S128, .f32⟩ : BufTy).Contents (Elt F) → (⟨S1x128, .f32⟩ : BufTy).Contents (Elt F)),
    unary main_v142 main_v143 (broadcastInDim S50000x128 ![0, 1] bcast_S1x128_S50000x128_0_1 : (⟨S1x128, .f32⟩ : BufTy).Contents (Elt F) → (⟨S50000x128, .f32⟩ : BufTy).Contents (Elt F)),
    binary main_v138 main_v143 main_v144 (mulf : (⟨S50000x128, .f32⟩ : BufTy).Contents (Elt F) → (⟨S50000x128, .f32⟩ : BufTy).Contents (Elt F) → (⟨S50000x128, .f32⟩ : BufTy).Contents (Elt F)),
    unary main_arg8 main_v145 (broadcastInDim S1x128 ![1] bcast_S128_S1x128_1 : (⟨S128, .f32⟩ : BufTy).Contents (Elt F) → (⟨S1x128, .f32⟩ : BufTy).Contents (Elt F)),
    unary main_v145 main_v146 (broadcastInDim S50000x128 ![0, 1] bcast_S1x128_S50000x128_0_1 : (⟨S1x128, .f32⟩ : BufTy).Contents (Elt F) → (⟨S50000x128, .f32⟩ : BufTy).Contents (Elt F)),
    binary main_v144 main_v146 main_v147 (mulf : (⟨S50000x128, .f32⟩ : BufTy).Contents (Elt F) → (⟨S50000x128, .f32⟩ : BufTy).Contents (Elt F) → (⟨S50000x128, .f32⟩ : BufTy).Contents (Elt F)),
    unary main_arg9 main_v148 (broadcastInDim S1x128 ![1] bcast_S128_S1x128_1 : (⟨S128, .f32⟩ : BufTy).Contents (Elt F) → (⟨S1x128, .f32⟩ : BufTy).Contents (Elt F)),
    unary main_v148 main_v149 (broadcastInDim S50000x128 ![0, 1] bcast_S1x128_S50000x128_0_1 : (⟨S1x128, .f32⟩ : BufTy).Contents (Elt F) → (⟨S50000x128, .f32⟩ : BufTy).Contents (Elt F)),
    binary main_v147 main_v149 main_v150 (addf : (⟨S50000x128, .f32⟩ : BufTy).Contents (Elt F) → (⟨S50000x128, .f32⟩ : BufTy).Contents (Elt F) → (⟨S50000x128, .f32⟩ : BufTy).Contents (Elt F)),
    nullary main_cst_34 (constant S_ .f32 0x00000000#32),
    unary main_cst_34 main_v151 (broadcastInDim S50000x128 ![] bcast_S_S50000x128 : (⟨S_, .f32⟩ : BufTy).Contents (Elt F) → (⟨S50000x128, .f32⟩ : BufTy).Contents (Elt F)),
    binary main_v150 main_v151 main_v152 (cmpf .oge : (⟨S50000x128, .f32⟩ : BufTy).Contents (Elt F) → (⟨S50000x128, .f32⟩ : BufTy).Contents (Elt F) → (⟨S50000x128, .i1⟩ : BufTy).Contents (Elt F)),
    nullary main_cst_35 (constant S_ .f32 0x3DCCCCCD#32),
    unary main_cst_35 main_v153 (broadcastInDim S50000x128 ![] bcast_S_S50000x128 : (⟨S_, .f32⟩ : BufTy).Contents (Elt F) → (⟨S50000x128, .f32⟩ : BufTy).Contents (Elt F)),
    binary main_v153 main_v150 main_v154 (mulf : (⟨S50000x128, .f32⟩ : BufTy).Contents (Elt F) → (⟨S50000x128, .f32⟩ : BufTy).Contents (Elt F) → (⟨S50000x128, .f32⟩ : BufTy).Contents (Elt F)),
    TRef.ternary (TRef.of (T := ⟨S50000x128, .i1⟩) main_v152) (TRef.of (T := ⟨S50000x128, .f32⟩) main_v150) (TRef.of (T := ⟨S50000x128, .f32⟩) main_v154) (TRef.of (T := ⟨S50000x128, .f32⟩) main_v155) select ]

set_option maxHeartbeats 4000000 in
/-- @main's operations are the eight stretches in order. -/
theorem ops_split : (ops : List (HloOp τ sig (Elt F))) = opsA ++ (opsB1 ++ (opsB2 ++ (opsC ++ (opsD ++ (opsE1 ++ (opsE2 ++ opsF)))))) := rfl

/-- The contents after all of @main are the contents after the stretches one after the other. -/
theorem after_ops (Wv : Valuation τ sig (Elt F)) :
    after ops Wv = after opsF (after opsE2 (after opsE1 (after opsD (after opsC (after opsB2 (after opsB1 (after opsA Wv))))))) := by
  rw [ops_split, StableHlo.after_append, StableHlo.after_append, StableHlo.after_append, StableHlo.after_append, StableHlo.after_append,
    StableHlo.after_append, StableHlo.after_append]

/-! ## What the stretches do not write -/

theorem keep_opsA_arg0 (Wv : Valuation τ sig (Elt F)) : after opsA Wv (Proc.devRef .tc main_arg0) = Wv (Proc.devRef .tc main_arg0) :=
  after_of_forall_not_mem (b := Proc.devRef .tc main_arg0) _ _ (List.forall_iff_forall_mem.mp (by
      simp only [opsA, List.Forall, nullary_writes, unary_writes, binary_writes, ternary_writes, quaternary_writes, reshape_writes, binaryIndexed_writes, TRef.unary, TRef.ternary, Finset.mem_singleton]
      repeat' apply And.intro
      all_goals exact devRef_ne_of_ne (by decide)))
theorem keep_opsA_arg1 (Wv : Valuation τ sig (Elt F)) : after opsA Wv (Proc.devRef .tc main_arg1) = Wv (Proc.devRef .tc main_arg1) :=
  after_of_forall_not_mem (b := Proc.devRef .tc main_arg1) _ _ (List.forall_iff_forall_mem.mp (by
      simp only [opsA, List.Forall, nullary_writes, unary_writes, binary_writes, ternary_writes, quaternary_writes, reshape_writes, binaryIndexed_writes, TRef.unary, TRef.ternary, Finset.mem_singleton]
      repeat' apply And.intro
      all_goals exact devRef_ne_of_ne (by decide)))
theorem keep_opsA_arg2 (Wv : Valuation τ sig (Elt F)) : after opsA Wv (Proc.devRef .tc main_arg2) = Wv (Proc.devRef .tc main_arg2) :=
  after_of_forall_not_mem (b := Proc.devRef .tc main_arg2) _ _ (List.forall_iff_forall_mem.mp (by
      simp only [opsA, List.Forall, nullary_writes, unary_writes, binary_writes, ternary_writes, quaternary_writes, reshape_writes, binaryIndexed_writes, TRef.unary, TRef.ternary, Finset.mem_singleton]
      repeat' apply And.intro
      all_goals exact devRef_ne_of_ne (by decide)))
theorem keep_opsA_arg3 (Wv : Valuation τ sig (Elt F)) : after opsA Wv (Proc.devRef .tc main_arg3) = Wv (Proc.devRef .tc main_arg3) :=
  after_of_forall_not_mem (b := Proc.devRef .tc main_arg3) _ _ (List.forall_iff_forall_mem.mp (by
      simp only [opsA, List.Forall, nullary_writes, unary_writes, binary_writes, ternary_writes, quaternary_writes, reshape_writes, binaryIndexed_writes, TRef.unary, TRef.ternary, Finset.mem_singleton]
      repeat' apply And.intro
      all_goals exact devRef_ne_of_ne (by decide)))
theorem keep_opsA_arg4 (Wv : Valuation τ sig (Elt F)) : after opsA Wv (Proc.devRef .tc main_arg4) = Wv (Proc.devRef .tc main_arg4) :=
  after_of_forall_not_mem (b := Proc.devRef .tc main_arg4) _ _ (List.forall_iff_forall_mem.mp (by
      simp only [opsA, List.Forall, nullary_writes, unary_writes, binary_writes, ternary_writes, quaternary_writes, reshape_writes, binaryIndexed_writes, TRef.unary, TRef.ternary, Finset.mem_singleton]
      repeat' apply And.intro
      all_goals exact devRef_ne_of_ne (by decide)))
theorem keep_opsA_arg5 (Wv : Valuation τ sig (Elt F)) : after opsA Wv (Proc.devRef .tc main_arg5) = Wv (Proc.devRef .tc main_arg5) :=
  after_of_forall_not_mem (b := Proc.devRef .tc main_arg5) _ _ (List.forall_iff_forall_mem.mp (by
      simp only [opsA, List.Forall, nullary_writes, unary_writes, binary_writes, ternary_writes, quaternary_writes, reshape_writes, binaryIndexed_writes, TRef.unary, TRef.ternary, Finset.mem_singleton]
      repeat' apply And.intro
      all_goals exact devRef_ne_of_ne (by decide)))
theorem keep_opsA_arg6 (Wv : Valuation τ sig (Elt F)) : after opsA Wv (Proc.devRef .tc main_arg6) = Wv (Proc.devRef .tc main_arg6) :=
  after_of_forall_not_mem (b := Proc.devRef .tc main_arg6) _ _ (List.forall_iff_forall_mem.mp (by
      simp only [opsA, List.Forall, nullary_writes, unary_writes, binary_writes, ternary_writes, quaternary_writes, reshape_writes, binaryIndexed_writes, TRef.unary, TRef.ternary, Finset.mem_singleton]
      repeat' apply And.intro
      all_goals exact devRef_ne_of_ne (by decide)))
theorem keep_opsA_arg7 (Wv : Valuation τ sig (Elt F)) : after opsA Wv (Proc.devRef .tc main_arg7) = Wv (Proc.devRef .tc main_arg7) :=
  after_of_forall_not_mem (b := Proc.devRef .tc main_arg7) _ _ (List.forall_iff_forall_mem.mp (by
      simp only [opsA, List.Forall, nullary_writes, unary_writes, binary_writes, ternary_writes, quaternary_writes, reshape_writes, binaryIndexed_writes, TRef.unary, TRef.ternary, Finset.mem_singleton]
      repeat' apply And.intro
      all_goals exact devRef_ne_of_ne (by decide)))
theorem keep_opsA_arg8 (Wv : Valuation τ sig (Elt F)) : after opsA Wv (Proc.devRef .tc main_arg8) = Wv (Proc.devRef .tc main_arg8) :=
  after_of_forall_not_mem (b := Proc.devRef .tc main_arg8) _ _ (List.forall_iff_forall_mem.mp (by
      simp only [opsA, List.Forall, nullary_writes, unary_writes, binary_writes, ternary_writes, quaternary_writes, reshape_writes, binaryIndexed_writes, TRef.unary, TRef.ternary, Finset.mem_singleton]
      repeat' apply And.intro
      all_goals exact devRef_ne_of_ne (by decide)))
theorem keep_opsA_arg9 (Wv : Valuation τ sig (Elt F)) : after opsA Wv (Proc.devRef .tc main_arg9) = Wv (Proc.devRef .tc main_arg9) :=
  after_of_forall_not_mem (b := Proc.devRef .tc main_arg9) _ _ (List.forall_iff_forall_mem.mp (by
      simp only [opsA, List.Forall, nullary_writes, unary_writes, binary_writes, ternary_writes, quaternary_writes, reshape_writes, binaryIndexed_writes, TRef.unary, TRef.ternary, Finset.mem_singleton]
      repeat' apply And.intro
      all_goals exact devRef_ne_of_ne (by decide)))
theorem keep_opsB1_arg0 (Wv : Valuation τ sig (Elt F)) : after opsB1 Wv (Proc.devRef .tc main_arg0) = Wv (Proc.devRef .tc main_arg0) :=
  after_of_forall_not_mem (b := Proc.devRef .tc main_arg0) _ _ (List.forall_iff_forall_mem.mp (by
      simp only [opsB1, List.Forall, nullary_writes, unary_writes, binary_writes, ternary_writes, quaternary_writes, reshape_writes, binaryIndexed_writes, TRef.unary, TRef.ternary, Finset.mem_singleton]
      repeat' apply And.intro
      all_goals exact devRef_ne_of_ne (by decide)))
theorem keep_opsB1_arg1 (Wv : Valuation τ sig (Elt F)) : after opsB1 Wv (Proc.devRef .tc main_arg1) = Wv (Proc.devRef .tc main_arg1) :=
  after_of_forall_not_mem (b := Proc.devRef .tc main_arg1) _ _ (List.forall_iff_forall_mem.mp (by
      simp only [opsB1, List.Forall, nullary_writes, unary_writes, binary_writes, ternary_writes, quaternary_writes, reshape_writes, binaryIndexed_writes, TRef.unary, TRef.ternary, Finset.mem_singleton]
      repeat' apply And.intro
      all_goals exact devRef_ne_of_ne (by decide)))
theorem keep_opsB1_arg2 (Wv : Valuation τ sig (Elt F)) : after opsB1 Wv (Proc.devRef .tc main_arg2) = Wv (Proc.devRef .tc main_arg2) :=
  after_of_forall_not_mem (b := Proc.devRef .tc main_arg2) _ _ (List.forall_iff_forall_mem.mp (by
      simp only [opsB1, List.Forall, nullary_writes, unary_writes, binary_writes, ternary_writes, quaternary_writes, reshape_writes, binaryIndexed_writes, TRef.unary, TRef.ternary, Finset.mem_singleton]
      repeat' apply And.intro
      all_goals exact devRef_ne_of_ne (by decide)))
theorem keep_opsB1_arg3 (Wv : Valuation τ sig (Elt F)) : after opsB1 Wv (Proc.devRef .tc main_arg3) = Wv (Proc.devRef .tc main_arg3) :=
  after_of_forall_not_mem (b := Proc.devRef .tc main_arg3) _ _ (List.forall_iff_forall_mem.mp (by
      simp only [opsB1, List.Forall, nullary_writes, unary_writes, binary_writes, ternary_writes, quaternary_writes, reshape_writes, binaryIndexed_writes, TRef.unary, TRef.ternary, Finset.mem_singleton]
      repeat' apply And.intro
      all_goals exact devRef_ne_of_ne (by decide)))
theorem keep_opsB1_arg4 (Wv : Valuation τ sig (Elt F)) : after opsB1 Wv (Proc.devRef .tc main_arg4) = Wv (Proc.devRef .tc main_arg4) :=
  after_of_forall_not_mem (b := Proc.devRef .tc main_arg4) _ _ (List.forall_iff_forall_mem.mp (by
      simp only [opsB1, List.Forall, nullary_writes, unary_writes, binary_writes, ternary_writes, quaternary_writes, reshape_writes, binaryIndexed_writes, TRef.unary, TRef.ternary, Finset.mem_singleton]
      repeat' apply And.intro
      all_goals exact devRef_ne_of_ne (by decide)))
theorem keep_opsB1_arg5 (Wv : Valuation τ sig (Elt F)) : after opsB1 Wv (Proc.devRef .tc main_arg5) = Wv (Proc.devRef .tc main_arg5) :=
  after_of_forall_not_mem (b := Proc.devRef .tc main_arg5) _ _ (List.forall_iff_forall_mem.mp (by
      simp only [opsB1, List.Forall, nullary_writes, unary_writes, binary_writes, ternary_writes, quaternary_writes, reshape_writes, binaryIndexed_writes, TRef.unary, TRef.ternary, Finset.mem_singleton]
      repeat' apply And.intro
      all_goals exact devRef_ne_of_ne (by decide)))
theorem keep_opsB1_arg6 (Wv : Valuation τ sig (Elt F)) : after opsB1 Wv (Proc.devRef .tc main_arg6) = Wv (Proc.devRef .tc main_arg6) :=
  after_of_forall_not_mem (b := Proc.devRef .tc main_arg6) _ _ (List.forall_iff_forall_mem.mp (by
      simp only [opsB1, List.Forall, nullary_writes, unary_writes, binary_writes, ternary_writes, quaternary_writes, reshape_writes, binaryIndexed_writes, TRef.unary, TRef.ternary, Finset.mem_singleton]
      repeat' apply And.intro
      all_goals exact devRef_ne_of_ne (by decide)))
theorem keep_opsB1_arg7 (Wv : Valuation τ sig (Elt F)) : after opsB1 Wv (Proc.devRef .tc main_arg7) = Wv (Proc.devRef .tc main_arg7) :=
  after_of_forall_not_mem (b := Proc.devRef .tc main_arg7) _ _ (List.forall_iff_forall_mem.mp (by
      simp only [opsB1, List.Forall, nullary_writes, unary_writes, binary_writes, ternary_writes, quaternary_writes, reshape_writes, binaryIndexed_writes, TRef.unary, TRef.ternary, Finset.mem_singleton]
      repeat' apply And.intro
      all_goals exact devRef_ne_of_ne (by decide)))
theorem keep_opsB1_arg8 (Wv : Valuation τ sig (Elt F)) : after opsB1 Wv (Proc.devRef .tc main_arg8) = Wv (Proc.devRef .tc main_arg8) :=
  after_of_forall_not_mem (b := Proc.devRef .tc main_arg8) _ _ (List.forall_iff_forall_mem.mp (by
      simp only [opsB1, List.Forall, nullary_writes, unary_writes, binary_writes, ternary_writes, quaternary_writes, reshape_writes, binaryIndexed_writes, TRef.unary, TRef.ternary, Finset.mem_singleton]
      repeat' apply And.intro
      all_goals exact devRef_ne_of_ne (by decide)))
theorem keep_opsB1_arg9 (Wv : Valuation τ sig (Elt F)) : after opsB1 Wv (Proc.devRef .tc main_arg9) = Wv (Proc.devRef .tc main_arg9) :=
  after_of_forall_not_mem (b := Proc.devRef .tc main_arg9) _ _ (List.forall_iff_forall_mem.mp (by
      simp only [opsB1, List.Forall, nullary_writes, unary_writes, binary_writes, ternary_writes, quaternary_writes, reshape_writes, binaryIndexed_writes, TRef.unary, TRef.ternary, Finset.mem_singleton]
      repeat' apply And.intro
      all_goals exact devRef_ne_of_ne (by decide)))
theorem keep_opsB2_arg0 (Wv : Valuation τ sig (Elt F)) : after opsB2 Wv (Proc.devRef .tc main_arg0) = Wv (Proc.devRef .tc main_arg0) :=
  after_of_forall_not_mem (b := Proc.devRef .tc main_arg0) _ _ (List.forall_iff_forall_mem.mp (by
      simp only [opsB2, List.Forall, nullary_writes, unary_writes, binary_writes, ternary_writes, quaternary_writes, reshape_writes, binaryIndexed_writes, TRef.unary, TRef.ternary, Finset.mem_singleton]
      repeat' apply And.intro
      all_goals exact devRef_ne_of_ne (by decide)))
theorem keep_opsB2_arg1 (Wv : Valuation τ sig (Elt F)) : after opsB2 Wv (Proc.devRef .tc main_arg1) = Wv (Proc.devRef .tc main_arg1) :=
  after_of_forall_not_mem (b := Proc.devRef .tc main_arg1) _ _ (List.forall_iff_forall_mem.mp (by
      simp only [opsB2, List.Forall, nullary_writes, unary_writes, binary_writes, ternary_writes, quaternary_writes, reshape_writes, binaryIndexed_writes, TRef.unary, TRef.ternary, Finset.mem_singleton]
      repeat' apply And.intro
      all_goals exact devRef_ne_of_ne (by decide)))
theorem keep_opsB2_arg2 (Wv : Valuation τ sig (Elt F)) : after opsB2 Wv (Proc.devRef .tc main_arg2) = Wv (Proc.devRef .tc main_arg2) :=
  after_of_forall_not_mem (b := Proc.devRef .tc main_arg2) _ _ (List.forall_iff_forall_mem.mp (by
      simp only [opsB2, List.Forall, nullary_writes, unary_writes, binary_writes, ternary_writes, quaternary_writes, reshape_writes, binaryIndexed_writes, TRef.unary, TRef.ternary, Finset.mem_singleton]
      repeat' apply And.intro
      all_goals exact devRef_ne_of_ne (by decide)))
theorem keep_opsB2_arg3 (Wv : Valuation τ sig (Elt F)) : after opsB2 Wv (Proc.devRef .tc main_arg3) = Wv (Proc.devRef .tc main_arg3) :=
  after_of_forall_not_mem (b := Proc.devRef .tc main_arg3) _ _ (List.forall_iff_forall_mem.mp (by
      simp only [opsB2, List.Forall, nullary_writes, unary_writes, binary_writes, ternary_writes, quaternary_writes, reshape_writes, binaryIndexed_writes, TRef.unary, TRef.ternary, Finset.mem_singleton]
      repeat' apply And.intro
      all_goals exact devRef_ne_of_ne (by decide)))
theorem keep_opsB2_arg4 (Wv : Valuation τ sig (Elt F)) : after opsB2 Wv (Proc.devRef .tc main_arg4) = Wv (Proc.devRef .tc main_arg4) :=
  after_of_forall_not_mem (b := Proc.devRef .tc main_arg4) _ _ (List.forall_iff_forall_mem.mp (by
      simp only [opsB2, List.Forall, nullary_writes, unary_writes, binary_writes, ternary_writes, quaternary_writes, reshape_writes, binaryIndexed_writes, TRef.unary, TRef.ternary, Finset.mem_singleton]
      repeat' apply And.intro
      all_goals exact devRef_ne_of_ne (by decide)))
theorem keep_opsB2_arg5 (Wv : Valuation τ sig (Elt F)) : after opsB2 Wv (Proc.devRef .tc main_arg5) = Wv (Proc.devRef .tc main_arg5) :=
  after_of_forall_not_mem (b := Proc.devRef .tc main_arg5) _ _ (List.forall_iff_forall_mem.mp (by
      simp only [opsB2, List.Forall, nullary_writes, unary_writes, binary_writes, ternary_writes, quaternary_writes, reshape_writes, binaryIndexed_writes, TRef.unary, TRef.ternary, Finset.mem_singleton]
      repeat' apply And.intro
      all_goals exact devRef_ne_of_ne (by decide)))
theorem keep_opsB2_arg6 (Wv : Valuation τ sig (Elt F)) : after opsB2 Wv (Proc.devRef .tc main_arg6) = Wv (Proc.devRef .tc main_arg6) :=
  after_of_forall_not_mem (b := Proc.devRef .tc main_arg6) _ _ (List.forall_iff_forall_mem.mp (by
      simp only [opsB2, List.Forall, nullary_writes, unary_writes, binary_writes, ternary_writes, quaternary_writes, reshape_writes, binaryIndexed_writes, TRef.unary, TRef.ternary, Finset.mem_singleton]
      repeat' apply And.intro
      all_goals exact devRef_ne_of_ne (by decide)))
theorem keep_opsB2_arg7 (Wv : Valuation τ sig (Elt F)) : after opsB2 Wv (Proc.devRef .tc main_arg7) = Wv (Proc.devRef .tc main_arg7) :=
  after_of_forall_not_mem (b := Proc.devRef .tc main_arg7) _ _ (List.forall_iff_forall_mem.mp (by
      simp only [opsB2, List.Forall, nullary_writes, unary_writes, binary_writes, ternary_writes, quaternary_writes, reshape_writes, binaryIndexed_writes, TRef.unary, TRef.ternary, Finset.mem_singleton]
      repeat' apply And.intro
      all_goals exact devRef_ne_of_ne (by decide)))
theorem keep_opsB2_arg8 (Wv : Valuation τ sig (Elt F)) : after opsB2 Wv (Proc.devRef .tc main_arg8) = Wv (Proc.devRef .tc main_arg8) :=
  after_of_forall_not_mem (b := Proc.devRef .tc main_arg8) _ _ (List.forall_iff_forall_mem.mp (by
      simp only [opsB2, List.Forall, nullary_writes, unary_writes, binary_writes, ternary_writes, quaternary_writes, reshape_writes, binaryIndexed_writes, TRef.unary, TRef.ternary, Finset.mem_singleton]
      repeat' apply And.intro
      all_goals exact devRef_ne_of_ne (by decide)))
theorem keep_opsB2_arg9 (Wv : Valuation τ sig (Elt F)) : after opsB2 Wv (Proc.devRef .tc main_arg9) = Wv (Proc.devRef .tc main_arg9) :=
  after_of_forall_not_mem (b := Proc.devRef .tc main_arg9) _ _ (List.forall_iff_forall_mem.mp (by
      simp only [opsB2, List.Forall, nullary_writes, unary_writes, binary_writes, ternary_writes, quaternary_writes, reshape_writes, binaryIndexed_writes, TRef.unary, TRef.ternary, Finset.mem_singleton]
      repeat' apply And.intro
      all_goals exact devRef_ne_of_ne (by decide)))
theorem keep_opsC_arg0 (Wv : Valuation τ sig (Elt F)) : after opsC Wv (Proc.devRef .tc main_arg0) = Wv (Proc.devRef .tc main_arg0) :=
  after_of_forall_not_mem (b := Proc.devRef .tc main_arg0) _ _ (List.forall_iff_forall_mem.mp (by
      simp only [opsC, List.Forall, nullary_writes, unary_writes, binary_writes, ternary_writes, quaternary_writes, reshape_writes, binaryIndexed_writes, TRef.unary, TRef.ternary, Finset.mem_singleton]
      repeat' apply And.intro
      all_goals exact devRef_ne_of_ne (by decide)))
theorem keep_opsC_arg1 (Wv : Valuation τ sig (Elt F)) : after opsC Wv (Proc.devRef .tc main_arg1) = Wv (Proc.devRef .tc main_arg1) :=
  after_of_forall_not_mem (b := Proc.devRef .tc main_arg1) _ _ (List.forall_iff_forall_mem.mp (by
      simp only [opsC, List.Forall, nullary_writes, unary_writes, binary_writes, ternary_writes, quaternary_writes, reshape_writes, binaryIndexed_writes, TRef.unary, TRef.ternary, Finset.mem_singleton]
      repeat' apply And.intro
      all_goals exact devRef_ne_of_ne (by decide)))
theorem keep_opsC_arg2 (Wv : Valuation τ sig (Elt F)) : after opsC Wv (Proc.devRef .tc main_arg2) = Wv (Proc.devRef .tc main_arg2) :=
  after_of_forall_not_mem (b := Proc.devRef .tc main_arg2) _ _ (List.forall_iff_forall_mem.mp (by
      simp only [opsC, List.Forall, nullary_writes, unary_writes, binary_writes, ternary_writes, quaternary_writes, reshape_writes, binaryIndexed_writes, TRef.unary, TRef.ternary, Finset.mem_singleton]
      repeat' apply And.intro
      all_goals exact devRef_ne_of_ne (by decide)))
theorem keep_opsC_arg3 (Wv : Valuation τ sig (Elt F)) : after opsC Wv (Proc.devRef .tc main_arg3) = Wv (Proc.devRef .tc main_arg3) :=
  after_of_forall_not_mem (b := Proc.devRef .tc main_arg3) _ _ (List.forall_iff_forall_mem.mp (by
      simp only [opsC, List.Forall, nullary_writes, unary_writes, binary_writes, ternary_writes, quaternary_writes, reshape_writes, binaryIndexed_writes, TRef.unary, TRef.ternary, Finset.mem_singleton]
      repeat' apply And.intro
      all_goals exact devRef_ne_of_ne (by decide)))
theorem keep_opsC_arg4 (Wv : Valuation τ sig (Elt F)) : after opsC Wv (Proc.devRef .tc main_arg4) = Wv (Proc.devRef .tc main_arg4) :=
  after_of_forall_not_mem (b := Proc.devRef .tc main_arg4) _ _ (List.forall_iff_forall_mem.mp (by
      simp only [opsC, List.Forall, nullary_writes, unary_writes, binary_writes, ternary_writes, quaternary_writes, reshape_writes, binaryIndexed_writes, TRef.unary, TRef.ternary, Finset.mem_singleton]
      repeat' apply And.intro
      all_goals exact devRef_ne_of_ne (by decide)))
theorem keep_opsC_arg5 (Wv : Valuation τ sig (Elt F)) : after opsC Wv (Proc.devRef .tc main_arg5) = Wv (Proc.devRef .tc main_arg5) :=
  after_of_forall_not_mem (b := Proc.devRef .tc main_arg5) _ _ (List.forall_iff_forall_mem.mp (by
      simp only [opsC, List.Forall, nullary_writes, unary_writes, binary_writes, ternary_writes, quaternary_writes, reshape_writes, binaryIndexed_writes, TRef.unary, TRef.ternary, Finset.mem_singleton]
      repeat' apply And.intro
      all_goals exact devRef_ne_of_ne (by decide)))
theorem keep_opsC_arg6 (Wv : Valuation τ sig (Elt F)) : after opsC Wv (Proc.devRef .tc main_arg6) = Wv (Proc.devRef .tc main_arg6) :=
  after_of_forall_not_mem (b := Proc.devRef .tc main_arg6) _ _ (List.forall_iff_forall_mem.mp (by
      simp only [opsC, List.Forall, nullary_writes, unary_writes, binary_writes, ternary_writes, quaternary_writes, reshape_writes, binaryIndexed_writes, TRef.unary, TRef.ternary, Finset.mem_singleton]
      repeat' apply And.intro
      all_goals exact devRef_ne_of_ne (by decide)))
theorem keep_opsC_arg7 (Wv : Valuation τ sig (Elt F)) : after opsC Wv (Proc.devRef .tc main_arg7) = Wv (Proc.devRef .tc main_arg7) :=
  after_of_forall_not_mem (b := Proc.devRef .tc main_arg7) _ _ (List.forall_iff_forall_mem.mp (by
      simp only [opsC, List.Forall, nullary_writes, unary_writes, binary_writes, ternary_writes, quaternary_writes, reshape_writes, binaryIndexed_writes, TRef.unary, TRef.ternary, Finset.mem_singleton]
      repeat' apply And.intro
      all_goals exact devRef_ne_of_ne (by decide)))
theorem keep_opsC_arg8 (Wv : Valuation τ sig (Elt F)) : after opsC Wv (Proc.devRef .tc main_arg8) = Wv (Proc.devRef .tc main_arg8) :=
  after_of_forall_not_mem (b := Proc.devRef .tc main_arg8) _ _ (List.forall_iff_forall_mem.mp (by
      simp only [opsC, List.Forall, nullary_writes, unary_writes, binary_writes, ternary_writes, quaternary_writes, reshape_writes, binaryIndexed_writes, TRef.unary, TRef.ternary, Finset.mem_singleton]
      repeat' apply And.intro
      all_goals exact devRef_ne_of_ne (by decide)))
theorem keep_opsC_arg9 (Wv : Valuation τ sig (Elt F)) : after opsC Wv (Proc.devRef .tc main_arg9) = Wv (Proc.devRef .tc main_arg9) :=
  after_of_forall_not_mem (b := Proc.devRef .tc main_arg9) _ _ (List.forall_iff_forall_mem.mp (by
      simp only [opsC, List.Forall, nullary_writes, unary_writes, binary_writes, ternary_writes, quaternary_writes, reshape_writes, binaryIndexed_writes, TRef.unary, TRef.ternary, Finset.mem_singleton]
      repeat' apply And.intro
      all_goals exact devRef_ne_of_ne (by decide)))
theorem keep_opsD_arg0 (Wv : Valuation τ sig (Elt F)) : after opsD Wv (Proc.devRef .tc main_arg0) = Wv (Proc.devRef .tc main_arg0) :=
  after_of_forall_not_mem (b := Proc.devRef .tc main_arg0) _ _ (List.forall_iff_forall_mem.mp (by
      simp only [opsD, List.Forall, nullary_writes, unary_writes, binary_writes, ternary_writes, quaternary_writes, reshape_writes, binaryIndexed_writes, TRef.unary, TRef.ternary, Finset.mem_singleton]
      repeat' apply And.intro
      all_goals exact devRef_ne_of_ne (by decide)))
theorem keep_opsD_arg1 (Wv : Valuation τ sig (Elt F)) : after opsD Wv (Proc.devRef .tc main_arg1) = Wv (Proc.devRef .tc main_arg1) :=
  after_of_forall_not_mem (b := Proc.devRef .tc main_arg1) _ _ (List.forall_iff_forall_mem.mp (by
      simp only [opsD, List.Forall, nullary_writes, unary_writes, binary_writes, ternary_writes, quaternary_writes, reshape_writes, binaryIndexed_writes, TRef.unary, TRef.ternary, Finset.mem_singleton]
      repeat' apply And.intro
      all_goals exact devRef_ne_of_ne (by decide)))
theorem keep_opsD_arg2 (Wv : Valuation τ sig (Elt F)) : after opsD Wv (Proc.devRef .tc main_arg2) = Wv (Proc.devRef .tc main_arg2) :=
  after_of_forall_not_mem (b := Proc.devRef .tc main_arg2) _ _ (List.forall_iff_forall_mem.mp (by
      simp only [opsD, List.Forall, nullary_writes, unary_writes, binary_writes, ternary_writes, quaternary_writes, reshape_writes, binaryIndexed_writes, TRef.unary, TRef.ternary, Finset.mem_singleton]
      repeat' apply And.intro
      all_goals exact devRef_ne_of_ne (by decide)))
theorem keep_opsD_arg3 (Wv : Valuation τ sig (Elt F)) : after opsD Wv (Proc.devRef .tc main_arg3) = Wv (Proc.devRef .tc main_arg3) :=
  after_of_forall_not_mem (b := Proc.devRef .tc main_arg3) _ _ (List.forall_iff_forall_mem.mp (by
      simp only [opsD, List.Forall, nullary_writes, unary_writes, binary_writes, ternary_writes, quaternary_writes, reshape_writes, binaryIndexed_writes, TRef.unary, TRef.ternary, Finset.mem_singleton]
      repeat' apply And.intro
      all_goals exact devRef_ne_of_ne (by decide)))
theorem keep_opsD_arg4 (Wv : Valuation τ sig (Elt F)) : after opsD Wv (Proc.devRef .tc main_arg4) = Wv (Proc.devRef .tc main_arg4) :=
  after_of_forall_not_mem (b := Proc.devRef .tc main_arg4) _ _ (List.forall_iff_forall_mem.mp (by
      simp only [opsD, List.Forall, nullary_writes, unary_writes, binary_writes, ternary_writes, quaternary_writes, reshape_writes, binaryIndexed_writes, TRef.unary, TRef.ternary, Finset.mem_singleton]
      repeat' apply And.intro
      all_goals exact devRef_ne_of_ne (by decide)))
theorem keep_opsD_arg5 (Wv : Valuation τ sig (Elt F)) : after opsD Wv (Proc.devRef .tc main_arg5) = Wv (Proc.devRef .tc main_arg5) :=
  after_of_forall_not_mem (b := Proc.devRef .tc main_arg5) _ _ (List.forall_iff_forall_mem.mp (by
      simp only [opsD, List.Forall, nullary_writes, unary_writes, binary_writes, ternary_writes, quaternary_writes, reshape_writes, binaryIndexed_writes, TRef.unary, TRef.ternary, Finset.mem_singleton]
      repeat' apply And.intro
      all_goals exact devRef_ne_of_ne (by decide)))
theorem keep_opsD_arg6 (Wv : Valuation τ sig (Elt F)) : after opsD Wv (Proc.devRef .tc main_arg6) = Wv (Proc.devRef .tc main_arg6) :=
  after_of_forall_not_mem (b := Proc.devRef .tc main_arg6) _ _ (List.forall_iff_forall_mem.mp (by
      simp only [opsD, List.Forall, nullary_writes, unary_writes, binary_writes, ternary_writes, quaternary_writes, reshape_writes, binaryIndexed_writes, TRef.unary, TRef.ternary, Finset.mem_singleton]
      repeat' apply And.intro
      all_goals exact devRef_ne_of_ne (by decide)))
theorem keep_opsD_arg7 (Wv : Valuation τ sig (Elt F)) : after opsD Wv (Proc.devRef .tc main_arg7) = Wv (Proc.devRef .tc main_arg7) :=
  after_of_forall_not_mem (b := Proc.devRef .tc main_arg7) _ _ (List.forall_iff_forall_mem.mp (by
      simp only [opsD, List.Forall, nullary_writes, unary_writes, binary_writes, ternary_writes, quaternary_writes, reshape_writes, binaryIndexed_writes, TRef.unary, TRef.ternary, Finset.mem_singleton]
      repeat' apply And.intro
      all_goals exact devRef_ne_of_ne (by decide)))
theorem keep_opsD_arg8 (Wv : Valuation τ sig (Elt F)) : after opsD Wv (Proc.devRef .tc main_arg8) = Wv (Proc.devRef .tc main_arg8) :=
  after_of_forall_not_mem (b := Proc.devRef .tc main_arg8) _ _ (List.forall_iff_forall_mem.mp (by
      simp only [opsD, List.Forall, nullary_writes, unary_writes, binary_writes, ternary_writes, quaternary_writes, reshape_writes, binaryIndexed_writes, TRef.unary, TRef.ternary, Finset.mem_singleton]
      repeat' apply And.intro
      all_goals exact devRef_ne_of_ne (by decide)))
theorem keep_opsD_arg9 (Wv : Valuation τ sig (Elt F)) : after opsD Wv (Proc.devRef .tc main_arg9) = Wv (Proc.devRef .tc main_arg9) :=
  after_of_forall_not_mem (b := Proc.devRef .tc main_arg9) _ _ (List.forall_iff_forall_mem.mp (by
      simp only [opsD, List.Forall, nullary_writes, unary_writes, binary_writes, ternary_writes, quaternary_writes, reshape_writes, binaryIndexed_writes, TRef.unary, TRef.ternary, Finset.mem_singleton]
      repeat' apply And.intro
      all_goals exact devRef_ne_of_ne (by decide)))
theorem keep_opsE1_arg0 (Wv : Valuation τ sig (Elt F)) : after opsE1 Wv (Proc.devRef .tc main_arg0) = Wv (Proc.devRef .tc main_arg0) :=
  after_of_forall_not_mem (b := Proc.devRef .tc main_arg0) _ _ (List.forall_iff_forall_mem.mp (by
      simp only [opsE1, List.Forall, nullary_writes, unary_writes, binary_writes, ternary_writes, quaternary_writes, reshape_writes, binaryIndexed_writes, TRef.unary, TRef.ternary, Finset.mem_singleton]
      repeat' apply And.intro
      all_goals exact devRef_ne_of_ne (by decide)))
theorem keep_opsE1_arg1 (Wv : Valuation τ sig (Elt F)) : after opsE1 Wv (Proc.devRef .tc main_arg1) = Wv (Proc.devRef .tc main_arg1) :=
  after_of_forall_not_mem (b := Proc.devRef .tc main_arg1) _ _ (List.forall_iff_forall_mem.mp (by
      simp only [opsE1, List.Forall, nullary_writes, unary_writes, binary_writes, ternary_writes, quaternary_writes, reshape_writes, binaryIndexed_writes, TRef.unary, TRef.ternary, Finset.mem_singleton]
      repeat' apply And.intro
      all_goals exact devRef_ne_of_ne (by decide)))
theorem keep_opsE1_arg2 (Wv : Valuation τ sig (Elt F)) : after opsE1 Wv (Proc.devRef .tc main_arg2) = Wv (Proc.devRef .tc main_arg2) :=
  after_of_forall_not_mem (b := Proc.devRef .tc main_arg2) _ _ (List.forall_iff_forall_mem.mp (by
      simp only [opsE1, List.Forall, nullary_writes, unary_writes, binary_writes, ternary_writes, quaternary_writes, reshape_writes, binaryIndexed_writes, TRef.unary, TRef.ternary, Finset.mem_singleton]
      repeat' apply And.intro
      all_goals exact devRef_ne_of_ne (by decide)))
theorem keep_opsE1_arg3 (Wv : Valuation τ sig (Elt F)) : after opsE1 Wv (Proc.devRef .tc main_arg3) = Wv (Proc.devRef .tc main_arg3) :=
  after_of_forall_not_mem (b := Proc.devRef .tc main_arg3) _ _ (List.forall_iff_forall_mem.mp (by
      simp only [opsE1, List.Forall, nullary_writes, unary_writes, binary_writes, ternary_writes, quaternary_writes, reshape_writes, binaryIndexed_writes, TRef.unary, TRef.ternary, Finset.mem_singleton]
      repeat' apply And.intro
      all_goals exact devRef_ne_of_ne (by decide)))
theorem keep_opsE1_arg4 (Wv : Valuation τ sig (Elt F)) : after opsE1 Wv (Proc.devRef .tc main_arg4) = Wv (Proc.devRef .tc main_arg4) :=
  after_of_forall_not_mem (b := Proc.devRef .tc main_arg4) _ _ (List.forall_iff_forall_mem.mp (by
      simp only [opsE1, List.Forall, nullary_writes, unary_writes, binary_writes, ternary_writes, quaternary_writes, reshape_writes, binaryIndexed_writes, TRef.unary, TRef.ternary, Finset.mem_singleton]
      repeat' apply And.intro
      all_goals exact devRef_ne_of_ne (by decide)))
theorem keep_opsE1_arg5 (Wv : Valuation τ sig (Elt F)) : after opsE1 Wv (Proc.devRef .tc main_arg5) = Wv (Proc.devRef .tc main_arg5) :=
  after_of_forall_not_mem (b := Proc.devRef .tc main_arg5) _ _ (List.forall_iff_forall_mem.mp (by
      simp only [opsE1, List.Forall, nullary_writes, unary_writes, binary_writes, ternary_writes, quaternary_writes, reshape_writes, binaryIndexed_writes, TRef.unary, TRef.ternary, Finset.mem_singleton]
      repeat' apply And.intro
      all_goals exact devRef_ne_of_ne (by decide)))
theorem keep_opsE1_arg6 (Wv : Valuation τ sig (Elt F)) : after opsE1 Wv (Proc.devRef .tc main_arg6) = Wv (Proc.devRef .tc main_arg6) :=
  after_of_forall_not_mem (b := Proc.devRef .tc main_arg6) _ _ (List.forall_iff_forall_mem.mp (by
      simp only [opsE1, List.Forall, nullary_writes, unary_writes, binary_writes, ternary_writes, quaternary_writes, reshape_writes, binaryIndexed_writes, TRef.unary, TRef.ternary, Finset.mem_singleton]
      repeat' apply And.intro
      all_goals exact devRef_ne_of_ne (by decide)))
theorem keep_opsE1_arg7 (Wv : Valuation τ sig (Elt F)) : after opsE1 Wv (Proc.devRef .tc main_arg7) = Wv (Proc.devRef .tc main_arg7) :=
  after_of_forall_not_mem (b := Proc.devRef .tc main_arg7) _ _ (List.forall_iff_forall_mem.mp (by
      simp only [opsE1, List.Forall, nullary_writes, unary_writes, binary_writes, ternary_writes, quaternary_writes, reshape_writes, binaryIndexed_writes, TRef.unary, TRef.ternary, Finset.mem_singleton]
      repeat' apply And.intro
      all_goals exact devRef_ne_of_ne (by decide)))
theorem keep_opsE1_arg8 (Wv : Valuation τ sig (Elt F)) : after opsE1 Wv (Proc.devRef .tc main_arg8) = Wv (Proc.devRef .tc main_arg8) :=
  after_of_forall_not_mem (b := Proc.devRef .tc main_arg8) _ _ (List.forall_iff_forall_mem.mp (by
      simp only [opsE1, List.Forall, nullary_writes, unary_writes, binary_writes, ternary_writes, quaternary_writes, reshape_writes, binaryIndexed_writes, TRef.unary, TRef.ternary, Finset.mem_singleton]
      repeat' apply And.intro
      all_goals exact devRef_ne_of_ne (by decide)))
theorem keep_opsE1_arg9 (Wv : Valuation τ sig (Elt F)) : after opsE1 Wv (Proc.devRef .tc main_arg9) = Wv (Proc.devRef .tc main_arg9) :=
  after_of_forall_not_mem (b := Proc.devRef .tc main_arg9) _ _ (List.forall_iff_forall_mem.mp (by
      simp only [opsE1, List.Forall, nullary_writes, unary_writes, binary_writes, ternary_writes, quaternary_writes, reshape_writes, binaryIndexed_writes, TRef.unary, TRef.ternary, Finset.mem_singleton]
      repeat' apply And.intro
      all_goals exact devRef_ne_of_ne (by decide)))
theorem keep_opsE2_arg0 (Wv : Valuation τ sig (Elt F)) : after opsE2 Wv (Proc.devRef .tc main_arg0) = Wv (Proc.devRef .tc main_arg0) :=
  after_of_forall_not_mem (b := Proc.devRef .tc main_arg0) _ _ (List.forall_iff_forall_mem.mp (by
      simp only [opsE2, List.Forall, nullary_writes, unary_writes, binary_writes, ternary_writes, quaternary_writes, reshape_writes, binaryIndexed_writes, TRef.unary, TRef.ternary, Finset.mem_singleton]
      repeat' apply And.intro
      all_goals exact devRef_ne_of_ne (by decide)))
theorem keep_opsE2_arg1 (Wv : Valuation τ sig (Elt F)) : after opsE2 Wv (Proc.devRef .tc main_arg1) = Wv (Proc.devRef .tc main_arg1) :=
  after_of_forall_not_mem (b := Proc.devRef .tc main_arg1) _ _ (List.forall_iff_forall_mem.mp (by
      simp only [opsE2, List.Forall, nullary_writes, unary_writes, binary_writes, ternary_writes, quaternary_writes, reshape_writes, binaryIndexed_writes, TRef.unary, TRef.ternary, Finset.mem_singleton]
      repeat' apply And.intro
      all_goals exact devRef_ne_of_ne (by decide)))
theorem keep_opsE2_arg2 (Wv : Valuation τ sig (Elt F)) : after opsE2 Wv (Proc.devRef .tc main_arg2) = Wv (Proc.devRef .tc main_arg2) :=
  after_of_forall_not_mem (b := Proc.devRef .tc main_arg2) _ _ (List.forall_iff_forall_mem.mp (by
      simp only [opsE2, List.Forall, nullary_writes, unary_writes, binary_writes, ternary_writes, quaternary_writes, reshape_writes, binaryIndexed_writes, TRef.unary, TRef.ternary, Finset.mem_singleton]
      repeat' apply And.intro
      all_goals exact devRef_ne_of_ne (by decide)))
theorem keep_opsE2_arg3 (Wv : Valuation τ sig (Elt F)) : after opsE2 Wv (Proc.devRef .tc main_arg3) = Wv (Proc.devRef .tc main_arg3) :=
  after_of_forall_not_mem (b := Proc.devRef .tc main_arg3) _ _ (List.forall_iff_forall_mem.mp (by
      simp only [opsE2, List.Forall, nullary_writes, unary_writes, binary_writes, ternary_writes, quaternary_writes, reshape_writes, binaryIndexed_writes, TRef.unary, TRef.ternary, Finset.mem_singleton]
      repeat' apply And.intro
      all_goals exact devRef_ne_of_ne (by decide)))
theorem keep_opsE2_arg4 (Wv : Valuation τ sig (Elt F)) : after opsE2 Wv (Proc.devRef .tc main_arg4) = Wv (Proc.devRef .tc main_arg4) :=
  after_of_forall_not_mem (b := Proc.devRef .tc main_arg4) _ _ (List.forall_iff_forall_mem.mp (by
      simp only [opsE2, List.Forall, nullary_writes, unary_writes, binary_writes, ternary_writes, quaternary_writes, reshape_writes, binaryIndexed_writes, TRef.unary, TRef.ternary, Finset.mem_singleton]
      repeat' apply And.intro
      all_goals exact devRef_ne_of_ne (by decide)))
theorem keep_opsE2_arg5 (Wv : Valuation τ sig (Elt F)) : after opsE2 Wv (Proc.devRef .tc main_arg5) = Wv (Proc.devRef .tc main_arg5) :=
  after_of_forall_not_mem (b := Proc.devRef .tc main_arg5) _ _ (List.forall_iff_forall_mem.mp (by
      simp only [opsE2, List.Forall, nullary_writes, unary_writes, binary_writes, ternary_writes, quaternary_writes, reshape_writes, binaryIndexed_writes, TRef.unary, TRef.ternary, Finset.mem_singleton]
      repeat' apply And.intro
      all_goals exact devRef_ne_of_ne (by decide)))
theorem keep_opsE2_arg6 (Wv : Valuation τ sig (Elt F)) : after opsE2 Wv (Proc.devRef .tc main_arg6) = Wv (Proc.devRef .tc main_arg6) :=
  after_of_forall_not_mem (b := Proc.devRef .tc main_arg6) _ _ (List.forall_iff_forall_mem.mp (by
      simp only [opsE2, List.Forall, nullary_writes, unary_writes, binary_writes, ternary_writes, quaternary_writes, reshape_writes, binaryIndexed_writes, TRef.unary, TRef.ternary, Finset.mem_singleton]
      repeat' apply And.intro
      all_goals exact devRef_ne_of_ne (by decide)))
theorem keep_opsE2_arg7 (Wv : Valuation τ sig (Elt F)) : after opsE2 Wv (Proc.devRef .tc main_arg7) = Wv (Proc.devRef .tc main_arg7) :=
  after_of_forall_not_mem (b := Proc.devRef .tc main_arg7) _ _ (List.forall_iff_forall_mem.mp (by
      simp only [opsE2, List.Forall, nullary_writes, unary_writes, binary_writes, ternary_writes, quaternary_writes, reshape_writes, binaryIndexed_writes, TRef.unary, TRef.ternary, Finset.mem_singleton]
      repeat' apply And.intro
      all_goals exact devRef_ne_of_ne (by decide)))
theorem keep_opsE2_arg8 (Wv : Valuation τ sig (Elt F)) : after opsE2 Wv (Proc.devRef .tc main_arg8) = Wv (Proc.devRef .tc main_arg8) :=
  after_of_forall_not_mem (b := Proc.devRef .tc main_arg8) _ _ (List.forall_iff_forall_mem.mp (by
      simp only [opsE2, List.Forall, nullary_writes, unary_writes, binary_writes, ternary_writes, quaternary_writes, reshape_writes, binaryIndexed_writes, TRef.unary, TRef.ternary, Finset.mem_singleton]
      repeat' apply And.intro
      all_goals exact devRef_ne_of_ne (by decide)))
theorem keep_opsE2_arg9 (Wv : Valuation τ sig (Elt F)) : after opsE2 Wv (Proc.devRef .tc main_arg9) = Wv (Proc.devRef .tc main_arg9) :=
  after_of_forall_not_mem (b := Proc.devRef .tc main_arg9) _ _ (List.forall_iff_forall_mem.mp (by
      simp only [opsE2, List.Forall, nullary_writes, unary_writes, binary_writes, ternary_writes, quaternary_writes, reshape_writes, binaryIndexed_writes, TRef.unary, TRef.ternary, Finset.mem_singleton]
      repeat' apply And.intro
      all_goals exact devRef_ne_of_ne (by decide)))
theorem keep_opsF_arg0 (Wv : Valuation τ sig (Elt F)) : after opsF Wv (Proc.devRef .tc main_arg0) = Wv (Proc.devRef .tc main_arg0) :=
  after_of_forall_not_mem (b := Proc.devRef .tc main_arg0) _ _ (List.forall_iff_forall_mem.mp (by
      simp only [opsF, List.Forall, nullary_writes, unary_writes, binary_writes, ternary_writes, quaternary_writes, reshape_writes, binaryIndexed_writes, TRef.unary, TRef.ternary, Finset.mem_singleton]
      repeat' apply And.intro
      all_goals exact devRef_ne_of_ne (by decide)))
theorem keep_opsF_arg1 (Wv : Valuation τ sig (Elt F)) : after opsF Wv (Proc.devRef .tc main_arg1) = Wv (Proc.devRef .tc main_arg1) :=
  after_of_forall_not_mem (b := Proc.devRef .tc main_arg1) _ _ (List.forall_iff_forall_mem.mp (by
      simp only [opsF, List.Forall, nullary_writes, unary_writes, binary_writes, ternary_writes, quaternary_writes, reshape_writes, binaryIndexed_writes, TRef.unary, TRef.ternary, Finset.mem_singleton]
      repeat' apply And.intro
      all_goals exact devRef_ne_of_ne (by decide)))
theorem keep_opsF_arg2 (Wv : Valuation τ sig (Elt F)) : after opsF Wv (Proc.devRef .tc main_arg2) = Wv (Proc.devRef .tc main_arg2) :=
  after_of_forall_not_mem (b := Proc.devRef .tc main_arg2) _ _ (List.forall_iff_forall_mem.mp (by
      simp only [opsF, List.Forall, nullary_writes, unary_writes, binary_writes, ternary_writes, quaternary_writes, reshape_writes, binaryIndexed_writes, TRef.unary, TRef.ternary, Finset.mem_singleton]
      repeat' apply And.intro
      all_goals exact devRef_ne_of_ne (by decide)))
theorem keep_opsF_arg3 (Wv : Valuation τ sig (Elt F)) : after opsF Wv (Proc.devRef .tc main_arg3) = Wv (Proc.devRef .tc main_arg3) :=
  after_of_forall_not_mem (b := Proc.devRef .tc main_arg3) _ _ (List.forall_iff_forall_mem.mp (by
      simp only [opsF, List.Forall, nullary_writes, unary_writes, binary_writes, ternary_writes, quaternary_writes, reshape_writes, binaryIndexed_writes, TRef.unary, TRef.ternary, Finset.mem_singleton]
      repeat' apply And.intro
      all_goals exact devRef_ne_of_ne (by decide)))
theorem keep_opsF_arg4 (Wv : Valuation τ sig (Elt F)) : after opsF Wv (Proc.devRef .tc main_arg4) = Wv (Proc.devRef .tc main_arg4) :=
  after_of_forall_not_mem (b := Proc.devRef .tc main_arg4) _ _ (List.forall_iff_forall_mem.mp (by
      simp only [opsF, List.Forall, nullary_writes, unary_writes, binary_writes, ternary_writes, quaternary_writes, reshape_writes, binaryIndexed_writes, TRef.unary, TRef.ternary, Finset.mem_singleton]
      repeat' apply And.intro
      all_goals exact devRef_ne_of_ne (by decide)))
theorem keep_opsF_arg5 (Wv : Valuation τ sig (Elt F)) : after opsF Wv (Proc.devRef .tc main_arg5) = Wv (Proc.devRef .tc main_arg5) :=
  after_of_forall_not_mem (b := Proc.devRef .tc main_arg5) _ _ (List.forall_iff_forall_mem.mp (by
      simp only [opsF, List.Forall, nullary_writes, unary_writes, binary_writes, ternary_writes, quaternary_writes, reshape_writes, binaryIndexed_writes, TRef.unary, TRef.ternary, Finset.mem_singleton]
      repeat' apply And.intro
      all_goals exact devRef_ne_of_ne (by decide)))
theorem keep_opsF_arg6 (Wv : Valuation τ sig (Elt F)) : after opsF Wv (Proc.devRef .tc main_arg6) = Wv (Proc.devRef .tc main_arg6) :=
  after_of_forall_not_mem (b := Proc.devRef .tc main_arg6) _ _ (List.forall_iff_forall_mem.mp (by
      simp only [opsF, List.Forall, nullary_writes, unary_writes, binary_writes, ternary_writes, quaternary_writes, reshape_writes, binaryIndexed_writes, TRef.unary, TRef.ternary, Finset.mem_singleton]
      repeat' apply And.intro
      all_goals exact devRef_ne_of_ne (by decide)))
theorem keep_opsF_arg7 (Wv : Valuation τ sig (Elt F)) : after opsF Wv (Proc.devRef .tc main_arg7) = Wv (Proc.devRef .tc main_arg7) :=
  after_of_forall_not_mem (b := Proc.devRef .tc main_arg7) _ _ (List.forall_iff_forall_mem.mp (by
      simp only [opsF, List.Forall, nullary_writes, unary_writes, binary_writes, ternary_writes, quaternary_writes, reshape_writes, binaryIndexed_writes, TRef.unary, TRef.ternary, Finset.mem_singleton]
      repeat' apply And.intro
      all_goals exact devRef_ne_of_ne (by decide)))
theorem keep_opsF_arg8 (Wv : Valuation τ sig (Elt F)) : after opsF Wv (Proc.devRef .tc main_arg8) = Wv (Proc.devRef .tc main_arg8) :=
  after_of_forall_not_mem (b := Proc.devRef .tc main_arg8) _ _ (List.forall_iff_forall_mem.mp (by
      simp only [opsF, List.Forall, nullary_writes, unary_writes, binary_writes, ternary_writes, quaternary_writes, reshape_writes, binaryIndexed_writes, TRef.unary, TRef.ternary, Finset.mem_singleton]
      repeat' apply And.intro
      all_goals exact devRef_ne_of_ne (by decide)))
theorem keep_opsF_arg9 (Wv : Valuation τ sig (Elt F)) : after opsF Wv (Proc.devRef .tc main_arg9) = Wv (Proc.devRef .tc main_arg9) :=
  after_of_forall_not_mem (b := Proc.devRef .tc main_arg9) _ _ (List.forall_iff_forall_mem.mp (by
      simp only [opsF, List.Forall, nullary_writes, unary_writes, binary_writes, ternary_writes, quaternary_writes, reshape_writes, binaryIndexed_writes, TRef.unary, TRef.ternary, Finset.mem_singleton]
      repeat' apply And.intro
      all_goals exact devRef_ne_of_ne (by decide)))
theorem keep_opsB1_v3 (Wv : Valuation τ sig (Elt F)) : after opsB1 Wv (Proc.devRef .tc main_v3) = Wv (Proc.devRef .tc main_v3) :=
  after_of_forall_not_mem (b := Proc.devRef .tc main_v3) _ _ (List.forall_iff_forall_mem.mp (by
      simp only [opsB1, List.Forall, nullary_writes, unary_writes, binary_writes, ternary_writes, quaternary_writes, reshape_writes, binaryIndexed_writes, TRef.unary, TRef.ternary, Finset.mem_singleton]
      repeat' apply And.intro
      all_goals exact devRef_ne_of_ne (by decide)))
theorem keep_opsB1_v6 (Wv : Valuation τ sig (Elt F)) : after opsB1 Wv (Proc.devRef .tc main_v6) = Wv (Proc.devRef .tc main_v6) :=
  after_of_forall_not_mem (b := Proc.devRef .tc main_v6) _ _ (List.forall_iff_forall_mem.mp (by
      simp only [opsB1, List.Forall, nullary_writes, unary_writes, binary_writes, ternary_writes, quaternary_writes, reshape_writes, binaryIndexed_writes, TRef.unary, TRef.ternary, Finset.mem_singleton]
      repeat' apply And.intro
      all_goals exact devRef_ne_of_ne (by decide)))
theorem keep_opsB1_v10 (Wv : Valuation τ sig (Elt F)) : after opsB1 Wv (Proc.devRef .tc main_v10) = Wv (Proc.devRef .tc main_v10) :=
  after_of_forall_not_mem (b := Proc.devRef .tc main_v10) _ _ (List.forall_iff_forall_mem.mp (by
      simp only [opsB1, List.Forall, nullary_writes, unary_writes, binary_writes, ternary_writes, quaternary_writes, reshape_writes, binaryIndexed_writes, TRef.unary, TRef.ternary, Finset.mem_singleton]
      repeat' apply And.intro
      all_goals exact devRef_ne_of_ne (by decide)))
theorem keep_opsE1_v81 (Wv : Valuation τ sig (Elt F)) : after opsE1 Wv (Proc.devRef .tc main_v81) = Wv (Proc.devRef .tc main_v81) :=
  after_of_forall_not_mem (b := Proc.devRef .tc main_v81) _ _ (List.forall_iff_forall_mem.mp (by
      simp only [opsE1, List.Forall, nullary_writes, unary_writes, binary_writes, ternary_writes, quaternary_writes, reshape_writes, binaryIndexed_writes, TRef.unary, TRef.ternary, Finset.mem_singleton]
      repeat' apply And.intro
      all_goals exact devRef_ne_of_ne (by decide)))
theorem keep_opsE1_v84 (Wv : Valuation τ sig (Elt F)) : after opsE1 Wv (Proc.devRef .tc main_v84) = Wv (Proc.devRef .tc main_v84) :=
  after_of_forall_not_mem (b := Proc.devRef .tc main_v84) _ _ (List.forall_iff_forall_mem.mp (by
      simp only [opsE1, List.Forall, nullary_writes, unary_writes, binary_writes, ternary_writes, quaternary_writes, reshape_writes, binaryIndexed_writes, TRef.unary, TRef.ternary, Finset.mem_singleton]
      repeat' apply And.intro
      all_goals exact devRef_ne_of_ne (by decide)))
theorem keep_opsE1_v88 (Wv : Valuation τ sig (Elt F)) : after opsE1 Wv (Proc.devRef .tc main_v88) = Wv (Proc.devRef .tc main_v88) :=
  after_of_forall_not_mem (b := Proc.devRef .tc main_v88) _ _ (List.forall_iff_forall_mem.mp (by
      simp only [opsE1, List.Forall, nullary_writes, unary_writes, binary_writes, ternary_writes, quaternary_writes, reshape_writes, binaryIndexed_writes, TRef.unary, TRef.ternary, Finset.mem_singleton]
      repeat' apply And.intro
      all_goals exact devRef_ne_of_ne (by decide)))

end Cert.ReferenceIdeal.ValueP

end
-- ==== Proof.RefGlue.lean ====
/-
  Batch normalisation over the rows of a [50000, 128] matrix followed by the leaky rectifier, as the host lines spell it —
  two sums over the rows from zero, divided by the count; the centred matrix; its squares summed and divided; the reciprocal
  root of the variance plus epsilon; scale, shift, rectifier, every vector laid along the rows — read at an entry.
-/
import proofs.«126232_j32822140076791_1_alg».proof.Proof.Gen.ReferenceIdeal
import proofs.«126232_j32822140076791_1_alg».proof.Proof.LibBiasRows
import proofs.«126232_j32822140076791_1_alg».proof.Proof.Spec
import Idealize.ShloMosaic.Lib.Pipeline.Value
import Idealize.ShloMosaic.PureOps.Ideal.Laws

noncomputable section

namespace Cert.GcnRef

open Cert.ReferenceIdeal Cert.ReferenceIdeal.Facts₀ Cert.ReferenceIdeal.Facts Cert.Gcn
open Idealize.ShloMosaic Idealize.ShloMosaic.ValueIdx
open scoped BigOperators

section Defs

variable {F : FTy → Type} [FloatOps F]

/-- A vector of 128 entries laid along 50000 rows. -/
def lay (v : FVec F S128 .f32) : FVec F S50000x128 .f32 :=
  broadcastInDim S50000x128 ![0, 1] bcast_S1x128_S50000x128_0_1 (broadcastInDim S1x128 ![1] bcast_S128_S1x128_1 v)

/-- The column sums from zero, divided by the count word. -/
def meanHost (h : FVec F S50000x128 .f32) : FVec F S128 .f32 :=
  Host.divf (Host.reduceAdd h (constant S_ .f32 0x00000000#32) reducesTo_S50000x128_S128_d0 h_S_)
    (broadcastInDim S128 ![] bcast_S_S128 (constant S_ .f32 0x47435000#32))

/-- The column sums of the squared deviations from the mean, divided by the count word. -/
def varHost (h : FVec F S50000x128 .f32) : FVec F S128 .f32 :=
  Host.divf (Host.reduceAdd (mulf (subf h (lay (meanHost h))) (subf h (lay (meanHost h)))) (constant S_ .f32 0x00000000#32) reducesTo_S50000x128_S128_d0 h_S_)
    (broadcastInDim S128 ![] bcast_S_S128 (constant S_ .f32 0x47435000#32))

/-- Centred, scaled by the reciprocal root, scaled and shifted. -/
def preAct (h : FVec F S50000x128 .f32) (g b : FVec F S128 .f32) : FVec F S50000x128 .f32 :=
  addf (mulf (mulf (subf h (lay (meanHost h)))
      (lay (Host.rsqrt (addf (varHost h) (broadcastInDim S128 ![] bcast_S_S128 (constant S_ .f32 0x3727C5AC#32)))))) (lay g)) (lay b)

/-- The rectified normalisation. -/
def bnHost (h : FVec F S50000x128 .f32) (g b : FVec F S128 .f32) : FVec F S50000x128 .f32 :=
  select (cmpf .oge (preAct h g b) (broadcastInDim S50000x128 ![] bcast_S_S50000x128 (constant S_ .f32 0x00000000#32))) (preAct h g b)
    (mulf (broadcastInDim S50000x128 ![] bcast_S_S50000x128 (constant S_ .f32 0x3DCCCCCD#32)) (preAct h g b))

end Defs

theorem lay_apply (v : FVec Ideal S128 .f32) (p : Fin 50000) (q : Fin 128) : lay (F := Ideal) v (ix2 p q) = v (ix1 q) :=
  Cert.LibBiasRows.bias_host (by decide) v bcast_S128_S1x128_1 bcast_S1x128_S50000x128_0_1 p q

/-- A host sum over the rows from zero, at column q. -/
theorem colsum_host (x : FVec Ideal S50000x128 .f32) (q : Fin 128) :
    Host.reduceAdd (F := Ideal) x (constant S_ .f32 0x00000000#32) reducesTo_S50000x128_S128_d0 h_S_ (ix1 q)
      = zw + ∑ k : Fin 50000, x (ix2 k q) := by
  simp only [Host.reduceAdd, Ideal.hostReduceAdd_def]
  rw [Ideal.hostReduceAdd_single reducesTo_S50000x128_S128_d0 (by decide)]
  refine congrArg₂ (· + ·) rfl (Finset.sum_congr rfl fun k _ => ?_)
  exact congrArg x (funext fun a => Fin.ext (by match a with | ⟨0, _⟩ => rfl | ⟨1, _⟩ => rfl))

theorem meanHost_apply (h : FVec Ideal S50000x128 .f32) (q : Fin 128) : meanHost (F := Ideal) h (ix1 q) = meanRef h q := by
  show Ideal.div (Host.reduceAdd (F := Ideal) h (constant S_ .f32 0x00000000#32) reducesTo_S50000x128_S128_d0 h_S_ (ix1 q)) nw = _
  rw [colsum_host]
  rfl

theorem varHost_apply (h : FVec Ideal S50000x128 .f32) (q : Fin 128) : varHost (F := Ideal) h (ix1 q) = varRef h q := by
  show Ideal.div (Host.reduceAdd (F := Ideal) (mulf (subf h (lay (meanHost h))) (subf h (lay (meanHost h)))) (constant S_ .f32 0x00000000#32)
      reducesTo_S50000x128_S128_d0 h_S_ (ix1 q)) nw = _
  rw [colsum_host]
  unfold varRef
  refine congrArg (fun s => Ideal.div (zw + s) nw) (Finset.sum_congr rfl fun k _ => ?_)
  show (h (ix2 k q) - lay (meanHost h) (ix2 k q)) * (h (ix2 k q) - lay (meanHost h) (ix2 k q)) = _
  rw [lay_apply, meanHost_apply]

/-- The host lines' batch normalisation is the normalisation by the deviations' variance. -/
theorem bnHost_eq (h : FVec Ideal S50000x128 .f32) (g b : FVec Ideal S128 .f32) : bnHost (F := Ideal) h g b = bnRef h g b := by
  funext j
  obtain ⟨p, q, rfl⟩ : ∃ (p : Fin 50000) (q : Fin 128), j = ix2 p q := ⟨j 0, j 1, eq_ix2 j⟩
  have hpre : preAct (F := Ideal) h g b (ix2 p q)
      = ((h (ix2 p q) - meanRef h q) * Ideal.rsqrt (varRef h q + ew)) * g (ix1 q) + b (ix1 q) := by
    show ((h (ix2 p q) - lay (meanHost h) (ix2 p q))
        * lay (Host.rsqrt (addf (varHost h) (broadcastInDim S128 ![] bcast_S_S128 (constant S_ .f32 0x3727C5AC#32)))) (ix2 p q))
        * lay g (ix2 p q) + lay b (ix2 p q) = _
    rw [lay_apply, lay_apply, lay_apply, lay_apply, meanHost_apply]
    show ((h (ix2 p q) - meanRef h q) * Ideal.rsqrt (varHost (F := Ideal) h (ix1 q) + ew)) * g (ix1 q) + b (ix1 q) = _
    rw [varHost_apply]
  show Scalar.select (FloatOps.cmpf (F := Ideal) (φ := .f32) .oge (preAct (F := Ideal) h g b (ix2 p q)) zw) (preAct (F := Ideal) h g b (ix2 p q))
      (sw * preAct (F := Ideal) h g b (ix2 p q)) = _
  rw [hpre]
  rfl

end Cert.GcnRef

end
-- ==== Proof.RefValue.lean ====
/-
  What the reference program computes, one stretch of its host lines at a time: an affine layer, the aggregation over the
  edges, the batch normalisation with the rectifier, and the three again on the result. Each stretch's result is named as
  a function of the buffers the stretch reads; composing the six gives the result array as one function of the arguments,
  and no stretch writes an argument.
-/
import proofs.«126232_j32822140076791_1_alg».proof.Proof.RefChunks
import proofs.«126232_j32822140076791_1_alg».proof.Proof.RefGlue
import proofs.«126232_j32822140076791_1_alg».proof.Proof.Glue
import proofs.«126232_j32822140076791_1_alg».proof.Proof.LibDenseLayers

set_option maxRecDepth 16384

noncomputable section

namespace Cert.ReferenceIdeal.ValueP

open Cert.ReferenceIdeal Cert.ReferenceIdeal.Gen Idealize.ShloMosaic Idealize.ShloMosaic.TcCoe Idealize.SL.Sem Idealize.ShloMosaic.StableHlo
open Cert.Gcn Cert.GcnRef

/-! ## The two host products' operand indices -/

theorem da_l0 (i : S50000x128.Idx) (q : dot_S50000x256_S256x128_S50000x128_1_0_0_1_n_n.contr.Idx) :
    (dot_S50000x256_S256x128_S50000x128_1_0_0_1_n_n.lhsIdx i q 0).val = (i 0).val := by
  unfold DotDims.lhsIdx
  rw [dif_neg (show ¬(0 : Fin S50000x256.rank) ∈ dot_S50000x256_S256x128_S50000x128_1_0_0_1_n_n.lhsBatch by decide), dif_pos (show (0 : Fin S50000x256.rank) ∈ dot_S50000x256_S256x128_S50000x128_1_0_0_1_n_n.lhsNonContracting by decide)]
  rfl
theorem da_l1 (i : S50000x128.Idx) (q : dot_S50000x256_S256x128_S50000x128_1_0_0_1_n_n.contr.Idx) :
    (dot_S50000x256_S256x128_S50000x128_1_0_0_1_n_n.lhsIdx i q 1).val = (q ⟨0, by decide⟩).val :=
  dot_S50000x256_S256x128_S50000x128_1_0_0_1_n_n.lhsIdx_val_of_single rfl i q
theorem da_r0 (i : S50000x128.Idx) (q : dot_S50000x256_S256x128_S50000x128_1_0_0_1_n_n.contr.Idx) :
    (dot_S50000x256_S256x128_S50000x128_1_0_0_1_n_n.rhsIdx i q 0).val = (q ⟨0, by decide⟩).val :=
  dot_S50000x256_S256x128_S50000x128_1_0_0_1_n_n.rhsIdx_val_of_single rfl i q
theorem da_r1 (i : S50000x128.Idx) (q : dot_S50000x256_S256x128_S50000x128_1_0_0_1_n_n.contr.Idx) :
    (dot_S50000x256_S256x128_S50000x128_1_0_0_1_n_n.rhsIdx i q 1).val = (i 1).val := by
  unfold DotDims.rhsIdx
  rw [dif_neg (show ¬(1 : Fin S256x128.rank) ∈ dot_S50000x256_S256x128_S50000x128_1_0_0_1_n_n.rhsBatch by decide), dif_pos (show (1 : Fin S256x128.rank) ∈ dot_S50000x256_S256x128_S50000x128_1_0_0_1_n_n.rhsNonContracting by decide)]
  rfl
theorem db_l0 (i : S50000x128.Idx) (q : dot_S50000x128_S128x128_S50000x128_1_0_0_1_n_n.contr.Idx) :
    (dot_S50000x128_S128x128_S50000x128_1_0_0_1_n_n.lhsIdx i q 0).val = (i 0).val := by
  unfold DotDims.lhsIdx
  rw [dif_neg (show ¬(0 : Fin S50000x128.rank) ∈ dot_S50000x128_S128x128_S50000x128_1_0_0_1_n_n.lhsBatch by decide), dif_pos (show (0 : Fin S50000x128.rank) ∈ dot_S50000x128_S128x128_S50000x128_1_0_0_1_n_n.lhsNonContracting by decide)]
  rfl
theorem db_l1 (i : S50000x128.Idx) (q : dot_S50000x128_S128x128_S50000x128_1_0_0_1_n_n.contr.Idx) :
    (dot_S50000x128_S128x128_S50000x128_1_0_0_1_n_n.lhsIdx i q 1).val = (q ⟨0, by decide⟩).val :=
  dot_S50000x128_S128x128_S50000x128_1_0_0_1_n_n.lhsIdx_val_of_single rfl i q
theorem db_r0 (i : S50000x128.Idx) (q : dot_S50000x128_S128x128_S50000x128_1_0_0_1_n_n.contr.Idx) :
    (dot_S50000x128_S128x128_S50000x128_1_0_0_1_n_n.rhsIdx i q 0).val = (q ⟨0, by decide⟩).val :=
  dot_S50000x128_S128x128_S50000x128_1_0_0_1_n_n.rhsIdx_val_of_single rfl i q
theorem db_r1 (i : S50000x128.Idx) (q : dot_S50000x128_S128x128_S50000x128_1_0_0_1_n_n.contr.Idx) :
    (dot_S50000x128_S128x128_S50000x128_1_0_0_1_n_n.rhsIdx i q 1).val = (i 1).val := by
  unfold DotDims.rhsIdx
  rw [dif_neg (show ¬(1 : Fin S128x128.rank) ∈ dot_S50000x128_S128x128_S50000x128_1_0_0_1_n_n.rhsBatch by decide), dif_pos (show (1 : Fin S128x128.rank) ∈ dot_S50000x128_S128x128_S50000x128_1_0_0_1_n_n.rhsNonContracting by decide)]
  rfl

section Lists
variable {F : FTy → Type} [FloatOps F]

/-- The degrees, the test that they are positive and their powers -1/2. -/
abbrev opsB1a : List (HloOp τ sig (Elt F)) :=
  [ nullary main_cst (constant S_ .f32 0x3F800000#32),
    unary main_cst main_v11 (broadcastInDim S650000 ![] bcast_S_S650000 : (⟨S_, .f32⟩ : BufTy).Contents (Elt F) → (⟨S650000, .f32⟩ : BufTy).Contents (Elt F)),
    nullary main_cst_0 (constant S_ .f32 0x00000000#32),
    unary main_cst_0 main_v12 (broadcastInDim S50000 ![] bcast_S_S50000 : (⟨S_, .f32⟩ : BufTy).Contents (Elt F) → (⟨S50000, .f32⟩ : BufTy).Contents (Elt F)),
    unary main_v6 main_v13 (broadcastInDim S650000x1 ![0] bcast_S650000_S650000x1_0 : (⟨S650000, .i32⟩ : BufTy).Contents (Elt F) → (⟨S650000x1, .i32⟩ : BufTy).Contents (Elt F)),
    ternary main_v12 main_v13 main_v11 main_v14 ((fun x i u => Host.scatterAdd scatter_S50000_S650000x1_S650000_n_0_0_1 x i u) : (⟨S50000, .f32⟩ : BufTy).Contents (Elt F) → (⟨S650000x1, .i32⟩ : BufTy).Contents (Elt F) → (⟨S650000, .f32⟩ : BufTy).Contents (Elt F) → (⟨S50000, .f32⟩ : BufTy).Contents (Elt F)),
    nullary main_cst_1 (constant S_ .f32 0x00000000#32),
    unary main_cst_1 main_v15 (broadcastInDim S50000 ![] bcast_S_S50000 : (⟨S_, .f32⟩ : BufTy).Contents (Elt F) → (⟨S50000, .f32⟩ : BufTy).Contents (Elt F)),
    binary main_v14 main_v15 main_v16 (cmpf .ogt : (⟨S50000, .f32⟩ : BufTy).Contents (Elt F) → (⟨S50000, .f32⟩ : BufTy).Contents (Elt F) → (⟨S50000, .i1⟩ : BufTy).Contents (Elt F)),
    nullary main_cst_2 (constant S_ .f32 0xBF000000#32),
    unary main_cst_2 main_v17 (broadcastInDim S50000 ![] bcast_S_S50000 : (⟨S_, .f32⟩ : BufTy).Contents (Elt F) → (⟨S50000, .f32⟩ : BufTy).Contents (Elt F)),
    binary main_v14 main_v17 main_v18 (Host.powf : (⟨S50000, .f32⟩ : BufTy).Contents (Elt F) → (⟨S50000, .f32⟩ : BufTy).Contents (Elt F) → (⟨S50000, .f32⟩ : BufTy).Contents (Elt F)),
    nullary main_cst_3 (constant S_ .f32 0x00000000#32) ]
/-- The choice between the power and zero. -/
abbrev opsB1b : List (HloOp τ sig (Elt F)) :=
  [ TRef.unary (TRef.of (T := ⟨S_, .f32⟩) main_cst_3) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v16) (TRef.of (T := ⟨S50000, .f32⟩) main_v18) (TRef.of (T := ⟨S50000, .f32⟩) main_call0_v1) (TRef.of (T := ⟨S50000, .f32⟩) main_v19) select ]
/-- The degrees, the test and the powers again. -/
abbrev opsE1a : List (HloOp τ sig (Elt F)) :=
  [ nullary main_cst_17 (constant S_ .f32 0x3F800000#32),
    unary main_cst_17 main_v89 (broadcastInDim S650000 ![] bcast_S_S650000 : (⟨S_, .f32⟩ : BufTy).Contents (Elt F) → (⟨S650000, .f32⟩ : BufTy).Contents (Elt F)),
    nullary main_cst_18 (constant S_ .f32 0x00000000#32),
    unary main_cst_18 main_v90 (broadcastInDim S50000 ![] bcast_S_S50000 : (⟨S_, .f32⟩ : BufTy).Contents (Elt F) → (⟨S50000, .f32⟩ : BufTy).Contents (Elt F)),
    unary main_v84 main_v91 (broadcastInDim S650000x1 ![0] bcast_S650000_S650000x1_0 : (⟨S650000, .i32⟩ : BufTy).Contents (Elt F) → (⟨S650000x1, .i32⟩ : BufTy).Contents (Elt F)),
    ternary main_v90 main_v91 main_v89 main_v92 ((fun x i u => Host.scatterAdd scatter_S50000_S650000x1_S650000_n_0_0_1 x i u) : (⟨S50000, .f32⟩ : BufTy).Contents (Elt F) → (⟨S650000x1, .i32⟩ : BufTy).Contents (Elt F) → (⟨S650000, .f32⟩ : BufTy).Contents (Elt F) → (⟨S50000, .f32⟩ : BufTy).Contents (Elt F)),
    nullary main_cst_19 (constant S_ .f32 0x00000000#32),
    unary main_cst_19 main_v93 (broadcastInDim S50000 ![] bcast_S_S50000 : (⟨S_, .f32⟩ : BufTy).Contents (Elt F) → (⟨S50000, .f32⟩ : BufTy).Contents (Elt F)),
    binary main_v92 main_v93 main_v94 (cmpf .ogt : (⟨S50000, .f32⟩ : BufTy).Contents (Elt F) → (⟨S50000, .f32⟩ : BufTy).Contents (Elt F) → (⟨S50000, .i1⟩ : BufTy).Contents (Elt F)),
    nullary main_cst_20 (constant S_ .f32 0xBF000000#32),
    unary main_cst_20 main_v95 (broadcastInDim S50000 ![] bcast_S_S50000 : (⟨S_, .f32⟩ : BufTy).Contents (Elt F) → (⟨S50000, .f32⟩ : BufTy).Contents (Elt F)),
    binary main_v92 main_v95 main_v96 (Host.powf : (⟨S50000, .f32⟩ : BufTy).Contents (Elt F) → (⟨S50000, .f32⟩ : BufTy).Contents (Elt F) → (⟨S50000, .f32⟩ : BufTy).Contents (Elt F)),
    nullary main_cst_21 (constant S_ .f32 0x00000000#32) ]
/-- The choice again. -/
abbrev opsE1b : List (HloOp τ sig (Elt F)) :=
  [ TRef.unary (TRef.of (T := ⟨S_, .f32⟩) main_cst_21) (TRef.of (T := ⟨S_, .f32⟩) main_call2_v0) id,
    TRef.unary (TRef.of (T := ⟨S_, .f32⟩) main_call2_v0) (TRef.of (T := ⟨S50000, .f32⟩) main_call2_v1) (broadcastInDim S50000 ![] bcast_S_S50000),
    TRef.ternary (TRef.of (T := ⟨S50000, .i1⟩) main_v94) (TRef.of (T := ⟨S50000, .f32⟩) main_v96) (TRef.of (T := ⟨S50000, .f32⟩) main_call2_v1) (TRef.of (T := ⟨S50000, .f32⟩) main_v97) select ]

theorem B1_split : (opsB1 : List (HloOp τ sig (Elt F))) = opsB1a ++ opsB1b := rfl
theorem E1_split : (opsE1 : List (HloOp τ sig (Elt F))) = opsE1a ++ opsE1b := rfl

end Lists

/-! ## Each stretch's results, from any contents -/

section Stretches

variable (Wv : Valuation τ sig (Elt Ideal))

theorem A_v3 : after opsA Wv (Proc.devRef .tc main_v3) = srcIdx (F := Ideal) (Wv (Proc.devRef .tc main_arg1)) := by
  after_results <;> rfl
theorem A_v6 : after opsA Wv (Proc.devRef .tc main_v6) = dstIdx (F := Ideal) (Wv (Proc.devRef .tc main_arg1)) := by
  after_results <;> rfl
theorem A_v10 : after opsA Wv (Proc.devRef .tc main_v10)
    = Cert.LibDenseLayers.affine (Wv (Proc.devRef .tc main_arg0)) (Wv (Proc.devRef .tc main_arg2)) (Wv (Proc.devRef .tc main_arg3)) := by
  after_results
  exact Cert.LibDenseLayers.affine_of_dot (by decide) dot_S50000x256_S256x128_S50000x128_1_0_0_1_n_n rfl rfl da_l0 da_l1 da_r0 da_r1
    bcast_S128_S1x128_1 bcast_S1x128_S50000x128_0_1 _ _ _

theorem B1a_v16 : after opsB1a Wv (Proc.devRef .tc main_v16)
    = cmpf .ogt (degree (F := Ideal) (Wv (Proc.devRef .tc main_v6))) (broadcastInDim S50000 ![] bcast_S_S50000 (constant S_ .f32 0x00000000#32)) := by
  after_results <;> rfl
theorem B1a_v18 : after opsB1a Wv (Proc.devRef .tc main_v18)
    = Host.powf (degree (F := Ideal) (Wv (Proc.devRef .tc main_v6))) (broadcastInDim S50000 ![] bcast_S_S50000 (constant S_ .f32 0xBF000000#32)) := by
  after_results <;> rfl
theorem B1a_c3 : after opsB1a Wv (Proc.devRef .tc main_cst_3) = constant (F := Ideal) S_ .f32 0x00000000#32 := by
  after_results <;> rfl
theorem B1b_v19 : after opsB1b Wv (Proc.devRef .tc main_v19)
    = select (Wv (Proc.devRef .tc main_v16)) (Wv (Proc.devRef .tc main_v18))
        (broadcastInDim S50000 ![] bcast_S_S50000 (id (Wv (Proc.devRef .tc main_cst_3)))) := by
  after_results <;> rfl
theorem B1_v19 : after opsB1 Wv (Proc.devRef .tc main_v19) = degInv (F := Ideal) (Wv (Proc.devRef .tc main_v6)) := by
  rw [B1_split, StableHlo.after_append, B1b_v19, B1a_v16, B1a_v18, B1a_c3]
  rfl

set_option maxHeartbeats 4000000 in
theorem B2_v47 : after opsB2 Wv (Proc.devRef .tc main_v47)
    = aggOf (F := Ideal) (Wv (Proc.devRef .tc main_v19)) (Wv (Proc.devRef .tc main_v3)) (Wv (Proc.devRef .tc main_v6)) (Wv (Proc.devRef .tc main_v10)) := by
  after_results_simp <;> rfl

set_option maxHeartbeats 4000000 in
theorem C_v77 : after opsC Wv (Proc.devRef .tc main_v77)
    = bnHost (F := Ideal) (Wv (Proc.devRef .tc main_v47)) (Wv (Proc.devRef .tc main_arg6)) (Wv (Proc.devRef .tc main_arg7)) := by
  after_results_simp <;> rfl

theorem D_v81 : after opsD Wv (Proc.devRef .tc main_v81) = srcIdx (F := Ideal) (Wv (Proc.devRef .tc main_arg1)) := by
  after_results <;> rfl
theorem D_v84 : after opsD Wv (Proc.devRef .tc main_v84) = dstIdx (F := Ideal) (Wv (Proc.devRef .tc main_arg1)) := by
  after_results <;> rfl
theorem D_v88 : after opsD Wv (Proc.devRef .tc main_v88)
    = Cert.LibDenseLayers.affine (Wv (Proc.devRef .tc main_v77)) (Wv (Proc.devRef .tc main_arg4)) (Wv (Proc.devRef .tc main_arg5)) := by
  after_results
  exact Cert.LibDenseLayers.affine_of_dot (by decide) dot_S50000x128_S128x128_S50000x128_1_0_0_1_n_n rfl rfl db_l0 db_l1 db_r0 db_r1
    bcast_S128_S1x128_1 bcast_S1x128_S50000x128_0_1 _ _ _

theorem E1a_v94 : after opsE1a Wv (Proc.devRef .tc main_v94)
    = cmpf .ogt (degree (F := Ideal) (Wv (Proc.devRef .tc main_v84))) (broadcastInDim S50000 ![] bcast_S_S50000 (constant S_ .f32 0x00000000#32)) := by
  after_results <;> rfl
theorem E1a_v96 : after opsE1a Wv (Proc.devRef .tc main_v96)
    = Host.powf (degree (F := Ideal) (Wv (Proc.devRef .tc main_v84))) (broadcastInDim S50000 ![] bcast_S_S50000 (constant S_ .f32 0xBF000000#32)) := by
  after_results <;> rfl
theorem E1a_c21 : after opsE1a Wv (Proc.devRef .tc main_cst_21) = constant (F := Ideal) S_ .f32 0x00000000#32 := by
  after_results <;> rfl
theorem E1b_v97 : after opsE1b Wv (Proc.devRef .tc main_v97)
    = select (Wv (Proc.devRef .tc main_v94)) (Wv (Proc.devRef .tc main_v96))
        (broadcastInDim S50000 ![] bcast_S_S50000 (id (Wv (Proc.devRef .tc main_cst_21)))) := by
  after_results <;> rfl
theorem E1_v97 : after opsE1 Wv (Proc.devRef .tc main_v97) = degInv (F := Ideal) (Wv (Proc.devRef .tc main_v84)) := by
  rw [E1_split, StableHlo.after_append, E1b_v97, E1a_v94, E1a_v96, E1a_c21]
  rfl

set_option maxHeartbeats 4000000 in
theorem E2_v125 : after opsE2 Wv (Proc.devRef .tc main_v125)
    = aggOf (F := Ideal) (Wv (Proc.devRef .tc main_v97)) (Wv (Proc.devRef .tc main_v81)) (Wv (Proc.devRef .tc main_v84)) (Wv (Proc.devRef .tc main_v88)) := by
  after_results_simp <;> rfl

set_option maxHeartbeats 4000000 in
theorem F_v155 : after opsF Wv (Proc.devRef .tc main_v155)
    = bnHost (F := Ideal) (Wv (Proc.devRef .tc main_v125)) (Wv (Proc.devRef .tc main_arg8)) (Wv (Proc.devRef .tc main_arg9)) := by
  after_results_simp <;> rfl

end Stretches

/-! ## The whole program -/

/-- The graph convolution with batch normalisation, twice, as one function of the ten argument arrays. -/
def model (x : FVec Ideal S50000x256 .f32) (E : (⟨S2x600000, .i32⟩ : BufTy).Contents (Elt Ideal)) (W1 : FVec Ideal S256x128 .f32) (b1 : FVec Ideal S128 .f32)
    (W2 : FVec Ideal S128x128 .f32) (b2 g1 be1 g2 be2 : FVec Ideal S128 .f32) : FVec Ideal S50000x128 .f32 :=
  bnRef (aggregate (F := Ideal) (srcIdx E) (dstIdx E)
    (Cert.LibDenseLayers.affine (bnRef (aggregate (F := Ideal) (srcIdx E) (dstIdx E) (Cert.LibDenseLayers.affine x W1 b1)) g1 be1) W2 b2)) g2 be2

theorem value (Wv : Valuation τ sig (Elt Ideal)) : after ops Wv (Proc.devRef .tc main_v155)
    = model (Wv (Proc.devRef .tc main_arg0)) (Wv (Proc.devRef .tc main_arg1)) (Wv (Proc.devRef .tc main_arg2)) (Wv (Proc.devRef .tc main_arg3))
        (Wv (Proc.devRef .tc main_arg4)) (Wv (Proc.devRef .tc main_arg5)) (Wv (Proc.devRef .tc main_arg6)) (Wv (Proc.devRef .tc main_arg7))
        (Wv (Proc.devRef .tc main_arg8)) (Wv (Proc.devRef .tc main_arg9)) := by
  rw [after_ops, F_v155, E2_v125, E1_v97, keep_opsE1_v81, keep_opsE1_v84, keep_opsE1_v88, D_v81, D_v84, D_v88, C_v77, B2_v47, B1_v19,
    keep_opsB1_v3, keep_opsB1_v6, keep_opsB1_v10, A_v3, A_v6, A_v10, bnHost_eq, bnHost_eq]
  rw [keep_opsE2_arg8, keep_opsE1_arg8, keep_opsD_arg8, keep_opsC_arg8, keep_opsB2_arg8, keep_opsB1_arg8, keep_opsA_arg8,
    keep_opsE2_arg9, keep_opsE1_arg9, keep_opsD_arg9, keep_opsC_arg9, keep_opsB2_arg9, keep_opsB1_arg9, keep_opsA_arg9,
    keep_opsC_arg1, keep_opsB2_arg1, keep_opsB1_arg1, keep_opsA_arg1,
    keep_opsC_arg4, keep_opsB2_arg4, keep_opsB1_arg4, keep_opsA_arg4,
    keep_opsC_arg5, keep_opsB2_arg5, keep_opsB1_arg5, keep_opsA_arg5,
    keep_opsB2_arg6, keep_opsB1_arg6, keep_opsA_arg6, keep_opsB2_arg7, keep_opsB1_arg7, keep_opsA_arg7]
  rfl

theorem kept (Wv : Valuation τ sig (Elt Ideal)) :
    after ops Wv (Proc.devRef .tc main_arg0) = Wv (Proc.devRef .tc main_arg0)
    ∧ after ops Wv (Proc.devRef .tc main_arg1) = Wv (Proc.devRef .tc main_arg1)
    ∧ after ops Wv (Proc.devRef .tc main_arg2) = Wv (Proc.devRef .tc main_arg2)
    ∧ after ops Wv (Proc.devRef .tc main_arg3) = Wv (Proc.devRef .tc main_arg3)
    ∧ after ops Wv (Proc.devRef .tc main_arg4) = Wv (Proc.devRef .tc main_arg4)
    ∧ after ops Wv (Proc.devRef .tc main_arg5) = Wv (Proc.devRef .tc main_arg5)
    ∧ after ops Wv (Proc.devRef .tc main_arg6) = Wv (Proc.devRef .tc main_arg6)
    ∧ after ops Wv (Proc.devRef .tc main_arg7) = Wv (Proc.devRef .tc main_arg7)
    ∧ after ops Wv (Proc.devRef .tc main_arg8) = Wv (Proc.devRef .tc main_arg8)
    ∧ after ops Wv (Proc.devRef .tc main_arg9) = Wv (Proc.devRef .tc main_arg9) := by
  rw [after_ops]
  refine ⟨?_, ?_, ?_, ?_, ?_, ?_, ?_, ?_, ?_, ?_⟩
  · rw [keep_opsF_arg0, keep_opsE2_arg0, keep_opsE1_arg0, keep_opsD_arg0, keep_opsC_arg0, keep_opsB2_arg0, keep_opsB1_arg0, keep_opsA_arg0]
  · rw [keep_opsF_arg1, keep_opsE2_arg1, keep_opsE1_arg1, keep_opsD_arg1, keep_opsC_arg1, keep_opsB2_arg1, keep_opsB1_arg1, keep_opsA_arg1]
  · rw [keep_opsF_arg2, keep_opsE2_arg2, keep_opsE1_arg2, keep_opsD_arg2, keep_opsC_arg2, keep_opsB2_arg2, keep_opsB1_arg2, keep_opsA_arg2]
  · rw [keep_opsF_arg3, keep_opsE2_arg3, keep_opsE1_arg3, keep_opsD_arg3, keep_opsC_arg3, keep_opsB2_arg3, keep_opsB1_arg3, keep_opsA_arg3]
  · rw [keep_opsF_arg4, keep_opsE2_arg4, keep_opsE1_arg4, keep_opsD_arg4, keep_opsC_arg4, keep_opsB2_arg4, keep_opsB1_arg4, keep_opsA_arg4]
  · rw [keep_opsF_arg5, keep_opsE2_arg5, keep_opsE1_arg5, keep_opsD_arg5, keep_opsC_arg5, keep_opsB2_arg5, keep_opsB1_arg5, keep_opsA_arg5]
  · rw [keep_opsF_arg6, keep_opsE2_arg6, keep_opsE1_arg6, keep_opsD_arg6, keep_opsC_arg6, keep_opsB2_arg6, keep_opsB1_arg6, keep_opsA_arg6]
  · rw [keep_opsF_arg7, keep_opsE2_arg7, keep_opsE1_arg7, keep_opsD_arg7, keep_opsC_arg7, keep_opsB2_arg7, keep_opsB1_arg7, keep_opsA_arg7]
  · rw [keep_opsF_arg8, keep_opsE2_arg8, keep_opsE1_arg8, keep_opsD_arg8, keep_opsC_arg8, keep_opsB2_arg8, keep_opsB1_arg8, keep_opsA_arg8]
  · rw [keep_opsF_arg9, keep_opsE2_arg9, keep_opsE1_arg9, keep_opsD_arg9, keep_opsC_arg9, keep_opsB2_arg9, keep_opsB1_arg9, keep_opsA_arg9]

/-- The reference's run: every weakly fair execution terminates with the result array at the model of the argument arrays
    and the arguments as launched. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v155)
        = model (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7)) (m ((c.tc : Thread nD τ).loc main_arg8))
            (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c =>
    have K := kept (launchContents m c)
    ⟨(h c main_v155).trans (value (launchContents m c)),
      (h c main_arg0).trans K.1, (h c main_arg1).trans K.2.1, (h c main_arg2).trans K.2.2.1, (h c main_arg3).trans K.2.2.2.1,
      (h c main_arg4).trans K.2.2.2.2.1, (h c main_arg5).trans K.2.2.2.2.2.1, (h c main_arg6).trans K.2.2.2.2.2.2.1,
      (h c main_arg7).trans K.2.2.2.2.2.2.2.1, (h c main_arg8).trans K.2.2.2.2.2.2.2.2.1, (h c main_arg9).trans K.2.2.2.2.2.2.2.2.2⟩)
    (run_seq scopedRefs_eq scopedSems_eq defs main (fun _ => ops) main_eq (fun _ => ops_sub) m ρ)

end Cert.ReferenceIdeal.ValueP

end
-- ==== Proof.Bridge.lean ====
/-
  The two programs compute one function of real arguments. The reference normalises with the variance of the deviations, the
  kernel with the mean of the squares minus the square of the mean; on a matrix of real numbers the two are equal. The
  matrices being normalised are aggregates of affine layers of real arguments, and the aggregation, the affine layer and
  the normalisation all keep real entries real.
-/
import proofs.«126232_j32822140076791_1_alg».proof.Proof.RefValue
import proofs.«126232_j32822140076791_1_alg».proof.Proof.Glue

noncomputable section

namespace Cert.Gcn

open Cert.KernelIdeal Idealize.ShloMosaic Cert.LibMoments

/-- The reference's model with the moments' variance in place of the deviations' variance, for real arguments. -/
theorem model_eq (x : FVec Ideal S50000x256 .f32) (E : (⟨S2x600000, .i32⟩ : BufTy).Contents (Elt Ideal)) (W1 : FVec Ideal S256x128 .f32)
    (b1 : FVec Ideal S128 .f32) (W2 : FVec Ideal S128x128 .f32) (b2 g1 be1 g2 be2 : FVec Ideal S128 .f32)
    (hx : ∀ i, IsR (x i)) (hW1 : ∀ i, IsR (W1 i)) (hb1 : ∀ i, IsR (b1 i)) (hW2 : ∀ i, IsR (W2 i)) (hb2 : ∀ i, IsR (b2 i))
    (hg1 : ∀ i, IsR (g1 i)) (hbe1 : ∀ i, IsR (be1 i)) :
    Cert.ReferenceIdeal.ValueP.model x E W1 b1 W2 b2 g1 be1 g2 be2
      = bnAcc (aggregate (F := Ideal) (srcIdx E) (dstIdx E)
          (Cert.LibDenseLayers.affine (bnAcc (aggregate (F := Ideal) (srcIdx E) (dstIdx E) (Cert.LibDenseLayers.affine x W1 b1)) g1 be1) W2 b2)) g2 be2 := by
  have r1 : ∀ i, IsR (aggregate (F := Ideal) (srcIdx E) (dstIdx E) (Cert.LibDenseLayers.affine x W1 b1) i) :=
    isR_aggregate _ _ _ (isR_affine x W1 b1 hx hW1 hb1)
  rw [bnAcc_eq_bnRef rfl _ r1]
  have r2 : ∀ i, IsR (bnRef (aggregate (F := Ideal) (srcIdx E) (dstIdx E) (Cert.LibDenseLayers.affine x W1 b1)) g1 be1 i) :=
    isR_bnRef rfl _ r1 g1 be1 hg1 hbe1
  have r3 : ∀ i, IsR (aggregate (F := Ideal) (srcIdx E) (dstIdx E)
      (Cert.LibDenseLayers.affine (bnRef (aggregate (F := Ideal) (srcIdx E) (dstIdx E) (Cert.LibDenseLayers.affine x W1 b1)) g1 be1) W2 b2) i) :=
    isR_aggregate _ _ _ (isR_affine _ W2 b2 r2 hW2 hb2)
  rw [bnAcc_eq_bnRef rfl _ r3]
  rfl

end Cert.Gcn

end
-- ==== Proof.Finite.lean ====
/-
  The precondition read: every float argument array holds real numbers. The precondition function tests, array by array,
  that every absolute value is below the single-precision infinity and takes the conjunction; an extended real whose
  absolute value max x (-x) is below the top element is a real number.
-/
import proofs.«126232_j32822140076791_1_alg».proof.Defs
import proofs.«126232_j32822140076791_1_alg».proof.Proof.Gen.Pre_finite_inputs
import proofs.«126232_j32822140076791_1_alg».proof.Proof.LibMoments
import Idealize.ShloMosaic.Lib.ReduceAll
import Idealize.ShloMosaic.Lib.Affine
import Idealize.ShloMosaic.Lib.ValueIdx
import Idealize.ShloMosaic.Lib.Pipeline.Value

noncomputable section

namespace Cert.GcnFinite

open Idealize.ShloMosaic Idealize.ShloMosaic.ValueIdx Cert.LibMoments Idealize.SL.Sem

theorem isR_of_lt_top {x : EReal} (h1 : x < ⊤) (h2 : -x < ⊤) : IsR x := by
  induction x using EReal.rec with
  | bot => exact absurd h2 (by simp)
  | coe r => exact ⟨r, rfl⟩
  | top => exact absurd h1 (by simp)

/-- The single-precision infinity word is the top element. -/
theorem inf_word : Ideal.ofBits .f32 0x7F800000#32 = ⊤ := by simp [Ideal.ofBits, Ideal.ieee]

/-- An entry whose absolute value tests below the infinity word is a real number. -/
theorem isR_of_test (x : EReal)
    (h : FloatOps.cmpf (F := Ideal) (φ := .f32) .olt (FloatOps.hostAbsf (F := Ideal) (φ := .f32) x) (Ideal.ofBits .f32 0x7F800000#32) = 1#1) : IsR x := by
  rw [inf_word] at h
  have h' : max x (-x) < ⊤ := by
    by_contra hn
    have e : FloatOps.cmpf (F := Ideal) (φ := .f32) .olt (FloatOps.hostAbsf (F := Ideal) (φ := .f32) x) (⊤ : EReal) = 0#1 := by
      show BitVec.ofBool (decide (max x (-x) < ⊤)) = 0#1
      rw [decide_eq_false hn]; rfl
    rw [e] at h
    exact absurd h (by decide)
  exact isR_of_lt_top (lt_of_le_of_lt (le_max_left _ _) h') (lt_of_le_of_lt (le_max_right _ _) h')

instance : Subsingleton (⟨0, ![]⟩ : Shape).Idx := ⟨fun a b => funext fun d => d.elim0⟩

/-- One array's test: the conjunction over all entries of "absolute value below infinity" gives real entries. -/
theorem all_real {s : Shape} (A : FVec Ideal s .f32) (hb : (⟨0, ![]⟩ : Shape).BroadcastsInDim s (![] : Fin 0 → Fin s.rank))
    {axes : List (Fin s.rank)} (hr : s.ReducesTo axes ⟨0, ![]⟩) (hu : 0 < (⟨0, ![]⟩ : Shape).numel) (j : (⟨0, ![]⟩ : Shape).Idx)
    (e : Host.reduce IntOp.andi (cmpf .olt (Host.absf A) (broadcastInDim s ![] hb (constant (F := Ideal) ⟨0, ![]⟩ .f32 0x7F800000#32)))
      (constantI ⟨0, ![]⟩ 1 1#1) hr hu j = 1#1) (i : s.Idx) : IsR (A i) := by
  have hi := Host.reduce_andi_all _ _ hr hu j e i
  rw [cmpf_apply] at hi
  have hbc : broadcastInDim s ![] hb (constant (F := Ideal) ⟨0, ![]⟩ .f32 0x7F800000#32) i = Ideal.ofBits .f32 0x7F800000#32 :=
    broadcastInDim_apply _ hb (constant (F := Ideal) ⟨0, ![]⟩ .f32 0x7F800000#32) i (fun a => a.elim0) (fun a => a.elim0)
  rw [hbc] at hi
  exact isR_of_test (A i) hi

open Cert.KernelIdeal in
/-- Under the precondition every float argument of the idealized kernel program holds real numbers. -/
theorem real_inputs (m : (ℓ : Loc nD τ sig) → Buf (Elt Ideal) ℓ) (hpre : Cert.Pre_KernelIdeal m) (c : Dev nD) :
    (∀ i, IsR (m ((c.tc : Thread nD τ).loc main_arg0) i)) ∧ (∀ i, IsR (m ((c.tc : Thread nD τ).loc main_arg2) i))
    ∧ (∀ i, IsR (m ((c.tc : Thread nD τ).loc main_arg3) i)) ∧ (∀ i, IsR (m ((c.tc : Thread nD τ).loc main_arg4) i))
    ∧ (∀ i, IsR (m ((c.tc : Thread nD τ).loc main_arg5) i)) ∧ (∀ i, IsR (m ((c.tc : Thread nD τ).loc main_arg6) i))
    ∧ (∀ i, IsR (m ((c.tc : Thread nD τ).loc main_arg7) i)) ∧ (∀ i, IsR (m ((c.tc : Thread nD τ).loc main_arg8) i))
    ∧ (∀ i, IsR (m ((c.tc : Thread nD τ).loc main_arg9) i)) := by
  have h := congrFun (hpre c) ix0
  dsimp only [Cert.Pre_finite_inputs.fn, Cert.Pre_finite_inputs.fn_part1, Cert.Pre_finite_inputs.fn_part2] at h
  obtain ⟨h8, h9⟩ := IntOp.andi_eq_one.mp h
  obtain ⟨h7, h8⟩ := IntOp.andi_eq_one.mp h8
  obtain ⟨h6, h7⟩ := IntOp.andi_eq_one.mp h7
  obtain ⟨h5, h6⟩ := IntOp.andi_eq_one.mp h6
  obtain ⟨h4, h5⟩ := IntOp.andi_eq_one.mp h5
  obtain ⟨h3, h4⟩ := IntOp.andi_eq_one.mp h4
  obtain ⟨h2, h3⟩ := IntOp.andi_eq_one.mp h3
  obtain ⟨h0, h2⟩ := IntOp.andi_eq_one.mp h2
  exact ⟨all_real _ _ _ _ _ h0, all_real _ _ _ _ _ h2, all_real _ _ _ _ _ h3, all_real _ _ _ _ _ h4, all_real _ _ _ _ _ h5,
    all_real _ _ _ _ _ h6, all_real _ _ _ _ _ h7, all_real _ _ _ _ _ h8, all_real _ _ _ _ _ h9⟩

end Cert.GcnFinite

end
-- ==== Proof.lean ====
/-
  A two-layer graph convolution with batch normalisation: a Pallas program of six kernel regions (two linear layers, two
  accumulations of column sums, two normalisations) among host lines, against a plain reference.

  Both programs compute, twice over, y = x W + b, the aggregate a of y over the edges weighted by deg^(-1/2) deg^(-1/2), and
  the batch normalisation of a followed by the leaky rectifier. They differ in one place: the reference takes the variance
  of a column as the mean of the squared deviations from its mean, the kernel accumulates the column sums and sums of
  squares block by block and takes the mean of the squares minus the square of the mean. For real entries the two are the
  same number, and under the precondition every entry is real: the arguments are finite, and affine layers, the aggregation
  (a degree is a count, so its power -1/2 is real) and the normalisation (a variance is not negative, so the reciprocal
  root of it plus epsilon is real) keep real entries real.

  The frames of the two kernel programs are the generated ones; the reference's frame is its run with the result dropped;
  the ideal pass rewrote nothing.
-/
import proofs.«126232_j32822140076791_1_alg».proof.Defs
import proofs.«126232_j32822140076791_1_alg».proof.Proof.Gen.Kernel
import proofs.«126232_j32822140076791_1_alg».proof.Proof.Gen.Kernel.Skeleton
import proofs.«126232_j32822140076791_1_alg».proof.Proof.Gen.Kernel.Launch
import proofs.«126232_j32822140076791_1_alg».proof.Proof.Gen.Kernel.Points
import proofs.«126232_j32822140076791_1_alg».proof.Proof.Gen.Kernel.Frame
import proofs.«126232_j32822140076791_1_alg».proof.Proof.Gen.KernelIdeal
import proofs.«126232_j32822140076791_1_alg».proof.Proof.Gen.KernelIdeal.Skeleton
import proofs.«126232_j32822140076791_1_alg».proof.Proof.Gen.KernelIdeal.Launch
import proofs.«126232_j32822140076791_1_alg».proof.Proof.Gen.KernelIdeal.Points
import proofs.«126232_j32822140076791_1_alg».proof.Proof.Gen.KernelIdeal.Frame
import proofs.«126232_j32822140076791_1_alg».proof.Proof.Gen.ReferenceIdeal
import proofs.«126232_j32822140076791_1_alg».proof.Proof.Gen.Pre_finite_inputs
import proofs.«126232_j32822140076791_1_alg».proof.Proof.KernelValue
import proofs.«126232_j32822140076791_1_alg».proof.Proof.RefValue
import proofs.«126232_j32822140076791_1_alg».proof.Proof.Bridge
import proofs.«126232_j32822140076791_1_alg».proof.Proof.Finite
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.ValueP.run m ρ)

theorem preserves : Cert.preserves_Kernel_KernelIdeal := trivial

/-- The two idealized programs end with equal results: the kernel's result array is its composed function of the
    arguments, the reference's its model of arguments that agree, and for real arguments the two are one function. -/
theorem algebraic : Cert.algebraic_KernelIdeal_ReferenceIdeal := by
  intro m ρ m' ρ' hpre hagree
  refine ⟨fun c => Cert.KernelIdeal.Whole.n2 m c, Cert.KernelIdeal.Whole.run m ρ, ?_⟩
  refine (θ_run Cert.ReferenceIdeal.defs _ _).mono (fun _ h c => ⟨(h c).1.trans ?_, (h c).2⟩)
    (Cert.ReferenceIdeal.ValueP.run m' ρ')
  obtain ⟨a0, a1, a2, a3, a4, a5, a6, a7, a8, a9⟩ := hagree c
  obtain ⟨r0, r2, r3, r4, r5, r6, r7, -, -⟩ := Cert.GcnFinite.real_inputs m hpre c
  rw [a0, a1, a2, a3, a4, a5, a6, a7, a8, a9]
  exact Cert.Gcn.model_eq _ _ _ _ _ _ _ _ _ _ r0 r2 r3 r4 r5 r6 r7

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
